-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096 : Shape := ⟨1, ![4096]⟩
abbrev S16384x4096 : Shape := ⟨2, ![16384, 4096]⟩
abbrev S16384 : Shape := ⟨1, ![16384]⟩
abbrev S4096x16384 : Shape := ⟨2, ![4096, 16384]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_
  bcast_S_S4096x16384 : S_.BroadcastsInDim S4096x16384 (![] : Fin 0 → Fin S4096x16384.rank)
  reducesTo_S4096x16384_S_d0_1 : S4096x16384.ReducesTo [0, 1] S_

variable [Facts]

def fn_part2 {F : FTy → Type} [FloatOps F] (main_arg7 : FVec F S4096x16384 .f32) (main_arg8 : FVec F S4096 .f32) (main_v33 : IVec S_ 1) : IVec S_ 1 :=
  let main_v34 : FVec F S4096x16384 .f32 := Host.absf main_arg7
  let main_cst_12 : FVec F S_ .f32 := constant S_ .f32 0x7F800000#32
  let main_v35 : FVec F S4096x16384 .f32 := broadcastInDim S4096x16384 ![] bcast_S_S4096x16384 main_cst_12
  let main_v36 : IVec S4096x16384 1 := cmpf .olt main_v34 main_v35
  let main_c_13 : IVec S_ 1 := constantI S_ 1 1#1
  let main_v37 : IVec S_ 1 := (fun x v => Host.reduce IntOp.andi x v reducesTo_S4096x16384_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  main_v43

def fn_part1 {F : FTy → Type} [FloatOps F] (main_arg4 : FVec F S4096 .f32) (main_arg5 : FVec F S16384x4096 .f32) (main_arg6 : FVec F S16384 .f32) (main_arg7 : FVec F S4096x16384 .f32) (main_arg8 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S16384x4096 .f32 := Host.absf main_arg5
  let main_cst_8 : FVec F S_ .f32 := constant S_ .f32 0x7F800000#32
  let main_v25 : FVec F S16384x4096 .f32 := broadcastInDim S16384x4096 ![] bcast_S_S16384x4096 main_cst_8
  let main_v26 : IVec S16384x4096 1 := cmpf .olt main_v24 main_v25
  let main_c_9 : IVec S_ 1 := constantI S_ 1 1#1
  let main_v27 : IVec S_ 1 := (fun x v => Host.reduce IntOp.andi x v reducesTo_S16384x4096_S_d0_1 h_S_) main_v26 main_c_9
  let main_v28 : IVec S_ 1 := andi main_v23 main_v27
  let main_v29 : FVec F S16384 .f32 := Host.absf main_arg6
  let main_cst_10 : FVec F S_ .f32 := constant S_ .f32 0x7F800000#32
  let main_v30 : FVec F S16384 .f32 := broadcastInDim S16384 ![] bcast_S_S16384 main_cst_10
  let main_v31 : IVec S16384 1 := cmpf .olt main_v29 main_v30
  let main_c_11 : IVec S_ 1 := constantI S_ 1 1#1
  let main_v32 : IVec S_ 1 := (fun x v => Host.reduce IntOp.andi x v reducesTo_S16384_S_d0 h_S_) main_v31 main_c_11
  let main_v33 : IVec S_ 1 := andi main_v28 main_v32
  fn_part2 (F := F) main_arg7 main_arg8 main_v33

def fn {F : FTy → Type} [FloatOps F] (main_arg0 : FVec F S2x2048x4096 .f32) (main_arg1 : FVec F S2x2048x4096 .f32) (main_arg2 : FVec F S4096 .f32) (main_arg3 : FVec F S4096 .f32) (main_arg4 : FVec F S4096 .f32) (main_arg5 : FVec F S16384x4096 .f32) (main_arg6 : FVec F S16384 .f32) (main_arg7 : FVec F S4096x16384 .f32) (main_arg8 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S2x2048x4096 .f32 := Host.absf main_arg1
  let main_cst_0 : FVec F S_ .f32 := constant S_ .f32 0x7F800000#32
  let main_v5 : FVec F S2x2048x4096 .f32 := broadcastInDim S2x2048x4096 ![] bcast_S_S2x2048x4096 main_cst_0
  let main_v6 : IVec S2x2048x4096 1 := cmpf .olt main_v4 main_v5
  let main_c_1 : IVec S_ 1 := constantI S_ 1 1#1
  let main_v7 : IVec S_ 1 := (fun x v => Host.reduce IntOp.andi x v reducesTo_S2x2048x4096_S_d0_1_2 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_v13 main_v16
-- ==== Kernel.lean ====
abbrev S2x2048x4096 : Shape := ⟨3, ![2, 2048, 4096]⟩
abbrev S4096 : Shape := ⟨1, ![4096]⟩
abbrev S16384x4096 : Shape := ⟨2, ![16384, 4096]⟩
abbrev S16384 : Shape := ⟨1, ![16384]⟩
abbrev S4096x16384 : Shape := ⟨2, ![4096, 16384]⟩
abbrev S4096x4096 : Shape := ⟨2, ![4096, 4096]⟩
abbrev S1x4096 : Shape := ⟨2, ![1, 4096]⟩
abbrev S1x16384 : Shape := ⟨2, ![1, 16384]⟩
abbrev S512x4096 : Shape := ⟨2, ![512, 4096]⟩
abbrev S512 : Shape := ⟨1, ![512]⟩
abbrev S512x1 : Shape := ⟨2, ![512, 1]⟩
abbrev S256x4096 : Shape := ⟨2, ![256, 4096]⟩
abbrev S1x256 : Shape := ⟨2, ![1, 256]⟩
abbrev S4096x256 : Shape := ⟨2, ![4096, 256]⟩
abbrev S1024x1024 : Shape := ⟨2, ![1024, 1024]⟩
abbrev S2048x1024 : Shape := ⟨2, ![2048, 1024]⟩
abbrev S1024x2048 : Shape := ⟨2, ![1024, 2048]⟩
abbrev S1x2048 : Shape := ⟨2, ![1, 2048]⟩

abbrev nBuf : Space → Nat
  | .hbm => 22
  | .vmem => 29
  | .smem => 0
  | _ => 0

abbrev bufTy : (tb : Table) → Fin (tcTables nBuf tb) → BufTy
  | .hbm, ⟨0, _⟩ => ⟨S2x2048x4096, .f32⟩
  | .hbm, ⟨1, _⟩ => ⟨S2x2048x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S16384x4096, .f32⟩
  | .hbm, ⟨6, _⟩ => ⟨S16384, .f32⟩
  | .hbm, ⟨7, _⟩ => ⟨S4096x16384, .f32⟩
  | .hbm, ⟨8, _⟩ => ⟨S4096, .f32⟩
  | .hbm, ⟨9, _⟩ => ⟨S4096x4096, .f32⟩
  | .hbm, ⟨10, _⟩ => ⟨S4096x4096, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S1x16384, .f32⟩
  | .hbm, ⟨15, _⟩ => ⟨S1x4096, .f32⟩
  | .hbm, ⟨16, _⟩ => ⟨S4096x16384, .bf16⟩
  | .hbm, ⟨17, _⟩ => ⟨S4096x4096, .f32⟩
  | .hbm, ⟨18, _⟩ => ⟨S4096x4096, .bf16⟩
  | .hbm, ⟨19, _⟩ => ⟨S4096x16384, .bf16⟩
  | .hbm, ⟨20, _⟩ => ⟨S4096x4096, .f32⟩
  | .hbm, ⟨21, _⟩ => ⟨S2x2048x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S512x4096, .f32⟩
  | .local _ .vmem, ⟨8, _⟩ => ⟨S512x4096, .f32⟩
  | .local _ .vmem, ⟨9, _⟩ => ⟨S512x4096, .bf16⟩
  | .local _ .vmem, ⟨10, _⟩ => ⟨S512x4096, .bf16⟩
  | .local _ .vmem, ⟨11, _⟩ => ⟨S4096x4096, .bf16⟩
  | .local _ .vmem, ⟨12, _⟩ => ⟨S256x4096, .f32⟩
  | .local _ .vmem, ⟨13, _⟩ => ⟨S256x4096, .f32⟩
  | .local _ .vmem, ⟨14, _⟩ => ⟨S1x256, .f32⟩
  | .local _ .vmem, ⟨15, _⟩ => ⟨S1x256, .f32⟩
  | .local _ .vmem, ⟨16, _⟩ => ⟨S4096x256, .bf16⟩
  | .local _ .vmem, ⟨17, _⟩ => ⟨S4096x256, .bf16⟩
  | .local _ .vmem, ⟨18, _⟩ => ⟨S1024x1024, .bf16⟩
  | .local _ .vmem, ⟨19, _⟩ => ⟨S1024x1024, .bf16⟩
  | .local _ .vmem, ⟨20, _⟩ => ⟨S2048x1024, .bf16⟩
  | .local _ .vmem, ⟨21, _⟩ => ⟨S2048x1024, .bf16⟩
  | .local _ .vmem, ⟨22, _⟩ => ⟨S1024x2048, .f32⟩
  | .local _ .vmem, ⟨23, _⟩ => ⟨S1024x2048, .f32⟩
  | .local _ .vmem, ⟨24, _⟩ => ⟨S1x2048, .f32⟩
  | .local _ .vmem, ⟨25, _⟩ => ⟨S1x2048, .f32⟩
  | .local _ .vmem, ⟨26, _⟩ => ⟨S1024x2048, .f32⟩
  | .local _ .vmem, ⟨27, _⟩ => ⟨S1024x2048, .f32⟩
  | .local _ .vmem, ⟨28, _⟩ => ⟨S1024x2048, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S4096x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![4, 2, 16], ![false, false, false]⟩

def k2_cond2 (i : grid2.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S1024x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  shapeCasts_S2x2048x4096_S4096x4096 : S2x2048x4096.ShapeCasts S4096x4096
  shapeCasts_S4096_S1x4096 : S4096.ShapeCasts S1x4096
  shapeCasts_S16384_S1x16384 : S16384.ShapeCasts S1x16384
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  reduces_S512x4096_S512 : S512x4096.Reduces [1] S512
  shapeCasts_S512_S512x1 : S512.ShapeCasts S512x1
  broadcasts_S512x1_S512x4096 : S512x1.Broadcasts S512x4096
  packedbf16_S512x4096_S512x4096_0_0 : (Rect.unit (s := S512x4096) ![0, 0] S512x4096.size inb_S512x4096_S512x4096_0_0).PackedRows (EltTy.packing .bf16)
  inb_S256x4096_S256x4096_0_0 : ∀ a, (![0, 0] : Fin 2 → Nat) a + S256x4096.size a ≤ S256x4096.size a
  h_S256x4096 : 0 < S256x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  packedbf16_S4096x256_S4096x256_0_0 : (Rect.unit (s := S4096x256) ![0, 0] S4096x256.size inb_S4096x256_S4096x256_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S4096x4096_S2x2048x4096 : S4096x4096.ShapeCasts S2x2048x4096
  dot_S4096x4096_S256x4096_S4096x256_1_1_0_0_n_n_wf : DotDims.WF S4096x4096 S256x4096 S4096x256 [1] [1] [0] [0] [] []
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S4096x4096.size a
  hwx0_5 : ∀ i : grid0.Coords, EltTy.bits .f32 = 32 ∨ (Rect.block (s := S4096x4096) S512x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x4096.size a ≤ S4096x4096.size a
  hwx0_6 : ∀ i : grid0.Coords, EltTy.bits .bf16 = 32 ∨ (Rect.block (s := S4096x4096) S512x4096.size (cc0_transform_6 i) (hinb0_6 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x4096.size a ≤ S4096x4096.size a
  hwx1_0 : ∀ i : grid1.Coords, EltTy.bits .bf16 = 32 ∨ (Rect.block (s := S4096x4096) S4096x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S16384x4096.size a
  hwx1_1 : ∀ i : grid1.Coords, EltTy.bits .f32 = 32 ∨ (Rect.block (s := S16384x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x16384.size a
  hwx1_2 : ∀ i : grid1.Coords, EltTy.bits .f32 = 32 ∨ (Rect.block (s := S1x16384) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S4096x16384.size a
  hwx1_3 : ∀ i : grid1.Coords, EltTy.bits .bf16 = 32 ∨ (Rect.block (s := S4096x16384) S4096x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x16384.size a
  hwx2_0 : ∀ i : grid2.Coords, EltTy.bits .bf16 = 32 ∨ (Rect.block (s := S4096x16384) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S4096x16384.size a
  hwx2_1 : ∀ i : grid2.Coords, EltTy.bits .bf16 = 32 ∨ (Rect.block (s := S4096x16384) S2048x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x2048.size a ≤ S4096x4096.size a
  hwx2_2 : ∀ i : grid2.Coords, EltTy.bits .f32 = 32 ∨ (Rect.block (s := S4096x4096) S1024x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x4096.size a
  hwx2_3 : ∀ i : grid2.Coords, EltTy.bits .f32 = 32 ∨ (Rect.block (s := S1x4096) S1x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x2048.size a ≤ S4096x4096.size a
  hwx2_4 : ∀ i : grid2.Coords, EltTy.bits .f32 = 32 ∨ (Rect.block (s := S4096x4096) S1024x2048.size (cc2_transform_4 i) (hinb2_4 i)).WholeWords (EltTy.packing .f32)

variable [Facts₀]

def dot_S4096x4096_S256x4096_S4096x256_1_1_0_0_n_n : DotDims S4096x4096 S256x4096 S4096x256 where
  lhsContracting := [1]
  rhsContracting := [1]
  lhsNonContracting := [0]
  rhsNonContracting := [0]
  lhsBatch := []
  rhsBatch := []
  wf := dot_S4096x4096_S256x4096_S4096x256_1_1_0_0_n_n_wf
def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S512x4096.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S512x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8_1) S4096x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S4096x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8_0) S1024x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1024x2048.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096 : Shape := ⟨1, ![4096]⟩
abbrev S16384x4096 : Shape := ⟨2, ![16384, 4096]⟩
abbrev S16384 : Shape := ⟨1, ![16384]⟩
abbrev S4096x16384 : Shape := ⟨2, ![4096, 16384]⟩
abbrev S1x1x4096 : Shape := ⟨3, ![1, 1, 4096]⟩
abbrev S_ : Shape := ⟨0, ![]⟩
abbrev S2x2048 : Shape := ⟨2, ![2, 2048]⟩
abbrev S2x2048x1 : Shape := ⟨3, ![2, 2048, 1]⟩
abbrev S2x2048x16384 : Shape := ⟨3, ![2, 2048, 16384]⟩
abbrev S1x1x16384 : Shape := ⟨3, ![1, 1, 16384]⟩

abbrev nBuf : Space → Nat
  | .hbm => 83
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2x2048x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S16384x4096, .f32⟩
  | .hbm, ⟨6, _⟩ => ⟨S16384, .f32⟩
  | .hbm, ⟨7, _⟩ => ⟨S4096x16384, .f32⟩
  | .hbm, ⟨8, _⟩ => ⟨S4096, .f32⟩
  | .hbm, ⟨9, _⟩ => ⟨S2x2048x4096, .f32⟩
  | .hbm, ⟨10, _⟩ => ⟨S1x1x4096, .f32⟩
  | .hbm, ⟨11, _⟩ => ⟨S2x2048x4096, .f32⟩
  | .hbm, ⟨12, _⟩ => ⟨S2x2048x4096, .f32⟩
  | .hbm, ⟨13, _⟩ => ⟨S_, .f32⟩
  | .hbm, ⟨14, _⟩ => ⟨S2x2048, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S_, .i32⟩
  | .hbm, ⟨20, _⟩ => ⟨S_, .f32⟩
  | .hbm, ⟨21, _⟩ => ⟨S2x2048, .f32⟩
  | .hbm, ⟨22, _⟩ => ⟨S2x2048x1, .f32⟩
  | .hbm, ⟨23, _⟩ => ⟨S_, .f32⟩
  | .hbm, ⟨24, _⟩ => ⟨S2x2048x1, .f32⟩
  | .hbm, ⟨25, _⟩ => ⟨S2x2048x1, .f32⟩
  | .hbm, ⟨26, _⟩ => ⟨S2x2048x4096, .f32⟩
  | .hbm, ⟨27, _⟩ => ⟨S2x2048x4096, .f32⟩
  | .hbm, ⟨28, _⟩ => ⟨S2x2048x4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2x2048, .f32⟩
  | .hbm, ⟨34, _⟩ => ⟨S2x2048x1, .f32⟩
  | .hbm, ⟨35, _⟩ => ⟨S2x2048x1, .f32⟩
  | .hbm, ⟨36, _⟩ => ⟨S2x2048x1, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S2x2048x1, .f32⟩
  | .hbm, ⟨42, _⟩ => ⟨S2x2048x1, .f32⟩
  | .hbm, ⟨43, _⟩ => ⟨S2x2048x4096, .f32⟩
  | .hbm, ⟨44, _⟩ => ⟨S2x2048x4096, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S2x2048x1, .f32⟩
  | .hbm, ⟨49, _⟩ => ⟨S2x2048x4096, .f32⟩
  | .hbm, ⟨50, _⟩ => ⟨S2x2048x4096, .f32⟩
  | .hbm, ⟨51, _⟩ => ⟨S1x1x4096, .f32⟩
  | .hbm, ⟨52, _⟩ => ⟨S2x2048x4096, .f32⟩
  | .hbm, ⟨53, _⟩ => ⟨S2x2048x4096, .f32⟩
  | .hbm, ⟨54, _⟩ => ⟨S1x1x4096, .f32⟩
  | .hbm, ⟨55, _⟩ => ⟨S2x2048x4096, .f32⟩
  | .hbm, ⟨56, _⟩ => ⟨S2x2048x4096, .f32⟩
  | .hbm, ⟨57, _⟩ => ⟨S2x2048x16384, .f32⟩
  | .hbm, ⟨58, _⟩ => ⟨S1x1x16384, .f32⟩
  | .hbm, ⟨59, _⟩ => ⟨S2x2048x16384, .f32⟩
  | .hbm, ⟨60, _⟩ => ⟨S2x2048x16384, .f32⟩
  | .hbm, ⟨61, _⟩ => ⟨S2x2048x16384, .f32⟩
  | .hbm, ⟨62, _⟩ => ⟨S2x2048x16384, .f32⟩
  | .hbm, ⟨63, _⟩ => ⟨S_, .f32⟩
  | .hbm, ⟨64, _⟩ => ⟨S2x2048x16384, .f32⟩
  | .hbm, ⟨65, _⟩ => ⟨S2x2048x16384, .f32⟩
  | .hbm, ⟨66, _⟩ => ⟨S2x2048x16384, .f32⟩
  | .hbm, ⟨67, _⟩ => ⟨S_, .f32⟩
  | .hbm, ⟨68, _⟩ => ⟨S2x2048x16384, .f32⟩
  | .hbm, ⟨69, _⟩ => ⟨S2x2048x16384, .f32⟩
  | .hbm, ⟨70, _⟩ => ⟨S2x2048x16384, .f32⟩
  | .hbm, ⟨71, _⟩ => ⟨S_, .f32⟩
  | .hbm, ⟨72, _⟩ => ⟨S2x2048x16384, .f32⟩
  | .hbm, ⟨73, _⟩ => ⟨S2x2048x16384, .f32⟩
  | .hbm, ⟨74, _⟩ => ⟨S_, .f32⟩
  | .hbm, ⟨75, _⟩ => ⟨S2x2048x16384, .f32⟩
  | .hbm, ⟨76, _⟩ => ⟨S2x2048x16384, .f32⟩
  | .hbm, ⟨77, _⟩ => ⟨S2x2048x16384, .f32⟩
  | .hbm, ⟨78, _⟩ => ⟨S2x2048x4096, .f32⟩
  | .hbm, ⟨79, _⟩ => ⟨S2x2048x4096, .f32⟩
  | .hbm, ⟨80, _⟩ => ⟨S1x1x4096, .f32⟩
  | .hbm, ⟨81, _⟩ => ⟨S2x2048x4096, .f32⟩
  | .hbm, ⟨82, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_cst_3 : Ref sig .tc := ⟨.hbm, 37, rfl⟩
abbrev main_call0_v13 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst_1 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_2 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_3 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_4 : Ref sig .tc := ⟨.hbm, 71, rfl⟩
abbrev main_v34 : Ref sig .tc := ⟨.hbm, 72, rfl⟩
abbrev main_v35 : Ref sig .tc := ⟨.hbm, 73, rfl⟩
abbrev main_cst_5 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  reducesTo_S2x2048x4096_S2x2048_d2 : S2x2048x4096.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x4096_0_1_2 : S2x2048x1.BroadcastsInDim S2x2048x4096 (![0, 1, 2] : Fin 3 → Fin S2x2048x4096.rank)
  bcast_S16384_S1x1x16384_2 : S16384.BroadcastsInDim S1x1x16384 (![2] : Fin 1 → Fin S1x1x16384.rank)
  bcast_S1x1x16384_S2x2048x16384_0_1_2 : S1x1x16384.BroadcastsInDim S2x2048x16384 (![0, 1, 2] : Fin 3 → Fin S2x2048x16384.rank)
  bcast_S_S2x2048x16384 : S_.BroadcastsInDim S2x2048x16384 (![] : Fin 0 → Fin S2x2048x16384.rank)
  dot_S2x2048x4096_S16384x4096_S2x2048x16384_2_1_01_0_n_n_wf : DotDims.WF S2x2048x4096 S16384x4096 S2x2048x16384 [2] [1] [0, 1] [0] [] []
  dot_S2x2048x16384_S4096x16384_S2x2048x4096_2_1_01_0_n_n_wf : DotDims.WF S2x2048x16384 S4096x16384 S2x2048x4096 [2] [1] [0, 1] [0] [] []

variable [Facts₀]

def dot_S2x2048x4096_S16384x4096_S2x2048x16384_2_1_01_0_n_n : DotDims S2x2048x4096 S16384x4096 S2x2048x16384 where
  lhsContracting := [2]
  rhsContracting := [1]
  lhsNonContracting := [0, 1]
  rhsNonContracting := [0]
  lhsBatch := []
  rhsBatch := []
  wf := dot_S2x2048x4096_S16384x4096_S2x2048x16384_2_1_01_0_n_n_wf
def dot_S2x2048x16384_S4096x16384_S2x2048x4096_2_1_01_0_n_n : DotDims S2x2048x16384 S4096x16384 S2x2048x4096 where
  lhsContracting := [2]
  rhsContracting := [1]
  lhsNonContracting := [0, 1]
  rhsNonContracting := [0]
  lhsBatch := []
  rhsBatch := []
  wf := dot_S2x2048x16384_S4096x16384_S2x2048x4096_2_1_01_0_n_n_wf

class Facts : Prop extends Facts₀ where

variable [Facts]
-- ==== Proof.K.R0.lean ====
/-
  The layer-norm region (the first of the three kernel launches), at any contents `V` of the buffers when it is entered.

  At grid point `t` the body sees rows 512·t … 512·t+511 of the two 4096×4096 inputs and the three parameter rows,
  and stores two blocks: the residual sum of those rows, and their normalised, scaled and shifted form.  Both are
  pure functions of the five input blocks (the payloads), so the proof data name them; the two output buffers are
  loaded before they are stored, which reads nothing the result depends on.
-/
import proofs.«162219_j24446953848859_2_alg».proof.Proof.Gen.Kernel.Launch
import proofs.«162219_j24446953848859_2_alg».proof.Proof.Gen.Kernel.Skeleton
import proofs.«162219_j24446953848859_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole 512×4096 rectangle and the whole 1×4096 rectangle: every load and store of the body is one of them. -/
abbrev rBig0 : Rect S512x4096 := Rect.unit (s := S512x4096) ![0, 0] S512x4096.size inb_S512x4096_S512x4096_0_0
abbrev rRow0 : Rect S1x4096 := Rect.unit (s := S1x4096) ![0, 0] S1x4096.size inb_S1x4096_S1x4096_0_0

/-- The residual-sum block the body stores, from the input blocks. -/
def out0_5 (x0 x1 : Vec F S512x4096 .f32) (x2 : Vec F S1x4096 .f32) : Vec F S512x4096 .f32 :=
  View.canon [⟨rBig0, k0_pay1 (View.ld x0 rBig0) (View.ld x1 rBig0) (View.ld x2 rRow0)⟩]

/-- The normalised block the body stores, from the input blocks. -/
def out0_6 (x0 x1 : Vec F S512x4096 .f32) (x2 x3 x4 : Vec F S1x4096 .f32) : Vec F S512x4096 .bf16 :=
  View.canon [⟨rBig0, k0_pay2 (View.ld x0 rBig0) (View.ld x1 rBig0) (View.ld x2 rRow0) (View.ld x3 rRow0) (View.ld x4 rRow0)⟩]

/-- One whole-block store covers the block. -/
theorem cover0_5 (p0 : Vec F S512x4096 .f32) (y : S512x4096.Idx) :
    ∃ pc ∈ ([⟨rBig0, p0⟩] : List (View.Piece (Elt F) S512x4096 .f32)), y ∈ pc.1.set :=
  View.cover_of_tiled [⟨rBig0, p0⟩] S512x4096.size (by rfl) y
theorem cover0_6 (p0 : Vec F S512x4096 .bf16) (y : S512x4096.Idx) :
    ∃ pc ∈ ([⟨rBig0, p0⟩] : List (View.Piece (Elt F) S512x4096 .bf16)), y ∈ pc.1.set :=
  View.cover_of_tiled [⟨rBig0, p0⟩] S512x4096.size (by rfl) y

set_option maxHeartbeats 4000000 in
/-- The body on whole staging buffers: the five inputs keep their contents, the two outputs end at the stored blocks. -/
theorem sound_kernel0 (c : Dev nD) (E : Set ℕ) (i : grid0.Coords)
    (arg1 : Memref sig .tc .vmem S512x4096 .f32) (harg1 : arg1.IsWhole) (arg2 : Memref sig .tc .vmem S512x4096 .f32) (harg2 : arg2.IsWhole)
    (arg3 : Memref sig .tc .vmem S1x4096 .f32) (harg3 : arg3.IsWhole) (arg4 : Memref sig .tc .vmem S1x4096 .f32) (harg4 : arg4.IsWhole)
    (arg5 : Memref sig .tc .vmem S1x4096 .f32) (harg5 : arg5.IsWhole) (arg6 : Memref sig .tc .vmem S512x4096 .f32) (harg6 : arg6.IsWhole)
    (arg7 : Memref sig .tc .vmem S512x4096 .bf16) (harg7 : arg7.IsWhole)
    (x0 x1 : Vec F S512x4096 .f32) (x2 x3 x4 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x1 x2 x3 x4)) -∗ K ⟨⟩))
      ⊢ wp frame (wpE (defs₀ (F := F)) Variants.none c none) E (cc0__ln_kernel i arg1 harg1 arg2 harg2 arg3 harg3 arg4 harg4 arg5 harg5 arg6 harg6 arg7 harg7) K := by
  simp only [cc0__ln_kernel_eq_skeleton]; unfold cc0__ln_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-- The proof data of the layer-norm pipeline on core `c`: the arrays as the region finds them; after the body each input's
    buffer at its block, the two outputs' at the stored blocks of the input blocks; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point: the inputs' buffers hold their blocks, so the body's triple applies; the invariant passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.K.R1.lean ====
/-
  The first matrix-product region (the second kernel launch), at any contents `V` of the buffers when it is entered.

  At grid point `t` the body sees the whole normalised 4096×4096 array, rows 256·t … 256·t+255 of the 16384×4096 weight
  and columns 256·t … of the bias row, and stores one 4096×256 block: the product of the normalised rows with those weight
  rows, plus the bias, through the tanh approximation of the Gaussian unit.  The block is a pure function of the three
  input blocks (the payload).
-/
import proofs.«162219_j24446953848859_2_alg».proof.Proof.Gen.Kernel.Launch
import proofs.«162219_j24446953848859_2_alg».proof.Proof.Gen.Kernel.Skeleton
import proofs.«162219_j24446953848859_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rLn1 : Rect S4096x4096 := Rect.unit (s := S4096x4096) ![0, 0] S4096x4096.size inb_S4096x4096_S4096x4096_0_0
abbrev rW1 : Rect S256x4096 := Rect.unit (s := S256x4096) ![0, 0] S256x4096.size inb_S256x4096_S256x4096_0_0
abbrev rB1 : Rect S1x256 := Rect.unit (s := S1x256) ![0, 0] S1x256.size inb_S1x256_S1x256_0_0
abbrev rOut1 : Rect S4096x256 := Rect.unit (s := S4096x256) ![0, 0] S4096x256.size inb_S4096x256_S4096x256_0_0

/-- The activation block the body stores, from the input blocks (the normalised array, the weight rows, the bias columns). -/
def out1_3 (x0 : Vec F S4096x4096 .bf16) (x1 : Vec F S256x4096 .f32) (x2 : Vec F S1x256 .f32) : Vec F S4096x256 .bf16 :=
  View.canon [⟨rOut1, k1_pay1 (View.ld x1 rW1) (View.ld x0 rLn1) (View.ld x2 rB1)⟩]

theorem cover1_3 (p0 : Vec F S4096x256 .bf16) (y : S4096x256.Idx) :
    ∃ pc ∈ ([⟨rOut1, p0⟩] : List (View.Piece (Elt F) S4096x256 .bf16)), y ∈ pc.1.set :=
  View.cover_of_tiled [⟨rOut1, p0⟩] S4096x256.size (by rfl) y

set_option maxHeartbeats 4000000 in
/-- The body on whole staging buffers: the three inputs keep their contents, the output ends at the stored block. -/
theorem sound_kernel1 (c : Dev nD) (E : Set ℕ) (i : grid1.Coords)
    (arg1 : Memref sig .tc .vmem S4096x4096 .bf16) (harg1 : arg1.IsWhole) (arg2 : Memref sig .tc .vmem S256x4096 .f32) (harg2 : arg2.IsWhole)
    (arg3 : Memref sig .tc .vmem S1x256 .f32) (harg3 : arg3.IsWhole) (arg4 : Memref sig .tc .vmem S4096x256 .bf16) (harg4 : arg4.IsWhole)
    (x0 : Vec F S4096x4096 .bf16) (x1 : Vec F S256x4096 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__gemm1_kernel i arg1 harg1 arg2 harg2 arg3 harg3 arg4 harg4) K := by
  simp only [cc1__gemm1_kernel_eq_skeleton]; unfold cc1__gemm1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the first product's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region1

end Cert.Kernel.Gen

end
-- ==== Proof.K.R2Runs.lean ====
/-
  The second matrix-product region (the third kernel launch): what its three control cases share.

  The grid is 4 × 2 × 16, the last axis the contraction's 16 blocks of 1024.  At a point (i, j, k) the body sees block
  (i, k) of the 4096×16384 activation, block (j, k) of the 4096×16384 weight, block (i, j) of the residual sum and block j of
  the bias row; it keeps a 1024×2048 accumulator in a scratch buffer across the 16 points of one (i, j): zeroed when
  k = 0, increased by the block product at every k, and when k = 15 stored, plus residual and bias, into output block (i, j).
  So there are three cases by k (first, middle, last), and the output window is idle except in the last.
-/
import proofs.«162219_j24446953848859_2_alg».proof.Proof.Gen.Kernel.Launch
import proofs.«162219_j24446953848859_2_alg».proof.Proof.Gen.Kernel.Skeleton
import proofs.«162219_j24446953848859_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

end Region2

/-- The first branch's condition (the contraction coordinate is 0), from the grid coordinates. -/
abbrev cond2_0 (i : grid2.Coords) : Prop := (Scalar.cmpi .ne (Scalar.extui (Scalar.cmpi .eq (BitVec.ofNat 32 (i 2).val) 0#32)) 0#32) = 1#1
/-- It holds at the points ≡ 0 (mod 16). -/
theorem hcond2_0 : ∀ t : Fin cfg2.N, cond2_0 (grid2.coords t) ↔ t.val % 16 = 0 :=
  (by decide +kernel : ∀ t : Fin grid2.N, cond2_0 (grid2.coords t) ↔ t.val % 16 = 0)

/-- The second branch's condition (the contraction coordinate is 15). -/
abbrev cond2_1 (i : grid2.Coords) : Prop := k2_cond2 i = 1#1
/-- It holds at the points ≡ 15 (mod 16). -/
theorem hcond2_1 : ∀ t : Fin cfg2.N, cond2_1 (grid2.coords t) ↔ t.val % 16 = 15 :=
  (by decide +kernel : ∀ t : Fin grid2.N, cond2_1 (grid2.coords t) ↔ t.val % 16 = 15)

/-- The input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- In the first and the middle case the output window is idle and not written back; in the last it is live. -/
theorem idleAt2_4_A : ∀ t : Fin cfg2.N, cond2_0 (grid2.coords t) → ¬cond2_1 (grid2.coords t) → cfg2.idle 4 (grid2.coords t) = true := by decide +kernel
theorem noFlush2_4_A : ∀ t : Fin cfg2.N, cond2_0 (grid2.coords t) → ¬cond2_1 (grid2.coords t) → (cfg2.win 4).flush t = false := by decide +kernel
theorem idleAt2_4_B : ∀ t : Fin cfg2.N, ¬cond2_0 (grid2.coords t) → ¬cond2_1 (grid2.coords t) → cfg2.idle 4 (grid2.coords t) = true := by decide +kernel
theorem noFlush2_4_B : ∀ t : Fin cfg2.N, ¬cond2_0 (grid2.coords t) → ¬cond2_1 (grid2.coords t) → (cfg2.win 4).flush t = false := by decide +kernel
theorem liveAt2_4_C : ∀ t : Fin cfg2.N, ¬cond2_0 (grid2.coords t) → cond2_1 (grid2.coords t) → cfg2.idle 4 (grid2.coords t) = false := by decide +kernel

/-- One staging buffer of the output window, through which its contents are stated. -/
abbrev VO2_4 : View sig .tc .vmem S1024x2048 .f32 := (Memref.whole cc2_stg4_0 : Memref sig .tc .vmem S1024x2048 .f32).view
/-- Each window's current staging buffer at point `t`, as the pipeline passes it, and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2048 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x2048 .f32 := win2_4.stage (cfg2.slots t 4)
abbrev hs2_4 (t : Fin cfg2.N) : (ms2_4 t).IsWhole := hstage2_4 ((cfg2.slots t 4).cast nbuf2_4)
/-- The accumulator: a whole scoped buffer of the kernel's own. -/
abbrev scM2_0 : Memref sig .tc .vmem S1024x2048 .f32 := Memref.whole cc2_scratch0
abbrev VS2_0 : View sig .tc .vmem S1024x2048 .f32 := scM2_0.view

/-- The other two launches' staging buffers, each whole at some contents: scoped buffers this region never touches. -/
def rest2 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant, with the accumulator split off as a buffer owned at some contents. -/
theorem PhiA2_out (c : Dev nD) :
    (Pipeline.ΦA spec2 c : sProp 𝕄) ⊢ iprop(rest2 c ∗ (∃ d, owns (c : Thread nD τ) scM2_0 fullShare d) ∗ (∃ r, prngReg c r)) := by
  unfold Pipeline.ΦA rest2; rw [scopedRest2_eq]; simp only [scM2_0, owns_whole]
  iintro ⟨⟨H1, H2, H3, H4, H5, H6, H7, H8, H9, H10, H11, H12, H13, H14, H15, H16, H17, H18, HS⟩, Hp⟩
  isplitl [H1 H2 H3 H4 H5 H6 H7 H8 H9 H10 H11 H12 H13 H14 H15 H16 H17 H18]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  isplitl [HS]; · iexact HS
  iexact Hp

/-- And back. -/
theorem PhiA2_in (c : Dev nD) :
    iprop(rest2 c ∗ (∃ d, owns (c : Thread nD τ) scM2_0 fullShare d) ∗ (∃ r, prngReg c r)) ⊢ (Pipeline.ΦA spec2 c : sProp 𝕄) := by
  unfold Pipeline.ΦA rest2; rw [scopedRest2_eq]; simp only [scM2_0, owns_whole]
  iintro ⟨⟨H1, H2, H3, H4, H5, H6, H7, H8, H9, H10, H11, H12, H13, H14, H15, H16, H17, H18⟩, HS, Hp⟩
  isplitl [H1 H2 H3 H4 H5 H6 H7 H8 H9 H10 H11 H12 H13 H14 H15 H16 H17 H18 HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact HS
  iexact Hp

end Cert.Kernel.Gen

end
-- ==== Proof.K.R2RunA.lean ====
/-
  The second matrix-product kernel's body in its FIRST case (contraction coordinate 0): the accumulator is zeroed, then increased by the block product; nothing is stored into the output window, which is handed back untouched.
  The pieces each buffer ends with are found by running the body symbolically; they are the witness.
-/
import proofs.«162219_j24446953848859_2_alg».proof.Proof.K.R2Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : cond2_0 i) (hc1 : ¬cond2_1 i)
    (x0 : Vec F S1024x1024 .bf16) (x1 : Vec F S2048x1024 .bf16) (x2 : Vec F S1024x2048 .f32) (x3 : Vec F S1x2048 .f32) :
    Σ' (L4 : List (View.Piece (Elt F) S1024x2048 .f32)), { LS0 : List (View.Piece (Elt F) S1024x2048 .f32) //
      ∀ (xi4 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__gemm2_kernel i arg3 harg3 arg4 harg4 arg5 harg5 arg6 harg6 arg7 harg7 arg8 harg8) K } := by
  refine ⟨[], ?_, fun xi4 E K => ?run⟩
  case run =>
    simp only [cc2__gemm2_kernel_eq_skeleton]; unfold cc2__gemm2_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Gen

end
-- ==== Proof.K.R2RunB.lean ====
/-
  The second matrix-product kernel's body in its MIDDLE case (contraction coordinate strictly between 0 and 15): the accumulator, at what the point before left, is increased by the block product; the output window is handed back untouched.
  The pieces each buffer ends with are found by running the body symbolically; they are the witness.
-/
import proofs.«162219_j24446953848859_2_alg».proof.Proof.K.R2Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : ¬cond2_1 i)
    (x0 : Vec F S1024x1024 .bf16) (x1 : Vec F S2048x1024 .bf16) (x2 : Vec F S1024x2048 .f32) (x3 : Vec F S1x2048 .f32) (xs0 : Vec F S1024x2048 .f32) :
    Σ' (L4 : List (View.Piece (Elt F) S1024x2048 .f32)), { LS0 : List (View.Piece (Elt F) S1024x2048 .f32) //
      ∀ (xi4 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__gemm2_kernel i arg3 harg3 arg4 harg4 arg5 harg5 arg6 harg6 arg7 harg7 arg8 harg8) K } := by
  refine ⟨[], ?_, fun xi4 E K => ?run⟩
  case run =>
    simp only [cc2__gemm2_kernel_eq_skeleton]; unfold cc2__gemm2_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Gen

end
-- ==== Proof.K.R2RunC.lean ====
/-
  The second matrix-product kernel's body in its LAST case (contraction coordinate 15): the accumulator is increased by the block product, and its sum with the residual block and the bias row is stored into the output window.
  The pieces each buffer ends with are found by running the body symbolically; they are the witness.
-/
import proofs.«162219_j24446953848859_2_alg».proof.Proof.K.R2Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : cond2_1 i)
    (x0 : Vec F S1024x1024 .bf16) (x1 : Vec F S2048x1024 .bf16) (x2 : Vec F S1024x2048 .f32) (x3 : Vec F S1x2048 .f32) (xs0 : Vec F S1024x2048 .f32) :
    Σ' (L4 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc2__gemm2_kernel i arg3 harg3 arg4 harg4 arg5 harg5 arg6 harg6 arg7 harg7 arg8 harg8) K } := by
  refine ⟨?_, ?_, fun E K => ?run⟩
  case run =>
    simp only [cc2__gemm2_kernel_eq_skeleton]; unfold cc2__gemm2_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Gen

end
-- ==== Proof.K.R2.lean ====
/-
  The second matrix-product region: what the accumulator and the output window hold point by point, the proof data, and
  the body obligation.

  After the body at point n the accumulator holds: in the first case of an (i, j) the block product alone (over zeros), in
  the later cases what the point before left plus this point's block product; in the last case the output window's buffer
  holds the accumulator plus the residual block plus the bias row.  The region invariant carries the accumulator at exactly
  these contents from one point to the next; before the first point it is the class invariant (the accumulator at anything).
-/
import proofs.«162219_j24446953848859_2_alg».proof.Proof.K.R2RunA
import proofs.«162219_j24446953848859_2_alg».proof.Proof.K.R2RunB
import proofs.«162219_j24446953848859_2_alg».proof.Proof.K.R2RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover2_A_0 (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : cond2_0 i) (hc1 : ¬cond2_1 i)
    (x0 : Vec F S1024x1024 .bf16) (x1 : Vec F S2048x1024 .bf16) (x2 : Vec F S1024x2048 .f32) (x3 : Vec F S1x2048 .f32) (y : S1024x2048.Idx) :
    ∃ pc ∈ (kernelRun2_A c i arg3 harg3 arg4 harg4 arg5 harg5 arg6 harg6 arg7 harg7 arg8 harg8 hc0 hc1 x0 x1 x2 x3).2.1, y ∈ pc.1.set :=
  View.cover_of_tiledL (kernelRun2_A c i arg3 harg3 arg4 harg4 arg5 harg5 arg6 harg6 arg7 harg7 arg8 harg8 hc0 hc1 x0 x1 x2 x3).2.1 S1024x2048.size (by sl_kernel_rfl) y

/-- What the case leaves in the accumulator: its pieces read back. -/
def sout2_A_0 (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : cond2_0 i) (hc1 : ¬cond2_1 i)
    (x0 : Vec F S1024x1024 .bf16) (x1 : Vec F S2048x1024 .bf16) (x2 : Vec F S1024x2048 .f32) (x3 : Vec F S1x2048 .f32) : Vec F S1024x2048 .f32 :=
  VS2_0.read (Elt F) (VS2_0.writes (Elt F) VS2_0.junk (kernelRun2_A c i arg3 harg3 arg4 harg4 arg5 harg5 arg6 harg6 arg7 harg7 arg8 harg8 hc0 hc1 x0 x1 x2 x3).2.1)

/-- What the case leaves in the output window's buffer: its pieces read back (none in the first and middle cases: a placeholder nothing consults). -/
def out2_A_4 (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : cond2_0 i) (hc1 : ¬cond2_1 i)
    (x0 : Vec F S1024x1024 .bf16) (x1 : Vec F S2048x1024 .bf16) (x2 : Vec F S1024x2048 .f32) (x3 : Vec F S1x2048 .f32) : Vec F S1024x2048 .f32 :=
  VO2_4.read (Elt F) (VO2_4.writes (Elt F) VO2_4.junk (kernelRun2_A c i arg3 harg3 arg4 harg4 arg5 harg5 arg6 harg6 arg7 harg7 arg8 harg8 hc0 hc1 x0 x1 x2 x3).1)

theorem scover2_B_0 (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : ¬cond2_1 i)
    (x0 : Vec F S1024x1024 .bf16) (x1 : Vec F S2048x1024 .bf16) (x2 : Vec F S1024x2048 .f32) (x3 : Vec F S1x2048 .f32) (xs0 : Vec F S1024x2048 .f32) (y : S1024x2048.Idx) :
    ∃ pc ∈ (kernelRun2_B c i arg3 harg3 arg4 harg4 arg5 harg5 arg6 harg6 arg7 harg7 arg8 harg8 hc0 hc1 x0 x1 x2 x3 xs0).2.1, y ∈ pc.1.set :=
  View.cover_of_tiledL (kernelRun2_B c i arg3 harg3 arg4 harg4 arg5 harg5 arg6 harg6 arg7 harg7 arg8 harg8 hc0 hc1 x0 x1 x2 x3 xs0).2.1 S1024x2048.size (by sl_kernel_rfl) y

/-- What the case leaves in the accumulator: its pieces read back. -/
def sout2_B_0 (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : ¬cond2_1 i)
    (x0 : Vec F S1024x1024 .bf16) (x1 : Vec F S2048x1024 .bf16) (x2 : Vec F S1024x2048 .f32) (x3 : Vec F S1x2048 .f32) (xs0 : Vec F S1024x2048 .f32) : Vec F S1024x2048 .f32 :=
  VS2_0.read (Elt F) (VS2_0.writes (Elt F) VS2_0.junk (kernelRun2_B c i arg3 harg3 arg4 harg4 arg5 harg5 arg6 harg6 arg7 harg7 arg8 harg8 hc0 hc1 x0 x1 x2 x3 xs0).2.1)

/-- What the case leaves in the output window's buffer: its pieces read back (none in the first and middle cases: a placeholder nothing consults). -/
def out2_B_4 (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : ¬cond2_1 i)
    (x0 : Vec F S1024x1024 .bf16) (x1 : Vec F S2048x1024 .bf16) (x2 : Vec F S1024x2048 .f32) (x3 : Vec F S1x2048 .f32) (xs0 : Vec F S1024x2048 .f32) : Vec F S1024x2048 .f32 :=
  VO2_4.read (Elt F) (VO2_4.writes (Elt F) VO2_4.junk (kernelRun2_B c i arg3 harg3 arg4 harg4 arg5 harg5 arg6 harg6 arg7 harg7 arg8 harg8 hc0 hc1 x0 x1 x2 x3 xs0).1)

theorem scover2_C_0 (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : cond2_1 i)
    (x0 : Vec F S1024x1024 .bf16) (x1 : Vec F S2048x1024 .bf16) (x2 : Vec F S1024x2048 .f32) (x3 : Vec F S1x2048 .f32) (xs0 : Vec F S1024x2048 .f32) (y : S1024x2048.Idx) :
    ∃ pc ∈ (kernelRun2_C c i arg3 harg3 arg4 harg4 arg5 harg5 arg6 harg6 arg7 harg7 arg8 harg8 hc0 hc1 x0 x1 x2 x3 xs0).2.1, y ∈ pc.1.set :=
  View.cover_of_tiledL (kernelRun2_C c i arg3 harg3 arg4 harg4 arg5 harg5 arg6 harg6 arg7 harg7 arg8 harg8 hc0 hc1 x0 x1 x2 x3 xs0).2.1 S1024x2048.size (by sl_kernel_rfl) y

/-- What the case leaves in the accumulator: its pieces read back. -/
def sout2_C_0 (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : cond2_1 i)
    (x0 : Vec F S1024x1024 .bf16) (x1 : Vec F S2048x1024 .bf16) (x2 : Vec F S1024x2048 .f32) (x3 : Vec F S1x2048 .f32) (xs0 : Vec F S1024x2048 .f32) : Vec F S1024x2048 .f32 :=
  VS2_0.read (Elt F) (VS2_0.writes (Elt F) VS2_0.junk (kernelRun2_C c i arg3 harg3 arg4 harg4 arg5 harg5 arg6 harg6 arg7 harg7 arg8 harg8 hc0 hc1 x0 x1 x2 x3 xs0).2.1)

/-- What the case leaves in the output window's buffer: its pieces read back (none in the first and middle cases: a placeholder nothing consults). -/
def out2_C_4 (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : cond2_1 i)
    (x0 : Vec F S1024x1024 .bf16) (x1 : Vec F S2048x1024 .bf16) (x2 : Vec F S1024x2048 .f32) (x3 : Vec F S1x2048 .f32) (xs0 : Vec F S1024x2048 .f32) : Vec F S1024x2048 .f32 :=
  VO2_4.read (Elt F) (VO2_4.writes (Elt F) VO2_4.junk (kernelRun2_C c i arg3 harg3 arg4 harg4 arg5 harg5 arg6 harg6 arg7 harg7 arg8 harg8 hc0 hc1 x0 x1 x2 x3 xs0).1)

/-- The last case's one store covers the output block. -/
theorem cover2_C_4 (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : cond2_1 i)
    (x0 : Vec F S1024x1024 .bf16) (x1 : Vec F S2048x1024 .bf16) (x2 : Vec F S1024x2048 .f32) (x3 : Vec F S1x2048 .f32) (xs0 : Vec F S1024x2048 .f32) (y : S1024x2048.Idx) :
    ∃ pc ∈ (kernelRun2_C c i arg3 harg3 arg4 harg4 arg5 harg5 arg6 harg6 arg7 harg7 arg8 harg8 hc0 hc1 x0 x1 x2 x3 xs0).1, y ∈ pc.1.set :=
  View.cover_of_tiledL (kernelRun2_C c i arg3 harg3 arg4 harg4 arg5 harg5 arg6 harg6 arg7 harg7 arg8 harg8 hc0 hc1 x0 x1 x2 x3 xs0).1 S1024x2048.size (by sl_kernel_rfl) y

section Region2
variable (V : (c : Dev nD) → (b : Ref sig .tc) → Buf (Elt F) ((c : Thread nD τ).loc b))

/-- THE ACCUMULATION: the output window's buffer and the accumulator after the body at position `n`. -/
def outsAt2 (c : Dev nD) : (n : ℕ) → n < cfg2.N → Vec F S1024x2048 .f32 × Vec F S1024x2048 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 16 = 0 then
      if h1 : (n + 1) % 16 = 15 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 16 = 15 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 16 = 0) (h1 : ¬t.val % 16 = 15) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

theorem outsAt2_B (c : Dev nD) (t : Fin cfg2.N) (h0 : ¬t.val % 16 = 0) (h1 : ¬t.val % 16 = 15) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 16 = 0) (h1 : t.val % 16 = 15) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class invariant; afterwards the other launches'
    buffers, the accumulator at what the point before left, and the generator register at some state. -/
def PhiS2 (c : Dev nD) : (n : ℕ) → n ≤ cfg2.N → sProp 𝕄
  | 0, _ => Pipeline.ΦA spec2 c
  | n + 1, hn => iprop(rest2 c ∗ owns (c : Thread nD τ) scM2_0 fullShare ((outsAt2 V c n hn).2) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(rest2 c ∗ owns (c : Thread nD τ) scM2_0 fullShare ((outsAt2 V c n hn).2) ∗ (∃ r, prngReg c r)) := rfl

theorem PhiS2_pos (c : Dev nD) (n : ℕ) (h : n ≤ cfg2.N) (hz : n ≠ 0) :
    PhiS2 V c n h = iprop(rest2 c ∗ owns (c : Thread nD τ) scM2_0 fullShare ((outsAt2 V c (n - 1) (by omega)).2) ∗ (∃ r, prngReg c r)) := by
  cases n with
  | zero => exact absurd rfl hz
  | succ n => rfl

/-- The proof data of the second product's pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 8000000 in
/-- The body at any point: the closed forms say which case the point is in; the invariant hands the body the accumulator at what
    the point before left (at anything at the very first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  by_cases h0 : t.val % 16 = 0
  · by_cases h1 : t.val % 16 = 15
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz]
        iintro ⟨HΦ, Ho, ⟨%d0, H0⟩, ⟨%d1, H1⟩, ⟨%d2, H2⟩, ⟨%d3, H3⟩, ⟨%d4, H4⟩⟩
        ihave HΦ' := (PhiA2_out c) $$ HΦ
        icases HΦ' with ⟨Hrest, HS0, Hg⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [Hrest HS0 Hg]
        · isplitl [Hrest]; · iexact Hrest
          isplitl [HS0]
          · unfold owns; iexists _; isplitr
            swap; · iexact HS0
            ipureintro; exact View.read_writes_of_cover _ _ _ _ _ (scover2_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS2_castSucc V c t, PhiS2_pos V c _ _ hz]
        iintro ⟨⟨Hrest, HS0, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [Hrest HS0 Hg]
        · isplitl [Hrest]; · iexact Hrest
          isplitl [HS0]
          · unfold owns; iexists _; isplitr
            swap; · iexact HS0
            ipureintro; exact View.read_writes_of_cover _ _ _ _ _ (scover2_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [outsAt2_C V c t h0 h1]
      unfold out2_C_4 sout2_C_0; (try dsimp only)
      by_cases hz : t.val = 0
      · exfalso; omega
      · rw [PhiS2_castSucc V c t, PhiS2_pos V c _ _ hz]
        iintro ⟨⟨Hrest, HS0, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [Hrest HS0 Hg]
        · isplitl [Hrest]; · iexact Hrest
          isplitl [HS0]
          · unfold owns; iexists _; isplitr
            swap; · iexact HS0
            ipureintro; exact View.read_writes_of_cover _ _ _ _ _ (scover2_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover2_C_4 c _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨Hrest, HS0, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [Hrest HS0 Hg]
        · isplitl [Hrest]; · iexact Hrest
          isplitl [HS0]
          · unfold owns; iexists _; isplitr
            swap; · iexact HS0
            ipureintro; exact View.read_writes_of_cover _ _ _ _ _ (scover2_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The body obligation of the pipeline library, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  iintro ⟨Hrest, HS0, Hg⟩
  iapply (PhiA2_in c)
  isplitl [Hrest]; · iexact Hrest
  isplitl [HS0]; · iexists _; iexact HS0
  iexact Hg

theorem hout2 (c : Dev nD) : (dat2 V c).Φ (Fin.last cfg2.N) ⊢ Pipeline.ΦA spec2 c :=
  Phi_out2 V c _ (by rw [Fin.val_last]; have : cfg2.N = 128 := N_2; omega)

end Region2

end Cert.Kernel.Gen

end
-- ==== Proof.K.Run.lean ====
/-
  The whole program's run: host reshapes and a format change, the three kernel launches one after the other, a final reshape.

  The buffer contents at each boundary are a fold from the launch memory: after a stretch of host operations, the
  operations applied; after a launch, its arrays at what its write-backs leave and every other buffer as it was.  Every
  weakly fair execution terminates with every unscoped buffer at the last fold; the nine argument arrays are written by
  nothing, so the fold at each walks back to the launch memory.
-/
import proofs.«162219_j24446953848859_2_alg».proof.Proof.K.R0
import proofs.«162219_j24446953848859_2_alg».proof.Proof.K.R1
import proofs.«162219_j24446953848859_2_alg».proof.Proof.K.R2
import proofs.«162219_j24446953848859_2_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before the launches. -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b

/-- At launch 0's exit: its arrays at what the pipeline leaves (each output's write-backs folded), every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- At launch 1's exit: its arrays at what the pipeline leaves (each output's write-backs folded), every other buffer as entered. -/
def W3 (c : Dev nD) : Valuation τ sig (Elt F) :=
  Pipeline.withArrays spec1 c (W2 m ρ c) fun w => (dat1 (E2 m ρ) c).arrAt w cfg1.N
theorem W3_arr (c : Dev nD) (w : Fin cfg1.W) :
    W3 m ρ c (Proc.devRef .tc (Pipeline.arrRef spec1 w)) = (dat1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

abbrev E3 : (c : Dev nD) → (b : Ref sig .tc) → Buf (Elt F) ((c : Thread nD τ).loc b) := fun c b => W3 m ρ c b
theorem hF1 (c : Dev nD) (w : Fin cfg1.W) : (dat1 (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-- At launch 2's exit: its arrays at what the pipeline leaves (each output's write-backs folded), every other buffer as entered. -/
def W4 (c : Dev nD) : Valuation τ sig (Elt F) :=
  Pipeline.withArrays spec2 c (W3 m ρ c) fun w => (dat2 (E3 m ρ) c).arrAt w cfg2.N
theorem W4_arr (c : Dev nD) (w : Fin cfg2.W) :
    W4 m ρ c (Proc.devRef .tc (Pipeline.arrRef spec2 w)) = (dat2 (E3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb

abbrev E4 : (c : Dev nD) → (b : Ref sig .tc) → Buf (Elt F) ((c : Thread nD τ).loc b) := fun c b => W4 m ρ c b
theorem hF2 (c : Dev nD) (w : Fin cfg2.W) : (dat2 (E3 m ρ) c).arrAt w cfg2.N = E4 m ρ c (Pipeline.arrRef spec2 w) :=
  (W4_arr m ρ c w).symm
theorem hrest2 (c : Dev nD) : ∀ b, b ∉ Finset.univ.image (Pipeline.arrRef spec2) → E4 m ρ c b = E3 m ρ c b :=
  fun b hb => W4_of_ne m ρ c b fun w e => hb (Finset.mem_image.mpr ⟨w, Finset.mem_univ _, e⟩)

/-- After the final reshape. -/
abbrev W5 : Dev nD → Valuation τ sig (Elt F) := fun c => StableHlo.after hostOps3 (W4 m ρ c)

/-! ### The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps3 _ hostOps3_writes (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps3 _ hostOps3_writes (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps3 _ hostOps3_writes (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps3 _ hostOps3_writes (by decide)
    _ = W3 m ρ c (Proc.devRef .tc main_arg5) := W4_of_ne m ρ c main_arg5 (by decide)
    _ = W2 m ρ c (Proc.devRef .tc main_arg5) := (W3_arr m ρ c 1).trans (((dat1 (E2 m ρ) c).arrAt_in 1 rfl _).trans (A_eq1 (E2 m ρ) c 1))
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps3 _ hostOps3_writes (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps3 _ hostOps3_writes (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps3 _ hostOps3_writes (by decide)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-! ## The proof data family and the thread state -/

/-- Every pipeline's proof data, each at its launch's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
  | ⟨2, _⟩ => fun c => dat2 (E3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The launches as segments -/

set_option backward.isDefEq.respectTransparency.types false in
/-- Launch 0 over the thread state: entered from every unscoped buffer at `W1`, left at `W2`. Its arrays are split out of
    the unscoped buffers and put back at the exit contents; the generator register goes into the invariant and comes out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W2`, left at `W3`. Its arrays are split out of
    the unscoped buffers and put back at the exit contents; the generator register goes into the invariant and comes out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at `W3`, left at `W4`. Its arrays are split out of
    the unscoped buffers and put back at the exit contents; the generator register goes into the invariant and comes out. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (E3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (E3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E3 m ρ c) (E4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev progSegs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (progSegs m ρ) := (main_chain c).trans (by chain_rfl)

set_option backward.isDefEq.respectTransparency.types false in
/-- THE RUN: from any memory with zero counters every weakly fair execution of the program on the TensorCores terminates,
    nothing faulting, and every final state has every unscoped buffer at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (progSegs m ρ)
    (fun c Q => by rw [main_run m ρ c])
    (by simp only [progSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c)⟩) (run_all m ρ)

end Cert.Kernel.Gen

end
-- ==== Proof.KI.R0.lean ====
/-
  The layer-norm region (the first of the three kernel launches), at any contents `V` of the buffers when it is entered.

  At grid point `t` the body sees rows 512·t … 512·t+511 of the two 4096×4096 inputs and the three parameter rows,
  and stores two blocks: the residual sum of those rows, and their normalised, scaled and shifted form.  Both are
  pure functions of the five input blocks (the payloads), so the proof data name them; the two output buffers are
  loaded before they are stored, which reads nothing the result depends on.
-/
import proofs.«162219_j24446953848859_2_alg».proof.Proof.Gen.KernelIdeal.Launch
import proofs.«162219_j24446953848859_2_alg».proof.Proof.Gen.KernelIdeal.Skeleton
import proofs.«162219_j24446953848859_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole 512×4096 rectangle and the whole 1×4096 rectangle: every load and store of the body is one of them. -/
abbrev rBig0 : Rect S512x4096 := Rect.unit (s := S512x4096) ![0, 0] S512x4096.size inb_S512x4096_S512x4096_0_0
abbrev rRow0 : Rect S1x4096 := Rect.unit (s := S1x4096) ![0, 0] S1x4096.size inb_S1x4096_S1x4096_0_0

/-- The residual-sum block the body stores, from the input blocks. -/
def out0_5 (x0 x1 : Vec F S512x4096 .f32) (x2 : Vec F S1x4096 .f32) : Vec F S512x4096 .f32 :=
  View.canon [⟨rBig0, k0_pay1 (View.ld x0 rBig0) (View.ld x1 rBig0) (View.ld x2 rRow0)⟩]

/-- The normalised block the body stores, from the input blocks. -/
def out0_6 (x0 x1 : Vec F S512x4096 .f32) (x2 x3 x4 : Vec F S1x4096 .f32) : Vec F S512x4096 .bf16 :=
  View.canon [⟨rBig0, k0_pay2 (View.ld x0 rBig0) (View.ld x1 rBig0) (View.ld x2 rRow0) (View.ld x3 rRow0) (View.ld x4 rRow0)⟩]

/-- One whole-block store covers the block. -/
theorem cover0_5 (p0 : Vec F S512x4096 .f32) (y : S512x4096.Idx) :
    ∃ pc ∈ ([⟨rBig0, p0⟩] : List (View.Piece (Elt F) S512x4096 .f32)), y ∈ pc.1.set :=
  View.cover_of_tiled [⟨rBig0, p0⟩] S512x4096.size (by rfl) y
theorem cover0_6 (p0 : Vec F S512x4096 .bf16) (y : S512x4096.Idx) :
    ∃ pc ∈ ([⟨rBig0, p0⟩] : List (View.Piece (Elt F) S512x4096 .bf16)), y ∈ pc.1.set :=
  View.cover_of_tiled [⟨rBig0, p0⟩] S512x4096.size (by rfl) y

set_option maxHeartbeats 4000000 in
/-- The body on whole staging buffers: the five inputs keep their contents, the two outputs end at the stored blocks. -/
theorem sound_kernel0 (c : Dev nD) (E : Set ℕ) (i : grid0.Coords)
    (arg1 : Memref sig .tc .vmem S512x4096 .f32) (harg1 : arg1.IsWhole) (arg2 : Memref sig .tc .vmem S512x4096 .f32) (harg2 : arg2.IsWhole)
    (arg3 : Memref sig .tc .vmem S1x4096 .f32) (harg3 : arg3.IsWhole) (arg4 : Memref sig .tc .vmem S1x4096 .f32) (harg4 : arg4.IsWhole)
    (arg5 : Memref sig .tc .vmem S1x4096 .f32) (harg5 : arg5.IsWhole) (arg6 : Memref sig .tc .vmem S512x4096 .f32) (harg6 : arg6.IsWhole)
    (arg7 : Memref sig .tc .vmem S512x4096 .bf16) (harg7 : arg7.IsWhole)
    (x0 x1 : Vec F S512x4096 .f32) (x2 x3 x4 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x1 x2 x3 x4)) -∗ K ⟨⟩))
      ⊢ wp frame (wpE (defs₀ (F := F)) Variants.none c none) E (cc0__ln_kernel i arg1 harg1 arg2 harg2 arg3 harg3 arg4 harg4 arg5 harg5 arg6 harg6 arg7 harg7) K := by
  simp only [cc0__ln_kernel_eq_skeleton]; unfold cc0__ln_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-- The proof data of the layer-norm pipeline on core `c`: the arrays as the region finds them; after the body each input's
    buffer at its block, the two outputs' at the stored blocks of the input blocks; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point: the inputs' buffers hold their blocks, so the body's triple applies; the invariant passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.KI.R1.lean ====
/-
  The first matrix-product region (the second kernel launch), at any contents `V` of the buffers when it is entered.

  At grid point `t` the body sees the whole normalised 4096×4096 array, rows 256·t … 256·t+255 of the 16384×4096 weight
  and columns 256·t … of the bias row, and stores one 4096×256 block: the product of the normalised rows with those weight
  rows, plus the bias, through the tanh approximation of the Gaussian unit.  The block is a pure function of the three
  input blocks (the payload).
-/
import proofs.«162219_j24446953848859_2_alg».proof.Proof.Gen.KernelIdeal.Launch
import proofs.«162219_j24446953848859_2_alg».proof.Proof.Gen.KernelIdeal.Skeleton
import proofs.«162219_j24446953848859_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rLn1 : Rect S4096x4096 := Rect.unit (s := S4096x4096) ![0, 0] S4096x4096.size inb_S4096x4096_S4096x4096_0_0
abbrev rW1 : Rect S256x4096 := Rect.unit (s := S256x4096) ![0, 0] S256x4096.size inb_S256x4096_S256x4096_0_0
abbrev rB1 : Rect S1x256 := Rect.unit (s := S1x256) ![0, 0] S1x256.size inb_S1x256_S1x256_0_0
abbrev rOut1 : Rect S4096x256 := Rect.unit (s := S4096x256) ![0, 0] S4096x256.size inb_S4096x256_S4096x256_0_0

/-- The activation block the body stores, from the input blocks (the normalised array, the weight rows, the bias columns). -/
def out1_3 (x0 : Vec F S4096x4096 .bf16) (x1 : Vec F S256x4096 .f32) (x2 : Vec F S1x256 .f32) : Vec F S4096x256 .bf16 :=
  View.canon [⟨rOut1, k1_pay1 (View.ld x1 rW1) (View.ld x0 rLn1) (View.ld x2 rB1)⟩]

theorem cover1_3 (p0 : Vec F S4096x256 .bf16) (y : S4096x256.Idx) :
    ∃ pc ∈ ([⟨rOut1, p0⟩] : List (View.Piece (Elt F) S4096x256 .bf16)), y ∈ pc.1.set :=
  View.cover_of_tiled [⟨rOut1, p0⟩] S4096x256.size (by rfl) y

set_option maxHeartbeats 4000000 in
/-- The body on whole staging buffers: the three inputs keep their contents, the output ends at the stored block. -/
theorem sound_kernel1 (c : Dev nD) (E : Set ℕ) (i : grid1.Coords)
    (arg1 : Memref sig .tc .vmem S4096x4096 .bf16) (harg1 : arg1.IsWhole) (arg2 : Memref sig .tc .vmem S256x4096 .f32) (harg2 : arg2.IsWhole)
    (arg3 : Memref sig .tc .vmem S1x256 .f32) (harg3 : arg3.IsWhole) (arg4 : Memref sig .tc .vmem S4096x256 .bf16) (harg4 : arg4.IsWhole)
    (x0 : Vec F S4096x4096 .bf16) (x1 : Vec F S256x4096 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__gemm1_kernel i arg1 harg1 arg2 harg2 arg3 harg3 arg4 harg4) K := by
  simp only [cc1__gemm1_kernel_eq_skeleton]; unfold cc1__gemm1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the first product's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.KI.R2Runs.lean ====
/-
  The second matrix-product region (the third kernel launch): what its three control cases share.

  The grid is 4 × 2 × 16, the last axis the contraction's 16 blocks of 1024.  At a point (i, j, k) the body sees block
  (i, k) of the 4096×16384 activation, block (j, k) of the 4096×16384 weight, block (i, j) of the residual sum and block j of
  the bias row; it keeps a 1024×2048 accumulator in a scratch buffer across the 16 points of one (i, j): zeroed when
  k = 0, increased by the block product at every k, and when k = 15 stored, plus residual and bias, into output block (i, j).
  So there are three cases by k (first, middle, last), and the output window is idle except in the last.
-/
import proofs.«162219_j24446953848859_2_alg».proof.Proof.Gen.KernelIdeal.Launch
import proofs.«162219_j24446953848859_2_alg».proof.Proof.Gen.KernelIdeal.Skeleton
import proofs.«162219_j24446953848859_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

end Region2

/-- The first branch's condition (the contraction coordinate is 0), from the grid coordinates. -/
abbrev cond2_0 (i : grid2.Coords) : Prop := (Scalar.cmpi .ne (Scalar.extui (Scalar.cmpi .eq (BitVec.ofNat 32 (i 2).val) 0#32)) 0#32) = 1#1
/-- It holds at the points ≡ 0 (mod 16). -/
theorem hcond2_0 : ∀ t : Fin cfg2.N, cond2_0 (grid2.coords t) ↔ t.val % 16 = 0 :=
  (by decide +kernel : ∀ t : Fin grid2.N, cond2_0 (grid2.coords t) ↔ t.val % 16 = 0)

/-- The second branch's condition (the contraction coordinate is 15). -/
abbrev cond2_1 (i : grid2.Coords) : Prop := k2_cond2 i = 1#1
/-- It holds at the points ≡ 15 (mod 16). -/
theorem hcond2_1 : ∀ t : Fin cfg2.N, cond2_1 (grid2.coords t) ↔ t.val % 16 = 15 :=
  (by decide +kernel : ∀ t : Fin grid2.N, cond2_1 (grid2.coords t) ↔ t.val % 16 = 15)

/-- The input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- In the first and the middle case the output window is idle and not written back; in the last it is live. -/
theorem idleAt2_4_A : ∀ t : Fin cfg2.N, cond2_0 (grid2.coords t) → ¬cond2_1 (grid2.coords t) → cfg2.idle 4 (grid2.coords t) = true := by decide +kernel
theorem noFlush2_4_A : ∀ t : Fin cfg2.N, cond2_0 (grid2.coords t) → ¬cond2_1 (grid2.coords t) → (cfg2.win 4).flush t = false := by decide +kernel
theorem idleAt2_4_B : ∀ t : Fin cfg2.N, ¬cond2_0 (grid2.coords t) → ¬cond2_1 (grid2.coords t) → cfg2.idle 4 (grid2.coords t) = true := by decide +kernel
theorem noFlush2_4_B : ∀ t : Fin cfg2.N, ¬cond2_0 (grid2.coords t) → ¬cond2_1 (grid2.coords t) → (cfg2.win 4).flush t = false := by decide +kernel
theorem liveAt2_4_C : ∀ t : Fin cfg2.N, ¬cond2_0 (grid2.coords t) → cond2_1 (grid2.coords t) → cfg2.idle 4 (grid2.coords t) = false := by decide +kernel

/-- One staging buffer of the output window, through which its contents are stated. -/
abbrev VO2_4 : View sig .tc .vmem S1024x2048 .f32 := (Memref.whole cc2_stg4_0 : Memref sig .tc .vmem S1024x2048 .f32).view
/-- Each window's current staging buffer at point `t`, as the pipeline passes it, and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2048 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x2048 .f32 := win2_4.stage (cfg2.slots t 4)
abbrev hs2_4 (t : Fin cfg2.N) : (ms2_4 t).IsWhole := hstage2_4 ((cfg2.slots t 4).cast nbuf2_4)
/-- The accumulator: a whole scoped buffer of the kernel's own. -/
abbrev scM2_0 : Memref sig .tc .vmem S1024x2048 .f32 := Memref.whole cc2_scratch0
abbrev VS2_0 : View sig .tc .vmem S1024x2048 .f32 := scM2_0.view

/-- The other two launches' staging buffers, each whole at some contents: scoped buffers this region never touches. -/
def rest2 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant, with the accumulator split off as a buffer owned at some contents. -/
theorem PhiA2_out (c : Dev nD) :
    (Pipeline.ΦA spec2 c : sProp 𝕄) ⊢ iprop(rest2 c ∗ (∃ d, owns (c : Thread nD τ) scM2_0 fullShare d) ∗ (∃ r, prngReg c r)) := by
  unfold Pipeline.ΦA rest2; rw [scopedRest2_eq]; simp only [scM2_0, owns_whole]
  iintro ⟨⟨H1, H2, H3, H4, H5, H6, H7, H8, H9, H10, H11, H12, H13, H14, H15, H16, H17, H18, HS⟩, Hp⟩
  isplitl [H1 H2 H3 H4 H5 H6 H7 H8 H9 H10 H11 H12 H13 H14 H15 H16 H17 H18]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  isplitl [HS]; · iexact HS
  iexact Hp

/-- And back. -/
theorem PhiA2_in (c : Dev nD) :
    iprop(rest2 c ∗ (∃ d, owns (c : Thread nD τ) scM2_0 fullShare d) ∗ (∃ r, prngReg c r)) ⊢ (Pipeline.ΦA spec2 c : sProp 𝕄) := by
  unfold Pipeline.ΦA rest2; rw [scopedRest2_eq]; simp only [scM2_0, owns_whole]
  iintro ⟨⟨H1, H2, H3, H4, H5, H6, H7, H8, H9, H10, H11, H12, H13, H14, H15, H16, H17, H18⟩, HS, Hp⟩
  isplitl [H1 H2 H3 H4 H5 H6 H7 H8 H9 H10 H11 H12 H13 H14 H15 H16 H17 H18 HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact HS
  iexact Hp

end Cert.KernelIdeal.Gen

end
-- ==== Proof.KI.R2RunA.lean ====
/-
  The second matrix-product kernel's body in its FIRST case (contraction coordinate 0): the accumulator is zeroed, then increased by the block product; nothing is stored into the output window, which is handed back untouched.
  The pieces each buffer ends with are found by running the body symbolically; they are the witness.
-/
import proofs.«162219_j24446953848859_2_alg».proof.Proof.KI.R2Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : cond2_0 i) (hc1 : ¬cond2_1 i)
    (x0 : Vec F S1024x1024 .bf16) (x1 : Vec F S2048x1024 .bf16) (x2 : Vec F S1024x2048 .f32) (x3 : Vec F S1x2048 .f32) :
    Σ' (L4 : List (View.Piece (Elt F) S1024x2048 .f32)), { LS0 : List (View.Piece (Elt F) S1024x2048 .f32) //
      ∀ (xi4 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__gemm2_kernel i arg3 harg3 arg4 harg4 arg5 harg5 arg6 harg6 arg7 harg7 arg8 harg8) K } := by
  refine ⟨[], ?_, fun xi4 E K => ?run⟩
  case run =>
    simp only [cc2__gemm2_kernel_eq_skeleton]; unfold cc2__gemm2_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Gen

end
-- ==== Proof.KI.R2RunB.lean ====
/-
  The second matrix-product kernel's body in its MIDDLE case (contraction coordinate strictly between 0 and 15): the accumulator, at what the point before left, is increased by the block product; the output window is handed back untouched.
  The pieces each buffer ends with are found by running the body symbolically; they are the witness.
-/
import proofs.«162219_j24446953848859_2_alg».proof.Proof.KI.R2Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : ¬cond2_1 i)
    (x0 : Vec F S1024x1024 .bf16) (x1 : Vec F S2048x1024 .bf16) (x2 : Vec F S1024x2048 .f32) (x3 : Vec F S1x2048 .f32) (xs0 : Vec F S1024x2048 .f32) :
    Σ' (L4 : List (View.Piece (Elt F) S1024x2048 .f32)), { LS0 : List (View.Piece (Elt F) S1024x2048 .f32) //
      ∀ (xi4 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__gemm2_kernel i arg3 harg3 arg4 harg4 arg5 harg5 arg6 harg6 arg7 harg7 arg8 harg8) K } := by
  refine ⟨[], ?_, fun xi4 E K => ?run⟩
  case run =>
    simp only [cc2__gemm2_kernel_eq_skeleton]; unfold cc2__gemm2_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Gen

end
-- ==== Proof.KI.R2RunC.lean ====
/-
  The second matrix-product kernel's body in its LAST case (contraction coordinate 15): the accumulator is increased by the block product, and its sum with the residual block and the bias row is stored into the output window.
  The pieces each buffer ends with are found by running the body symbolically; they are the witness.
-/
import proofs.«162219_j24446953848859_2_alg».proof.Proof.KI.R2Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : cond2_1 i)
    (x0 : Vec F S1024x1024 .bf16) (x1 : Vec F S2048x1024 .bf16) (x2 : Vec F S1024x2048 .f32) (x3 : Vec F S1x2048 .f32) (xs0 : Vec F S1024x2048 .f32) :
    Σ' (L4 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc2__gemm2_kernel i arg3 harg3 arg4 harg4 arg5 harg5 arg6 harg6 arg7 harg7 arg8 harg8) K } := by
  refine ⟨?_, ?_, fun E K => ?run⟩
  case run =>
    simp only [cc2__gemm2_kernel_eq_skeleton]; unfold cc2__gemm2_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Gen

end
-- ==== Proof.KI.R2.lean ====
/-
  The second matrix-product region: what the accumulator and the output window hold point by point, the proof data, and
  the body obligation.

  After the body at point n the accumulator holds: in the first case of an (i, j) the block product alone (over zeros), in
  the later cases what the point before left plus this point's block product; in the last case the output window's buffer
  holds the accumulator plus the residual block plus the bias row.  The region invariant carries the accumulator at exactly
  these contents from one point to the next; before the first point it is the class invariant (the accumulator at anything).
-/
import proofs.«162219_j24446953848859_2_alg».proof.Proof.KI.R2RunA
import proofs.«162219_j24446953848859_2_alg».proof.Proof.KI.R2RunB
import proofs.«162219_j24446953848859_2_alg».proof.Proof.KI.R2RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover2_A_0 (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : cond2_0 i) (hc1 : ¬cond2_1 i)
    (x0 : Vec F S1024x1024 .bf16) (x1 : Vec F S2048x1024 .bf16) (x2 : Vec F S1024x2048 .f32) (x3 : Vec F S1x2048 .f32) (y : S1024x2048.Idx) :
    ∃ pc ∈ (kernelRun2_A c i arg3 harg3 arg4 harg4 arg5 harg5 arg6 harg6 arg7 harg7 arg8 harg8 hc0 hc1 x0 x1 x2 x3).2.1, y ∈ pc.1.set :=
  View.cover_of_tiledL (kernelRun2_A c i arg3 harg3 arg4 harg4 arg5 harg5 arg6 harg6 arg7 harg7 arg8 harg8 hc0 hc1 x0 x1 x2 x3).2.1 S1024x2048.size (by sl_kernel_rfl) y

/-- What the case leaves in the accumulator: its pieces read back. -/
def sout2_A_0 (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : cond2_0 i) (hc1 : ¬cond2_1 i)
    (x0 : Vec F S1024x1024 .bf16) (x1 : Vec F S2048x1024 .bf16) (x2 : Vec F S1024x2048 .f32) (x3 : Vec F S1x2048 .f32) : Vec F S1024x2048 .f32 :=
  VS2_0.read (Elt F) (VS2_0.writes (Elt F) VS2_0.junk (kernelRun2_A c i arg3 harg3 arg4 harg4 arg5 harg5 arg6 harg6 arg7 harg7 arg8 harg8 hc0 hc1 x0 x1 x2 x3).2.1)

/-- What the case leaves in the output window's buffer: its pieces read back (none in the first and middle cases: a placeholder nothing consults). -/
def out2_A_4 (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : cond2_0 i) (hc1 : ¬cond2_1 i)
    (x0 : Vec F S1024x1024 .bf16) (x1 : Vec F S2048x1024 .bf16) (x2 : Vec F S1024x2048 .f32) (x3 : Vec F S1x2048 .f32) : Vec F S1024x2048 .f32 :=
  VO2_4.read (Elt F) (VO2_4.writes (Elt F) VO2_4.junk (kernelRun2_A c i arg3 harg3 arg4 harg4 arg5 harg5 arg6 harg6 arg7 harg7 arg8 harg8 hc0 hc1 x0 x1 x2 x3).1)

theorem scover2_B_0 (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : ¬cond2_1 i)
    (x0 : Vec F S1024x1024 .bf16) (x1 : Vec F S2048x1024 .bf16) (x2 : Vec F S1024x2048 .f32) (x3 : Vec F S1x2048 .f32) (xs0 : Vec F S1024x2048 .f32) (y : S1024x2048.Idx) :
    ∃ pc ∈ (kernelRun2_B c i arg3 harg3 arg4 harg4 arg5 harg5 arg6 harg6 arg7 harg7 arg8 harg8 hc0 hc1 x0 x1 x2 x3 xs0).2.1, y ∈ pc.1.set :=
  View.cover_of_tiledL (kernelRun2_B c i arg3 harg3 arg4 harg4 arg5 harg5 arg6 harg6 arg7 harg7 arg8 harg8 hc0 hc1 x0 x1 x2 x3 xs0).2.1 S1024x2048.size (by sl_kernel_rfl) y

/-- What the case leaves in the accumulator: its pieces read back. -/
def sout2_B_0 (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : ¬cond2_1 i)
    (x0 : Vec F S1024x1024 .bf16) (x1 : Vec F S2048x1024 .bf16) (x2 : Vec F S1024x2048 .f32) (x3 : Vec F S1x2048 .f32) (xs0 : Vec F S1024x2048 .f32) : Vec F S1024x2048 .f32 :=
  VS2_0.read (Elt F) (VS2_0.writes (Elt F) VS2_0.junk (kernelRun2_B c i arg3 harg3 arg4 harg4 arg5 harg5 arg6 harg6 arg7 harg7 arg8 harg8 hc0 hc1 x0 x1 x2 x3 xs0).2.1)

/-- What the case leaves in the output window's buffer: its pieces read back (none in the first and middle cases: a placeholder nothing consults). -/
def out2_B_4 (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : ¬cond2_1 i)
    (x0 : Vec F S1024x1024 .bf16) (x1 : Vec F S2048x1024 .bf16) (x2 : Vec F S1024x2048 .f32) (x3 : Vec F S1x2048 .f32) (xs0 : Vec F S1024x2048 .f32) : Vec F S1024x2048 .f32 :=
  VO2_4.read (Elt F) (VO2_4.writes (Elt F) VO2_4.junk (kernelRun2_B c i arg3 harg3 arg4 harg4 arg5 harg5 arg6 harg6 arg7 harg7 arg8 harg8 hc0 hc1 x0 x1 x2 x3 xs0).1)

theorem scover2_C_0 (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : cond2_1 i)
    (x0 : Vec F S1024x1024 .bf16) (x1 : Vec F S2048x1024 .bf16) (x2 : Vec F S1024x2048 .f32) (x3 : Vec F S1x2048 .f32) (xs0 : Vec F S1024x2048 .f32) (y : S1024x2048.Idx) :
    ∃ pc ∈ (kernelRun2_C c i arg3 harg3 arg4 harg4 arg5 harg5 arg6 harg6 arg7 harg7 arg8 harg8 hc0 hc1 x0 x1 x2 x3 xs0).2.1, y ∈ pc.1.set :=
  View.cover_of_tiledL (kernelRun2_C c i arg3 harg3 arg4 harg4 arg5 harg5 arg6 harg6 arg7 harg7 arg8 harg8 hc0 hc1 x0 x1 x2 x3 xs0).2.1 S1024x2048.size (by sl_kernel_rfl) y

/-- What the case leaves in the accumulator: its pieces read back. -/
def sout2_C_0 (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : cond2_1 i)
    (x0 : Vec F S1024x1024 .bf16) (x1 : Vec F S2048x1024 .bf16) (x2 : Vec F S1024x2048 .f32) (x3 : Vec F S1x2048 .f32) (xs0 : Vec F S1024x2048 .f32) : Vec F S1024x2048 .f32 :=
  VS2_0.read (Elt F) (VS2_0.writes (Elt F) VS2_0.junk (kernelRun2_C c i arg3 harg3 arg4 harg4 arg5 harg5 arg6 harg6 arg7 harg7 arg8 harg8 hc0 hc1 x0 x1 x2 x3 xs0).2.1)

/-- What the case leaves in the output window's buffer: its pieces read back (none in the first and middle cases: a placeholder nothing consults). -/
def out2_C_4 (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : cond2_1 i)
    (x0 : Vec F S1024x1024 .bf16) (x1 : Vec F S2048x1024 .bf16) (x2 : Vec F S1024x2048 .f32) (x3 : Vec F S1x2048 .f32) (xs0 : Vec F S1024x2048 .f32) : Vec F S1024x2048 .f32 :=
  VO2_4.read (Elt F) (VO2_4.writes (Elt F) VO2_4.junk (kernelRun2_C c i arg3 harg3 arg4 harg4 arg5 harg5 arg6 harg6 arg7 harg7 arg8 harg8 hc0 hc1 x0 x1 x2 x3 xs0).1)

/-- The last case's one store covers the output block. -/
theorem cover2_C_4 (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : cond2_1 i)
    (x0 : Vec F S1024x1024 .bf16) (x1 : Vec F S2048x1024 .bf16) (x2 : Vec F S1024x2048 .f32) (x3 : Vec F S1x2048 .f32) (xs0 : Vec F S1024x2048 .f32) (y : S1024x2048.Idx) :
    ∃ pc ∈ (kernelRun2_C c i arg3 harg3 arg4 harg4 arg5 harg5 arg6 harg6 arg7 harg7 arg8 harg8 hc0 hc1 x0 x1 x2 x3 xs0).1, y ∈ pc.1.set :=
  View.cover_of_tiledL (kernelRun2_C c i arg3 harg3 arg4 harg4 arg5 harg5 arg6 harg6 arg7 harg7 arg8 harg8 hc0 hc1 x0 x1 x2 x3 xs0).1 S1024x2048.size (by sl_kernel_rfl) y

section Region2
variable (V : (c : Dev nD) → (b : Ref sig .tc) → Buf (Elt F) ((c : Thread nD τ).loc b))

/-- THE ACCUMULATION: the output window's buffer and the accumulator after the body at position `n`. -/
def outsAt2 (c : Dev nD) : (n : ℕ) → n < cfg2.N → Vec F S1024x2048 .f32 × Vec F S1024x2048 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 16 = 0 then
      if h1 : (n + 1) % 16 = 15 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 16 = 15 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 16 = 0) (h1 : ¬t.val % 16 = 15) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

theorem outsAt2_B (c : Dev nD) (t : Fin cfg2.N) (h0 : ¬t.val % 16 = 0) (h1 : ¬t.val % 16 = 15) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 16 = 0) (h1 : t.val % 16 = 15) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class invariant; afterwards the other launches'
    buffers, the accumulator at what the point before left, and the generator register at some state. -/
def PhiS2 (c : Dev nD) : (n : ℕ) → n ≤ cfg2.N → sProp 𝕄
  | 0, _ => Pipeline.ΦA spec2 c
  | n + 1, hn => iprop(rest2 c ∗ owns (c : Thread nD τ) scM2_0 fullShare ((outsAt2 V c n hn).2) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(rest2 c ∗ owns (c : Thread nD τ) scM2_0 fullShare ((outsAt2 V c n hn).2) ∗ (∃ r, prngReg c r)) := rfl

theorem PhiS2_pos (c : Dev nD) (n : ℕ) (h : n ≤ cfg2.N) (hz : n ≠ 0) :
    PhiS2 V c n h = iprop(rest2 c ∗ owns (c : Thread nD τ) scM2_0 fullShare ((outsAt2 V c (n - 1) (by omega)).2) ∗ (∃ r, prngReg c r)) := by
  cases n with
  | zero => exact absurd rfl hz
  | succ n => rfl

/-- The proof data of the second product's pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 8000000 in
/-- The body at any point: the closed forms say which case the point is in; the invariant hands the body the accumulator at what
    the point before left (at anything at the very first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  by_cases h0 : t.val % 16 = 0
  · by_cases h1 : t.val % 16 = 15
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz]
        iintro ⟨HΦ, Ho, ⟨%d0, H0⟩, ⟨%d1, H1⟩, ⟨%d2, H2⟩, ⟨%d3, H3⟩, ⟨%d4, H4⟩⟩
        ihave HΦ' := (PhiA2_out c) $$ HΦ
        icases HΦ' with ⟨Hrest, HS0, Hg⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [Hrest HS0 Hg]
        · isplitl [Hrest]; · iexact Hrest
          isplitl [HS0]
          · unfold owns; iexists _; isplitr
            swap; · iexact HS0
            ipureintro; exact View.read_writes_of_cover _ _ _ _ _ (scover2_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS2_castSucc V c t, PhiS2_pos V c _ _ hz]
        iintro ⟨⟨Hrest, HS0, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [Hrest HS0 Hg]
        · isplitl [Hrest]; · iexact Hrest
          isplitl [HS0]
          · unfold owns; iexists _; isplitr
            swap; · iexact HS0
            ipureintro; exact View.read_writes_of_cover _ _ _ _ _ (scover2_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [outsAt2_C V c t h0 h1]
      unfold out2_C_4 sout2_C_0; (try dsimp only)
      by_cases hz : t.val = 0
      · exfalso; omega
      · rw [PhiS2_castSucc V c t, PhiS2_pos V c _ _ hz]
        iintro ⟨⟨Hrest, HS0, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [Hrest HS0 Hg]
        · isplitl [Hrest]; · iexact Hrest
          isplitl [HS0]
          · unfold owns; iexists _; isplitr
            swap; · iexact HS0
            ipureintro; exact View.read_writes_of_cover _ _ _ _ _ (scover2_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover2_C_4 c _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨Hrest, HS0, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [Hrest HS0 Hg]
        · isplitl [Hrest]; · iexact Hrest
          isplitl [HS0]
          · unfold owns; iexists _; isplitr
            swap; · iexact HS0
            ipureintro; exact View.read_writes_of_cover _ _ _ _ _ (scover2_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The body obligation of the pipeline library, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  iintro ⟨Hrest, HS0, Hg⟩
  iapply (PhiA2_in c)
  isplitl [Hrest]; · iexact Hrest
  isplitl [HS0]; · iexists _; iexact HS0
  iexact Hg

theorem hout2 (c : Dev nD) : (dat2 V c).Φ (Fin.last cfg2.N) ⊢ Pipeline.ΦA spec2 c :=
  Phi_out2 V c _ (by rw [Fin.val_last]; have : cfg2.N = 128 := N_2; omega)

end Region2

end Cert.KernelIdeal.Gen

end
-- ==== Proof.KI.Run.lean ====
/-
  The whole program's run: host reshapes and a format change, the three kernel launches one after the other, a final reshape.

  The buffer contents at each boundary are a fold from the launch memory: after a stretch of host operations, the
  operations applied; after a launch, its arrays at what its write-backs leave and every other buffer as it was.  Every
  weakly fair execution terminates with every unscoped buffer at the last fold; the nine argument arrays are written by
  nothing, so the fold at each walks back to the launch memory.
-/
import proofs.«162219_j24446953848859_2_alg».proof.Proof.KI.R0
import proofs.«162219_j24446953848859_2_alg».proof.Proof.KI.R1
import proofs.«162219_j24446953848859_2_alg».proof.Proof.KI.R2
import proofs.«162219_j24446953848859_2_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before the launches. -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b

/-- At launch 0's exit: its arrays at what the pipeline leaves (each output's write-backs folded), every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- At launch 1's exit: its arrays at what the pipeline leaves (each output's write-backs folded), every other buffer as entered. -/
def W3 (c : Dev nD) : Valuation τ sig (Elt F) :=
  Pipeline.withArrays spec1 c (W2 m ρ c) fun w => (dat1 (E2 m ρ) c).arrAt w cfg1.N
theorem W3_arr (c : Dev nD) (w : Fin cfg1.W) :
    W3 m ρ c (Proc.devRef .tc (Pipeline.arrRef spec1 w)) = (dat1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

abbrev E3 : (c : Dev nD) → (b : Ref sig .tc) → Buf (Elt F) ((c : Thread nD τ).loc b) := fun c b => W3 m ρ c b
theorem hF1 (c : Dev nD) (w : Fin cfg1.W) : (dat1 (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-- At launch 2's exit: its arrays at what the pipeline leaves (each output's write-backs folded), every other buffer as entered. -/
def W4 (c : Dev nD) : Valuation τ sig (Elt F) :=
  Pipeline.withArrays spec2 c (W3 m ρ c) fun w => (dat2 (E3 m ρ) c).arrAt w cfg2.N
theorem W4_arr (c : Dev nD) (w : Fin cfg2.W) :
    W4 m ρ c (Proc.devRef .tc (Pipeline.arrRef spec2 w)) = (dat2 (E3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb

abbrev E4 : (c : Dev nD) → (b : Ref sig .tc) → Buf (Elt F) ((c : Thread nD τ).loc b) := fun c b => W4 m ρ c b
theorem hF2 (c : Dev nD) (w : Fin cfg2.W) : (dat2 (E3 m ρ) c).arrAt w cfg2.N = E4 m ρ c (Pipeline.arrRef spec2 w) :=
  (W4_arr m ρ c w).symm
theorem hrest2 (c : Dev nD) : ∀ b, b ∉ Finset.univ.image (Pipeline.arrRef spec2) → E4 m ρ c b = E3 m ρ c b :=
  fun b hb => W4_of_ne m ρ c b fun w e => hb (Finset.mem_image.mpr ⟨w, Finset.mem_univ _, e⟩)

/-- After the final reshape. -/
abbrev W5 : Dev nD → Valuation τ sig (Elt F) := fun c => StableHlo.after hostOps3 (W4 m ρ c)

/-! ### The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps3 _ hostOps3_writes (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps3 _ hostOps3_writes (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps3 _ hostOps3_writes (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps3 _ hostOps3_writes (by decide)
    _ = W3 m ρ c (Proc.devRef .tc main_arg5) := W4_of_ne m ρ c main_arg5 (by decide)
    _ = W2 m ρ c (Proc.devRef .tc main_arg5) := (W3_arr m ρ c 1).trans (((dat1 (E2 m ρ) c).arrAt_in 1 rfl _).trans (A_eq1 (E2 m ρ) c 1))
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps3 _ hostOps3_writes (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps3 _ hostOps3_writes (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps3 _ hostOps3_writes (by decide)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-! ## The proof data family and the thread state -/

/-- Every pipeline's proof data, each at its launch's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
  | ⟨2, _⟩ => fun c => dat2 (E3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The launches as segments -/

set_option backward.isDefEq.respectTransparency.types false in
/-- Launch 0 over the thread state: entered from every unscoped buffer at `W1`, left at `W2`. Its arrays are split out of
    the unscoped buffers and put back at the exit contents; the generator register goes into the invariant and comes out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W2`, left at `W3`. Its arrays are split out of
    the unscoped buffers and put back at the exit contents; the generator register goes into the invariant and comes out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at `W3`, left at `W4`. Its arrays are split out of
    the unscoped buffers and put back at the exit contents; the generator register goes into the invariant and comes out. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (E3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (E3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E3 m ρ c) (E4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev progSegs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (progSegs m ρ) := (main_chain c).trans (by chain_rfl)

set_option backward.isDefEq.respectTransparency.types false in
/-- THE RUN: from any memory with zero counters every weakly fair execution of the program on the TensorCores terminates,
    nothing faulting, and every final state has every unscoped buffer at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (progSegs m ρ)
    (fun c Q => by rw [main_run m ρ c])
    (by simp only [progSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c)⟩) (run_all m ρ)

end Cert.KernelIdeal.Gen

end
-- ==== Proof.KI.HostReads.lean ====
/-
  What the host operations around the three launches do, read at an index, on the extended reals.

  Before the launches: the two 2×2048×4096 inputs are re-laid as 4096×4096 (row b·2048 + s is row (b, s)), the five
  parameter vectors get a leading unit axis, and the second weight changes float format, which is the identity here.
  After them the 4096×4096 result is re-laid as 2×2048×4096.
-/
import proofs.«162219_j24446953848859_2_alg».proof.Proof.KI.Run
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KVal

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- Re-laying [2, 2048, 4096] as [4096, 4096]: entry (b·2048 + s, h) is entry (b, s, h). -/
theorem cast3to2 (x : S2x2048x4096.Idx → EReal) (hc : S2x2048x4096.ShapeCasts S4096x4096) (b : Fin 2) (s : Fin 2048) (h : Fin 4096) :
    shapeCast S4096x4096 x hc (ix2 (⟨b.val * 2048 + s.val, by omega⟩ : Fin 4096) h) = x (ix3 b s h) :=
  shapeCast_apply x hc _ _ (by
    rw [Shape.rowMajor_val_three, Shape.rowMajor_val_two]
    show (b.val * 2048 + s.val) * 4096 + h.val = (b.val * 2048 + s.val) * 4096 + h.val
    rfl)

/-- Re-laying [4096, 4096] as [2, 2048, 4096]: entry (b, s, h) is entry (b·2048 + s, h). -/
theorem cast2to3 (x : S4096x4096.Idx → EReal) (hc : S4096x4096.ShapeCasts S2x2048x4096) (b : Fin 2) (s : Fin 2048) (h : Fin 4096) :
    shapeCast S2x2048x4096 x hc (ix3 b s h) = x (ix2 (⟨b.val * 2048 + s.val, by omega⟩ : Fin 4096) h) :=
  shapeCast_apply x hc _ _ (by
    rw [Shape.rowMajor_val_three, Shape.rowMajor_val_two]
    show (b.val * 2048 + s.val) * 4096 + h.val = (b.val * 2048 + s.val) * 4096 + h.val
    rfl)

/-! ## The buffers the first launch is entered with -/

theorem E1_v0 (c : Dev nD) : (E1 m ρ c main_v0 : S4096x4096.Idx → EReal)
    = shapeCast S4096x4096 (m ((c : Thread nD τ).loc main_arg0)) shapeCasts_S2x2048x4096_S4096x4096 := by
  show StableHlo.after hostOps0 (W0 m ρ c) (Proc.devRef .tc main_v0) = _
  after_results <;> rfl
theorem E1_v1 (c : Dev nD) : (E1 m ρ c main_v1 : S4096x4096.Idx → EReal)
    = shapeCast S4096x4096 (m ((c : Thread nD τ).loc main_arg1)) shapeCasts_S2x2048x4096_S4096x4096 := by
  show StableHlo.after hostOps0 (W0 m ρ c) (Proc.devRef .tc main_v1) = _
  after_results <;> rfl
theorem E1_v2 (c : Dev nD) : (E1 m ρ c main_v2 : S1x4096.Idx → EReal)
    = shapeCast S1x4096 (m ((c : Thread nD τ).loc main_arg2)) shapeCasts_S4096_S1x4096 := by
  show StableHlo.after hostOps0 (W0 m ρ c) (Proc.devRef .tc main_v2) = _
  after_results <;> rfl
theorem E1_v3 (c : Dev nD) : (E1 m ρ c main_v3 : S1x4096.Idx → EReal)
    = shapeCast S1x4096 (m ((c : Thread nD τ).loc main_arg3)) shapeCasts_S4096_S1x4096 := by
  show StableHlo.after hostOps0 (W0 m ρ c) (Proc.devRef .tc main_v3) = _
  after_results <;> rfl
theorem E1_v4 (c : Dev nD) : (E1 m ρ c main_v4 : S1x4096.Idx → EReal)
    = shapeCast S1x4096 (m ((c : Thread nD τ).loc main_arg4)) shapeCasts_S4096_S1x4096 := by
  show StableHlo.after hostOps0 (W0 m ρ c) (Proc.devRef .tc main_v4) = _
  after_results <;> rfl
theorem E1_v5 (c : Dev nD) : (E1 m ρ c main_v5 : S1x16384.Idx → EReal)
    = shapeCast S1x16384 (m ((c : Thread nD τ).loc main_arg6)) shapeCasts_S16384_S1x16384 := by
  show StableHlo.after hostOps0 (W0 m ρ c) (Proc.devRef .tc main_v5) = _
  after_results <;> rfl
theorem E1_v6 (c : Dev nD) : (E1 m ρ c main_v6 : S1x4096.Idx → EReal)
    = shapeCast S1x4096 (m ((c : Thread nD τ).loc main_arg8)) shapeCasts_S4096_S1x4096 := by
  show StableHlo.after hostOps0 (W0 m ρ c) (Proc.devRef .tc main_v6) = _
  after_results <;> rfl
theorem E1_v7 (c : Dev nD) : (E1 m ρ c main_v7 : S4096x16384.Idx → EReal)
    = truncf (F := Ideal) .bf16 (m ((c : Thread nD τ).loc main_arg7) : FVec Ideal S4096x16384 .f32) bitsLt_bf16_f32 := by
  show StableHlo.after hostOps0 (W0 m ρ c) (Proc.devRef .tc main_v7) = _
  after_results <;> rfl
theorem E1_arg5 (c : Dev nD) : E1 m ρ c main_arg5 = m ((c : Thread nD τ).loc main_arg5) :=
  (StableHlo.after_of_writes_sub hostOps0 _ hostOps0_writes (by decide)).trans rfl

/-- The final re-laying. -/
theorem W5_v11 (c : Dev nD) : (W5 m ρ c (Proc.devRef .tc main_v11) : S2x2048x4096.Idx → EReal)
    = shapeCast S2x2048x4096 (W4 m ρ c (Proc.devRef .tc main_v10) : S4096x4096.Idx → EReal) shapeCasts_S4096x4096_S2x2048x4096 := by
  show StableHlo.after hostOps3 (W4 m ρ c) (Proc.devRef .tc main_v11) = _
  after_results <;> rfl

end Cert.KernelIdeal.KVal

end
-- ==== Proof.Spec.lean ====
/-
  The mathematics both programs compute, row by row, on the extended reals.

  One row of the (batch × sequence) plane is a vector of 4096 hidden entries.  For a row `x` of the
  input, a row `r` of the residual and the parameter vectors, the result row is

    v      = (x + r) + bias                                   the residual sum
    mean v = (Σ_h v h) / 4096
    var v  = (Σ_h (v h - mean v)²) / 4096
    ln     = ((v - mean v) · rsqrt (var v + ε)) · nw + nb     the layer norm
    inter  = gelu ((Σ_h ln h · w1 i h) + b1 i)                the first product, 16384 wide
    out    = ((Σ_i inter i · w2 h i) + v h) + ob h            the second product and the skip

  with gelu t = t · (½ · (1 + tanh (c · (t + κ · (t · (t · t)))))), the tanh approximation.
  Every float literal is kept as the extended real its binary word denotes; the same words occur in
  both programs, so none is ever evaluated here.
-/
import Idealize.ShloMosaic.Lib.ValueIdx

noncomputable section

namespace Cert.MlpSpec

open Idealize.ShloMosaic Idealize.ShloMosaic.ValueIdx

/-- The residual sum of one row. -/
def ra (x r bias : Fin 4096 → EReal) (h : Fin 4096) : EReal := (x h + r h) + bias h

/-- The mean of a row: its sum divided by the word of 4096. -/
def mean (v : Fin 4096 → EReal) : EReal :=
  Ideal.div (∑ h : Fin 4096, v h) (Ideal.ofBits .f32 0x45800000#32)

/-- The (biased) variance of a row. -/
def var (v : Fin 4096 → EReal) : EReal :=
  Ideal.div (∑ h : Fin 4096, (v h - mean v) * (v h - mean v)) (Ideal.ofBits .f32 0x45800000#32)

/-- The normalised row, scaled and shifted. -/
def ln (v nw nb : Fin 4096 → EReal) (h : Fin 4096) : EReal :=
  ((v h - mean v) * Ideal.rsqrt (var v + Ideal.ofBits .f32 0x2B8CBCCC#32)) * nw h + nb h

/-- The tanh approximation of the Gaussian error linear unit. -/
def gelu (t : EReal) : EReal :=
  t * (Ideal.ofBits .f32 0x3F000000#32 * (Ideal.ofBits .f32 0x3F800000#32
    + Ideal.tanh (Ideal.ofBits .f32 0x3F4C422A#32 * (t + Ideal.ofBits .f32 0x3D372713#32 * (t * (t * t))))))

/-- The intermediate activation of one row: 16384 entries. -/
def inter (l : Fin 4096 → EReal) (w1 : Fin 16384 → Fin 4096 → EReal) (b1 : Fin 16384 → EReal) (i : Fin 16384) : EReal :=
  gelu ((∑ h : Fin 4096, l h * w1 i h) + b1 i)

/-- The result row. -/
def outRow (x r bias nw nb : Fin 4096 → EReal) (w1 : Fin 16384 → Fin 4096 → EReal) (b1 : Fin 16384 → EReal)
    (w2 : Fin 4096 → Fin 16384 → EReal) (ob : Fin 4096 → EReal) (h : Fin 4096) : EReal :=
  ((∑ i : Fin 16384, inter (ln (ra x r bias) nw nb) w1 b1 i * w2 h i) + ra x r bias h) + ob h

/-- The whole result, over the program's nine argument arrays: entry (b, s, h) is entry h of the result row of row (b, s). -/
def out3 (a0 a1 : (⟨3, ![2, 2048, 4096]⟩ : Shape).Idx → EReal) (a2 a3 a4 : (⟨1, ![4096]⟩ : Shape).Idx → EReal)
    (a5 : (⟨2, ![16384, 4096]⟩ : Shape).Idx → EReal) (a6 : (⟨1, ![16384]⟩ : Shape).Idx → EReal)
    (a7 : (⟨2, ![4096, 16384]⟩ : Shape).Idx → EReal) (a8 : (⟨1, ![4096]⟩ : Shape).Idx → EReal) :
    (⟨3, ![2, 2048, 4096]⟩ : Shape).Idx → EReal := fun j =>
  outRow (fun h => a0 (ix3 (j 0) (j 1) h)) (fun h => a1 (ix3 (j 0) (j 1) h)) (fun h => a2 (ix1 h)) (fun h => a3 (ix1 h))
    (fun h => a4 (ix1 h)) (fun i h => a5 (ix2 i h)) (fun i => a6 (ix1 i)) (fun h i => a7 (ix2 h i)) (fun h => a8 (ix1 h)) (j 2)

end Cert.MlpSpec

end
-- ==== Proof.SpecArr.lean ====
/-
  The specification read over whole arrays: each of the three kernel launches' output arrays as a function of the arrays the
  launch reads, entry by entry.  Rows are indexed by Fin 4096 (the flattened batch × sequence plane); the parameter vectors
  come as arrays with a leading unit axis.
-/
import proofs.«162219_j24446953848859_2_alg».proof.Proof.Spec

noncomputable section

namespace Cert.MlpSpec

open Idealize.ShloMosaic Idealize.ShloMosaic.ValueIdx

/-- The residual sum's array: entry (p, h) from row p of the two inputs and the bias row. -/
def arrRa (x r : (⟨2, ![4096, 4096]⟩ : Shape).Idx → EReal) (bias : (⟨2, ![1, 4096]⟩ : Shape).Idx → EReal) (p h : Fin 4096) : EReal :=
  ra (fun k => x (ix2 p k)) (fun k => r (ix2 p k)) (fun k => bias (ix2 0 k)) h

/-- The normalised array: entry (p, h). -/
def arrLn (x r : (⟨2, ![4096, 4096]⟩ : Shape).Idx → EReal) (bias nw nb : (⟨2, ![1, 4096]⟩ : Shape).Idx → EReal) (p h : Fin 4096) : EReal :=
  ln (ra (fun k => x (ix2 p k)) (fun k => r (ix2 p k)) (fun k => bias (ix2 0 k))) (fun k => nw (ix2 0 k)) (fun k => nb (ix2 0 k)) h

/-- The activation array: entry (p, i) from row p of the normalised array, the first weight and its bias row. -/
def arrInter (l : (⟨2, ![4096, 4096]⟩ : Shape).Idx → EReal) (w1 : (⟨2, ![16384, 4096]⟩ : Shape).Idx → EReal)
    (b1 : (⟨2, ![1, 16384]⟩ : Shape).Idx → EReal) (p : Fin 4096) (i : Fin 16384) : EReal :=
  inter (fun k => l (ix2 p k)) (fun i k => w1 (ix2 i k)) (fun i => b1 (ix2 0 i)) i

/-- The result array: entry (p, h) from row p of the activation, row h of the second weight, the residual sum and the output bias. -/
def arrOut (a w2 : (⟨2, ![4096, 16384]⟩ : Shape).Idx → EReal) (r : (⟨2, ![4096, 4096]⟩ : Shape).Idx → EReal)
    (ob : (⟨2, ![1, 4096]⟩ : Shape).Idx → EReal) (p h : Fin 4096) : EReal :=
  ((∑ i : Fin 16384, a (ix2 p i) * w2 (ix2 h i)) + r (ix2 p h)) + ob (ix2 0 h)

end Cert.MlpSpec

end
-- ==== Proof.KI.ValueOf.lean ====
/-
  The three launches composed: the program's result is the specification's function of its nine arguments.

  Given what each launch's output arrays hold as functions of the buffers it was entered with (the residual sum and the layer
  norm row by row; the activation as the first product through the Gaussian unit; the second product plus residual plus bias),
  the buffers at each boundary are read back through the folds: row P = b·2048 + s of the 4096×4096 plane is row (b, s) of
  the 2×2048×4096 arrays, and the result at (b, s, h) is the specification's result row of row (b, s) at h.
-/
import proofs.«162219_j24446953848859_2_alg».proof.Proof.KI.HostReads
import proofs.«162219_j24446953848859_2_alg».proof.Proof.SpecArr

set_option maxRecDepth 16384

noncomputable section

namespace Cert.KernelIdeal.KVal

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

theorem add3_congr {a a' b b' d d' : EReal} (ha : a = a') (hb : b = b') (hd : d = d') : (a + b) + d = (a' + b') + d' := by
  subst ha hb hd; rfl
theorem mul2_congr {a a' b b' : EReal} (ha : a = a') (hb : b = b') : a * b = a' * b' := by
  subst ha hb; rfl

theorem result_eq_of
    (h0ra : ∀ (V : (c : Dev nD) → (b : Ref sig .tc) → Buf (Elt Ideal) ((c : Thread nD τ).loc b)) (c : Dev nD) (p h : Fin 4096), (dat0 (F := Ideal) V c).arrAt 5 cfg0.N (ix2 p h)
      = Cert.MlpSpec.arrRa (V c main_v0) (V c main_v1) (V c main_v2) p h)
    (h0ln : ∀ (V : (c : Dev nD) → (b : Ref sig .tc) → Buf (Elt Ideal) ((c : Thread nD τ).loc b)) (c : Dev nD) (p h : Fin 4096), (dat0 (F := Ideal) V c).arrAt 6 cfg0.N (ix2 p h)
      = Cert.MlpSpec.arrLn (V c main_v0) (V c main_v1) (V c main_v2) (V c main_v3) (V c main_v4) p h)
    (h1 : ∀ (V : (c : Dev nD) → (b : Ref sig .tc) → Buf (Elt Ideal) ((c : Thread nD τ).loc b)) (c : Dev nD) (p : Fin 4096) (i : Fin 16384), (dat1 (F := Ideal) V c).arrAt 3 cfg1.N (ix2 p i)
      = Cert.MlpSpec.arrInter (V c main_v8_1) (V c main_arg5) (V c main_v5) p i)
    (h2 : ∀ (V : (c : Dev nD) → (b : Ref sig .tc) → Buf (Elt Ideal) ((c : Thread nD τ).loc b)) (c : Dev nD) (p h : Fin 4096), (dat2 (F := Ideal) V c).arrAt 4 cfg2.N (ix2 p h)
      = Cert.MlpSpec.arrOut (V c main_v9) (V c main_v7) (V c main_v8_0) (V c main_v6) p h)
    (c : Dev nD) :
    (W5 m ρ c (Proc.devRef .tc main_v11) : S2x2048x4096.Idx → EReal)
      = Cert.MlpSpec.out3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext j
  obtain ⟨b, s, h, rfl⟩ : ∃ (b : Fin 2) (s : Fin 2048) (h : Fin 4096), j = ix3 b s h := ⟨j 0, j 1, j 2, eq_ix3 j⟩
  -- the rows of the buffers the first launch is entered with
  have x0 : (fun k : Fin 4096 => (E1 m ρ c main_v0 : S4096x4096.Idx → EReal) (ix2 (⟨b.val * 2048 + s.val, by omega⟩ : Fin 4096) k)) = fun k => (m ((c : Thread nD τ).loc main_arg0)) (ix3 b s k) :=
    funext fun k => (congrFun (E1_v0 m ρ c) _).trans (cast3to2 _ _ b s k)
  have x1 : (fun k : Fin 4096 => (E1 m ρ c main_v1 : S4096x4096.Idx → EReal) (ix2 (⟨b.val * 2048 + s.val, by omega⟩ : Fin 4096) k)) = fun k => (m ((c : Thread nD τ).loc main_arg1)) (ix3 b s k) :=
    funext fun k => (congrFun (E1_v1 m ρ c) _).trans (cast3to2 _ _ b s k)
  have x2 : (fun k : Fin 4096 => (E1 m ρ c main_v2 : S1x4096.Idx → EReal) (ix2 0 k)) = fun k => (m ((c : Thread nD τ).loc main_arg2)) (ix1 k) :=
    funext fun k => (congrFun (E1_v2 m ρ c) _).trans (shapeCast_a_1a_apply _ _ 0 k)
  have x3 : (fun k : Fin 4096 => (E1 m ρ c main_v3 : S1x4096.Idx → EReal) (ix2 0 k)) = fun k => (m ((c : Thread nD τ).loc main_arg3)) (ix1 k) :=
    funext fun k => (congrFun (E1_v3 m ρ c) _).trans (shapeCast_a_1a_apply _ _ 0 k)
  have x4 : (fun k : Fin 4096 => (E1 m ρ c main_v4 : S1x4096.Idx → EReal) (ix2 0 k)) = fun k => (m ((c : Thread nD τ).loc main_arg4)) (ix1 k) :=
    funext fun k => (congrFun (E1_v4 m ρ c) _).trans (shapeCast_a_1a_apply _ _ 0 k)
  -- the buffers the second launch is entered with
  have y81 : (fun k : Fin 4096 => (E2 m ρ c main_v8_1 : S4096x4096.Idx → EReal) (ix2 (⟨b.val * 2048 + s.val, by omega⟩ : Fin 4096) k))
      = Cert.MlpSpec.ln (Cert.MlpSpec.ra (fun k => (m ((c : Thread nD τ).loc main_arg0)) (ix3 b s k)) (fun k => (m ((c : Thread nD τ).loc main_arg1)) (ix3 b s k)) (fun k => (m ((c : Thread nD τ).loc main_arg2)) (ix1 k)))
          (fun k => (m ((c : Thread nD τ).loc main_arg3)) (ix1 k)) (fun k => (m ((c : Thread nD τ).loc main_arg4)) (ix1 k)) := funext fun k => by
    refine (congrFun (W2_arr m ρ c 6 : (E2 m ρ c main_v8_1 : S4096x4096.Idx → EReal) = (dat0 (F := Ideal) (E1 m ρ) c).arrAt 6 cfg0.N) _).trans ?_
    refine (h0ln (E1 m ρ) c _ k).trans ?_
    unfold Cert.MlpSpec.arrLn
    rw [x0, x1, x2, x3, x4]
  have y5 : (fun (i : Fin 16384) (k : Fin 4096) => (E2 m ρ c main_arg5 : S16384x4096.Idx → EReal) (ix2 i k)) = fun i k => (m ((c : Thread nD τ).loc main_arg5)) (ix2 i k) :=
    funext fun i => funext fun k => congrFun ((W2_of_ne m ρ c main_arg5 (by decide)).trans (E1_arg5 m ρ c) : (E2 m ρ c main_arg5 : S16384x4096.Idx → EReal) = (m ((c : Thread nD τ).loc main_arg5))) _
  have yb : (fun i : Fin 16384 => (E2 m ρ c main_v5 : S1x16384.Idx → EReal) (ix2 0 i)) = fun i => (m ((c : Thread nD τ).loc main_arg6)) (ix1 i) :=
    funext fun i => (congrFun ((W2_of_ne m ρ c main_v5 (by decide) : (E2 m ρ c main_v5 : S1x16384.Idx → EReal) = (E1 m ρ c main_v5 : S1x16384.Idx → EReal)).trans (E1_v5 m ρ c)) _).trans (shapeCast_a_1a_apply _ _ 0 i)
  -- the buffers the third launch is entered with
  have z9 : (fun i : Fin 16384 => (E3 m ρ c main_v9 : S4096x16384.Idx → EReal) (ix2 (⟨b.val * 2048 + s.val, by omega⟩ : Fin 4096) i))
      = Cert.MlpSpec.inter (Cert.MlpSpec.ln (Cert.MlpSpec.ra (fun k => (m ((c : Thread nD τ).loc main_arg0)) (ix3 b s k)) (fun k => (m ((c : Thread nD τ).loc main_arg1)) (ix3 b s k)) (fun k => (m ((c : Thread nD τ).loc main_arg2)) (ix1 k)))
          (fun k => (m ((c : Thread nD τ).loc main_arg3)) (ix1 k)) (fun k => (m ((c : Thread nD τ).loc main_arg4)) (ix1 k)))
          (fun i k => (m ((c : Thread nD τ).loc main_arg5)) (ix2 i k)) (fun i => (m ((c : Thread nD τ).loc main_arg6)) (ix1 i)) := funext fun i => by
    refine (congrFun (W3_arr m ρ c 3 : (E3 m ρ c main_v9 : S4096x16384.Idx → EReal) = (dat1 (F := Ideal) (E2 m ρ) c).arrAt 3 cfg1.N) _).trans ?_
    refine (h1 (E2 m ρ) c _ i).trans ?_
    unfold Cert.MlpSpec.arrInter
    rw [y81, y5, yb]
  have z7 : (fun (q : Fin 4096) (i : Fin 16384) => (E3 m ρ c main_v7 : S4096x16384.Idx → EReal) (ix2 q i)) = fun q i => (m ((c : Thread nD τ).loc main_arg7)) (ix2 q i) :=
    funext fun q => funext fun i => congrFun (((W3_of_ne m ρ c main_v7 (by decide)).trans (W2_of_ne m ρ c main_v7 (by decide)) : (E3 m ρ c main_v7 : S4096x16384.Idx → EReal) = (E1 m ρ c main_v7 : S4096x16384.Idx → EReal)).trans (E1_v7 m ρ c)) _
  have z80 : (E3 m ρ c main_v8_0 : S4096x4096.Idx → EReal) (ix2 (⟨b.val * 2048 + s.val, by omega⟩ : Fin 4096) h)
      = Cert.MlpSpec.ra (fun k => (m ((c : Thread nD τ).loc main_arg0)) (ix3 b s k)) (fun k => (m ((c : Thread nD τ).loc main_arg1)) (ix3 b s k)) (fun k => (m ((c : Thread nD τ).loc main_arg2)) (ix1 k)) h := by
    refine (congrFun ((W3_of_ne m ρ c main_v8_0 (by decide)).trans (W2_arr m ρ c 5) : (E3 m ρ c main_v8_0 : S4096x4096.Idx → EReal) = (dat0 (F := Ideal) (E1 m ρ) c).arrAt 5 cfg0.N) _).trans ?_
    refine (h0ra (E1 m ρ) c _ h).trans ?_
    unfold Cert.MlpSpec.arrRa
    rw [x0, x1, x2]
  have z6 : (E3 m ρ c main_v6 : S1x4096.Idx → EReal) (ix2 0 h) = (m ((c : Thread nD τ).loc main_arg8)) (ix1 h) :=
    (congrFun (((W3_of_ne m ρ c main_v6 (by decide)).trans (W2_of_ne m ρ c main_v6 (by decide)) : (E3 m ρ c main_v6 : S1x4096.Idx → EReal) = (E1 m ρ c main_v6 : S1x4096.Idx → EReal)).trans (E1_v6 m ρ c)) _).trans (shapeCast_a_1a_apply _ _ 0 h)
  -- the result
  refine (congrFun (W5_v11 m ρ c) _).trans ?_
  refine (cast2to3 _ _ b s h).trans ?_
  refine (congrFun (W4_arr m ρ c 4 : (W4 m ρ c (Proc.devRef .tc main_v10) : S4096x4096.Idx → EReal) = (dat2 (F := Ideal) (E3 m ρ) c).arrAt 4 cfg2.N) _).trans ?_
  refine (h2 (E3 m ρ) c _ h).trans ?_
  show Cert.MlpSpec.arrOut (E3 m ρ c main_v9) (E3 m ρ c main_v7) (E3 m ρ c main_v8_0) (E3 m ρ c main_v6) (⟨b.val * 2048 + s.val, by omega⟩ : Fin 4096) h
    = Cert.MlpSpec.outRow (fun k => (m ((c : Thread nD τ).loc main_arg0)) (ix3 b s k)) (fun k => (m ((c : Thread nD τ).loc main_arg1)) (ix3 b s k)) (fun k => (m ((c : Thread nD τ).loc main_arg2)) (ix1 k)) (fun k => (m ((c : Thread nD τ).loc main_arg3)) (ix1 k)) (fun k => (m ((c : Thread nD τ).loc main_arg4)) (ix1 k))
        (fun i k => (m ((c : Thread nD τ).loc main_arg5)) (ix2 i k)) (fun i => (m ((c : Thread nD τ).loc main_arg6)) (ix1 i)) (fun q i => (m ((c : Thread nD τ).loc main_arg7)) (ix2 q i)) (fun k => (m ((c : Thread nD τ).loc main_arg8)) (ix1 k)) h
  unfold Cert.MlpSpec.arrOut Cert.MlpSpec.outRow
  refine add3_congr ?_ z80 z6
  refine Finset.sum_congr rfl fun i _ => ?_
  have e1 : (E3 m ρ c main_v9 : S4096x16384.Idx → EReal) (ix2 (⟨b.val * 2048 + s.val, by omega⟩ : Fin 4096) i) = Cert.MlpSpec.inter (Cert.MlpSpec.ln (Cert.MlpSpec.ra (fun k => (m ((c : Thread nD τ).loc main_arg0)) (ix3 b s k)) (fun k => (m ((c : Thread nD τ).loc main_arg1)) (ix3 b s k)) (fun k => (m ((c : Thread nD τ).loc main_arg2)) (ix1 k)))
          (fun k => (m ((c : Thread nD τ).loc main_arg3)) (ix1 k)) (fun k => (m ((c : Thread nD τ).loc main_arg4)) (ix1 k)))
          (fun i k => (m ((c : Thread nD τ).loc main_arg5)) (ix2 i k)) (fun i => (m ((c : Thread nD τ).loc main_arg6)) (ix1 i)) i := congrFun z9 i
  have e2 : (E3 m ρ c main_v7 : S4096x16384.Idx → EReal) (ix2 h i) = (m ((c : Thread nD τ).loc main_arg7)) (ix2 h i) := congrFun (congrFun z7 h) i
  exact mul2_congr e1 e2

end Cert.KernelIdeal.KVal

end
-- ==== Proof.KPay0.lean ====
/-
  The layer-norm kernel, read at one entry (p, q) of its 512 × 4096 tile, on the extended reals.

  Its first store is the residual sum of row p: input plus residual plus the bias row.  Its second store is the
  layer norm of that row: the lane sum of the row, kept as a column and divided by the word of 4096, is the
  row's mean; the same reduction over the centred squares is its variance; the reciprocal square root of the
  variance plus ε, broadcast back along the row, scales the centred row, and the two parameter rows scale and
  shift it.  (The narrowing of the result to the short format is the identity on the extended reals; the zero
  word a lane sum starts from does not occur: the lane sum at the ideal values is the plain sum.)

  Two layout facts the library does not state are proved first: a vector read as a column, and a column
  broadcast along the rows.
-/
import proofs.«162219_j24446953848859_2_alg».proof.Proof.Gen.KernelIdeal.Skeleton
import proofs.«162219_j24446953848859_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KPay

open Idealize.ShloMosaic Idealize.ShloMosaic.ValueIdx Cert.KernelIdeal Cert.KernelIdeal.Gen

variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The residual sum of row p at column q. -/
theorem pay0_ra (v0 v2 : Vec Ideal S512x4096 .f32) (v5 : Vec Ideal S1x4096 .f32) (p : Fin 512) (q : Fin 4096) :
    k0_pay1 (F := Ideal) v0 v2 v5 (ix2 p q)
      = Cert.MlpSpec.ra (fun h => v0 (ix2 p h)) (fun h => v2 (ix2 p h)) (fun h => v5 (ix2 0 h)) q := by
  unfold k0_pay1
  refine (addf_apply _ _ (ix2 p q)).trans ?_
  show _ = (v0 (ix2 p q) + v2 (ix2 p q)) + v5 (ix2 0 q)
  refine congrArg₂ (· + ·) ?_ ?_
  · refine (addf_apply _ _ (ix2 p q)).trans ?_
    exact congrArg₂ (· + ·) (congrFun (shapeCast_self v0 _) (ix2 p q)) (congrFun (shapeCast_self v2 _) (ix2 p q))
  · refine (broadcastTo_1b_ab_apply _ _ p q).trans ?_
    exact congrFun (shapeCast_self v5 _) (ix2 0 q)

/-- The mean of each row as the kernel forms it: the lane sum, kept as a column, divided by the word of 4096. -/
theorem rowmean_apply (X : FVec Ideal S512x4096 .f32) (hr : S512x4096.Reduces [1] S512) (hφ : FKind.Formats .f32)
    (hacc : (0x00000000#32 : BitVec 32) = FKind.add.neutral .f32 hφ) (hc : S512.ShapeCasts S512x1) (p : Fin 512) (u : Fin 1) :
    divf (shapeCast S512x1 (multiReduction (F := Ideal) .add [1] S512 X 0x00000000#32 hr hφ hacc) hc)
        (broadcast S512x1 (Scalar.ofBits (F := Ideal) .f32 0x45800000#32)) (ix2 p u)
      = Ideal.div (∑ h : Fin 4096, X (ix2 p h)) (Ideal.ofBits .f32 0x45800000#32) := by
  refine (divf_apply _ _ _).trans ?_
  refine congrArg (Ideal.div · (Ideal.ofBits .f32 0x45800000#32)) ?_
  refine (shapeCast_a_a1_apply _ _ p u).trans ?_
  refine (Ideal.multiReduction_add_single X 0x00000000#32 hr hφ hacc (ix1 p)).trans ?_
  refine Finset.sum_congr rfl fun h _ => ?_
  refine congrArg X ?_
  funext ax
  match ax with
  | ⟨0, _⟩ => rfl
  | ⟨1, _⟩ => rfl

/-- The normalised row p at column q: the kernel's chain (row mean, centred square's row mean, reciprocal
    square root, scale and shift) over the residual sum is the layer norm of that row. -/
theorem pay0_ln (v0 v2 : Vec Ideal S512x4096 .f32) (v5 v27 v31 : Vec Ideal S1x4096 .f32) (p : Fin 512) (q : Fin 4096) :
    k0_pay2 (F := Ideal) v0 v2 v5 v27 v31 (ix2 p q)
      = Cert.MlpSpec.ln (Cert.MlpSpec.ra (fun h => v0 (ix2 p h)) (fun h => v2 (ix2 p h)) (fun h => v5 (ix2 0 h)))
          (fun h => v27 (ix2 0 h)) (fun h => v31 (ix2 0 h)) q := by
  have hra : Cert.MlpSpec.ra (fun h => v0 (ix2 p h)) (fun h => v2 (ix2 p h)) (fun h => v5 (ix2 0 h))
      = fun h => k0_pay1 (F := Ideal) v0 v2 v5 (ix2 p h) := funext fun h => (pay0_ra v0 v2 v5 p h).symm
  rw [hra]
  unfold k0_pay2
  generalize k0_pay1 (F := Ideal) v0 v2 v5 = R
  -- the mean of row p, as every later step reads it
  have hmean : ∀ (hr : S512x4096.Reduces [1] S512) (hφ : FKind.Formats .f32)
      (hacc : (0x00000000#32 : BitVec 32) = FKind.add.neutral .f32 hφ) (hc : S512.ShapeCasts S512x1)
      (hb : S512x1.Broadcasts S512x4096) (h : Fin 4096),
      broadcastTo S512x4096 (divf (shapeCast S512x1 (multiReduction (F := Ideal) .add [1] S512 R 0x00000000#32 hr hφ hacc) hc)
        (broadcast S512x1 (Scalar.ofBits (F := Ideal) .f32 0x45800000#32))) hb (ix2 p h)
        = Cert.MlpSpec.mean (fun h => R (ix2 p h)) := fun hr hφ hacc hc hb h =>
    (broadcastTo_a1_ab_apply _ hb p h).trans (rowmean_apply R hr hφ hacc hc p 0)
  refine (truncf_apply (φ := .f32) (ψ := .bf16) _ _ (ix2 p q)).trans ?_
  refine (addf_apply _ _ (ix2 p q)).trans ?_
  show _ = ((R (ix2 p q) - Cert.MlpSpec.mean (fun h => R (ix2 p h)))
      * Ideal.rsqrt (Cert.MlpSpec.var (fun h => R (ix2 p h)) + Ideal.ofBits .f32 0x2B8CBCCC#32)) * v27 (ix2 0 q) + v31 (ix2 0 q)
  refine congrArg₂ (· + ·) ?_ ?_
  · refine (mulf_apply _ _ (ix2 p q)).trans ?_
    refine congrArg₂ (· * ·) ?_ ?_
    · refine (mulf_apply _ _ (ix2 p q)).trans ?_
      refine congrArg₂ (· * ·) ?_ ?_
      · refine (subf_apply _ _ (ix2 p q)).trans ?_
        exact congrArg (R (ix2 p q) - ·) (hmean _ _ _ _ _ q)
      · refine (broadcastTo_a1_ab_apply _ _ p q).trans ?_
        refine congrArg Ideal.rsqrt ?_
        refine (addf_apply _ _ (ix2 p (0 : Fin 1))).trans ?_
        refine congrArg (· + Ideal.ofBits .f32 0x2B8CBCCC#32) ?_
        refine (rowmean_apply _ _ _ _ _ p 0).trans ?_
        refine congrArg (Ideal.div · (Ideal.ofBits .f32 0x45800000#32)) ?_
        refine Finset.sum_congr rfl fun h _ => ?_
        refine (mulf_apply _ _ (ix2 p h)).trans ?_
        refine congrArg₂ (· * ·) ?_ ?_ <;>
          exact (subf_apply R _ (ix2 p h)).trans (congrArg (R (ix2 p h) - ·) (hmean _ _ _ _ _ h))
    · refine (broadcastTo_1b_ab_apply _ _ p q).trans ?_
      exact congrFun (shapeCast_self v27 _) (ix2 0 q)
  · refine (broadcastTo_1b_ab_apply _ _ p q).trans ?_
    exact congrFun (shapeCast_self v31 _) (ix2 0 q)

end Cert.KernelIdeal.KPay

end
-- ==== Proof.KVal0.lean ====
/-
  The layer-norm launch: from the blocks its eight grid points write back to the two result arrays.

  Point t sees rows 512·t … 512·t + 511 of the two 4096 × 4096 inputs and the whole of each parameter row, and
  writes back the same rows of the two results.  The body's stored blocks, read at an entry, are the residual sum
  and the layer norm of one row of the blocks; a row of a block is a row of the whole array, so each write-back
  is block t of ONE function of the arrays as the launch finds them.  Row r lies in the block of point r / 512,
  so the blocks cover both results, which therefore end holding those functions.
-/
import proofs.«162219_j24446953848859_2_alg».proof.Proof.KI.R0
import proofs.«162219_j24446953848859_2_alg».proof.Proof.KPay0
import proofs.«162219_j24446953848859_2_alg».proof.Proof.Spec
import Idealize.ShloMosaic.Lib.Pipeline.Value
import Idealize.ShloMosaic.Lib.ValueIdx

noncomputable section

namespace Cert.KernelIdeal.KVal

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The residual sum of row p of the whole arrays, at column h. -/
def ra0 (c : Dev nD) (p h : Fin 4096) : EReal :=
  Cert.MlpSpec.ra (fun k => V c main_v0 (ix2 p k)) (fun k => V c main_v1 (ix2 p k)) (fun k => V c main_v2 (ix2 0 k)) h

/-- The whole residual-sum array: entry (p, h) is entry h of the residual sum of row p. -/
def G5 (c : Dev nD) : S4096x4096.Idx → EReal := fun j => ra0 V c (j 0) (j 1)

/-- The block indices over the grid: point t holds rows 512·t … of the two inputs and of the two results, and
    the whole of each parameter row. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The first input's block at point t is rows 512·t … 512·t + 511 of its array. -/
theorem iblk0_0_apply (c : Dev nD) (t : Fin cfg0.N) (x : S512x4096.Idx) (k : S4096x4096.Idx)
    (hk0 : (k 0).val = 512 * t.val + (x 0).val) (hk1 : (k 1).val = (x 1).val) :
    (iblk0 V c 0 t : Vec Ideal S512x4096 .f32) x = (V c main_v0 : S4096x4096.Idx → Elt Ideal .f32) k := by
  obtain ⟨e0, e1, -⟩ := idx_facts0 t
  unfold iblk0
  rw [View.read_apply]
  show V c main_v0 _ = V c main_v0 _
  congr 1
  funext a
  apply Fin.ext
  match a with
  | ⟨0, _⟩ => show win0_0.index t (0 : Fin 2) * 512 + 1 * (x 0).val = (k 0).val; rw [e0, hk0]; omega
  | ⟨1, _⟩ => show win0_0.index t (1 : Fin 2) * 4096 + 1 * (x 1).val = (k 1).val; rw [e1, hk1]; omega

/-- The second input's block likewise. -/
theorem iblk0_1_apply (c : Dev nD) (t : Fin cfg0.N) (x : S512x4096.Idx) (k : S4096x4096.Idx)
    (hk0 : (k 0).val = 512 * t.val + (x 0).val) (hk1 : (k 1).val = (x 1).val) :
    (iblk0 V c 1 t : Vec Ideal S512x4096 .f32) x = (V c main_v1 : S4096x4096.Idx → Elt Ideal .f32) k := by
  obtain ⟨-, -, e0, e1, -⟩ := idx_facts0 t
  unfold iblk0
  rw [View.read_apply]
  show V c main_v1 _ = V c main_v1 _
  congr 1
  funext a
  apply Fin.ext
  match a with
  | ⟨0, _⟩ => show win0_1.index t (0 : Fin 2) * 512 + 1 * (x 0).val = (k 0).val; rw [e0, hk0]; omega
  | ⟨1, _⟩ => show win0_1.index t (1 : Fin 2) * 4096 + 1 * (x 1).val = (k 1).val; rw [e1, hk1]; omega

/-- A parameter row's block at every point is the whole row. -/
theorem iblk0_2_apply (c : Dev nD) (t : Fin cfg0.N) (x : S1x4096.Idx) :
    (iblk0 V c 2 t : Vec Ideal S1x4096 .f32) x = (V c main_v2 : S1x4096.Idx → Elt Ideal .f32) x := by
  obtain ⟨-, -, -, -, e0, e1, -⟩ := idx_facts0 t
  unfold iblk0
  rw [View.read_apply]
  show V c main_v2 _ = V c main_v2 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 4096 + 1 * (x 1).val = (x 1).val; rw [e1]; omega

/-- What point t writes back to the residual-sum array is block t of the whole array. -/
theorem flushed5_eq (c : Dev nD) (t : Fin cfg0.N) :
    (dat0 (F := Ideal) V c).flushed 5 t = ((cfg0.win 5).blk t).view.read (Elt Ideal) (G5 V c) := by
  show (cfg0.win 5).cut (grid0.coords t) ((dat0 (F := Ideal) V c).after 5 t) = _
  rw [after0_5]
  unfold out0_5
  rw [View.canon_unit_zero hz0]
  simp only [View.ld_unit_zero (S := S512x4096) hz0, View.ld_unit_zero (S := S1x4096) hz0]
  funext y
  obtain ⟨p, q, rfl⟩ : ∃ (p : Fin 512) (q : Fin 4096), y = ix2 p q := ⟨y 0, y 1, eq_ix2 y⟩
  show k0_pay1 (iblk0 V c 0 t) (iblk0 V c 1 t) (iblk0 V c 2 t) (ix2 p q) = G5 V c (((cfg0.win 5).blk t).view.emb (ix2 p q))
  refine (KPay.pay0_ra (iblk0 V c 0 t) (iblk0 V c 1 t) (iblk0 V c 2 t) p q).trans ?_
  obtain ⟨-, -, -, -, -, -, -, -, -, -, e50, e51, -, -⟩ := idx_facts0 t
  have hN : t.val < 8 := Nat.lt_of_lt_of_eq t.isLt (show cfg0.N = 8 from N_0)
  have hP : 512 * t.val + p.val < 4096 := by omega
  have hemb : ((cfg0.win 5).blk t).view.emb (ix2 p q) = ix2 (⟨512 * t.val + p.val, hP⟩ : Fin 4096) q := by
    funext a
    apply Fin.ext
    match a with
    | ⟨0, _⟩ => show win0_5.index t (0 : Fin 2) * 512 + 1 * p.val = 512 * t.val + p.val; rw [e50]; omega
    | ⟨1, _⟩ => show win0_5.index t (1 : Fin 2) * 4096 + 1 * q.val = q.val; rw [e51]; omega
  rw [hemb]
  show _ = ra0 V c ⟨512 * t.val + p.val, hP⟩ q
  unfold ra0
  have h0 : (fun h => (iblk0 V c 0 t : Vec Ideal S512x4096 .f32) (ix2 p h))
      = fun k => V c main_v0 (ix2 (⟨512 * t.val + p.val, hP⟩ : Fin 4096) k) :=
    funext fun h => iblk0_0_apply V c t (ix2 p h) (ix2 (⟨512 * t.val + p.val, hP⟩ : Fin 4096) h) rfl rfl
  have h1 : (fun h => (iblk0 V c 1 t : Vec Ideal S512x4096 .f32) (ix2 p h))
      = fun k => V c main_v1 (ix2 (⟨512 * t.val + p.val, hP⟩ : Fin 4096) k) :=
    funext fun h => iblk0_1_apply V c t (ix2 p h) (ix2 (⟨512 * t.val + p.val, hP⟩ : Fin 4096) h) rfl rfl
  have h2 : (fun h => (iblk0 V c 2 t : Vec Ideal S1x4096 .f32) (ix2 0 h)) = fun k => V c main_v2 (ix2 0 k) :=
    funext fun h => iblk0_2_apply V c t (ix2 0 h)
  rw [h0, h1, h2]

/-- An index of the array is in point t's block iff each coordinate is in the block's range on its axis. -/
theorem mem_blk5 (t : Fin cfg0.N) (i : S4096x4096.Idx) :
    i ∈ ((cfg0.win 5).blk t).view.set ↔ ∀ a : Fin 2, win0_5.index t a * S512x4096.size a ≤ (i a).val
      ∧ (i a).val < win0_5.index t a * S512x4096.size a + S512x4096.size a := by
  show i ∈ ((View.whole main_v8_0).slice (win0_5.rect t)).set ↔ _
  rw [View.set_slice_whole, Rect.mem_set_unit]
  exact Iff.rfl

/-- Row r of the array is in the block of point r / 512. -/
theorem cover5 (i : S4096x4096.Idx) : ∃ t : Fin cfg0.N, (cfg0.win 5).flush t = true ∧ i ∈ ((cfg0.win 5).blk t).view.set := by
  have hi0 : (i 0).val < 4096 := (i 0).isLt
  have hi1 : (i 1).val < 4096 := (i 1).isLt
  obtain ⟨t, ht⟩ : ∃ t : Fin cfg0.N, t.val = (i 0).val / 512 :=
    ⟨⟨(i 0).val / 512, by rw [show cfg0.N = 8 from N_0]; omega⟩, rfl⟩
  obtain ⟨-, -, -, -, -, -, -, -, -, -, e50, e51, -, -⟩ := idx_facts0 t
  refine ⟨t, flush0_5 t, ?_⟩
  rw [mem_blk5]
  intro a
  match a with
  | ⟨0, _⟩ =>
    show win0_5.index t (0 : Fin 2) * 512 ≤ (i 0).val ∧ (i 0).val < win0_5.index t (0 : Fin 2) * 512 + 512
    rw [e50, ht]; omega
  | ⟨1, _⟩ =>
    show win0_5.index t (1 : Fin 2) * 4096 ≤ (i 1).val ∧ (i 1).val < win0_5.index t (1 : Fin 2) * 4096 + 4096
    rw [e51]; omega

/-- The residual-sum array after the launch is the whole-array function. -/
theorem final5 (c : Dev nD) : (dat0 (F := Ideal) V c).arrAt 5 cfg0.N = G5 V c :=
  (dat0 (F := Ideal) V c).arrAt_eq_of_cover 5 (G5 V c) (fun t _ => flushed5_eq V c t) cover5

/-- Entry (p, h) of the residual-sum array after the launch. -/
theorem final0_ra (c : Dev nD) (p h : Fin 4096) :
    (dat0 (F := Ideal) V c).arrAt 5 cfg0.N (ix2 p h)
      = Cert.MlpSpec.ra (fun k => V c main_v0 (ix2 p k)) (fun k => V c main_v1 (ix2 p k)) (fun k => V c main_v2 (ix2 0 k)) h := by
  rw [final5]; rfl

/-- The layer norm of row p of the whole arrays, at column h. -/
def ln0 (c : Dev nD) (p h : Fin 4096) : EReal :=
  Cert.MlpSpec.ln (Cert.MlpSpec.ra (fun k => V c main_v0 (ix2 p k)) (fun k => V c main_v1 (ix2 p k)) (fun k => V c main_v2 (ix2 0 k)))
    (fun k => V c main_v3 (ix2 0 k)) (fun k => V c main_v4 (ix2 0 k)) h

/-- The whole normalised array: entry (p, h) is entry h of the layer norm of row p. -/
def G6 (c : Dev nD) : S4096x4096.Idx → EReal := fun j => ln0 V c (j 0) (j 1)

/-- The scale row's block at every point is the whole row. -/
theorem iblk0_3_apply (c : Dev nD) (t : Fin cfg0.N) (x : S1x4096.Idx) :
    (iblk0 V c 3 t : Vec Ideal S1x4096 .f32) x = (V c main_v3 : S1x4096.Idx → Elt Ideal .f32) x := by
  obtain ⟨-, -, -, -, -, -, e0, e1, -⟩ := idx_facts0 t
  unfold iblk0
  rw [View.read_apply]
  show V c main_v3 _ = V c main_v3 _
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 4096 + 1 * (x 1).val = (x 1).val; rw [e1]; omega

/-- The shift row's block at every point is the whole row. -/
theorem iblk0_4_apply (c : Dev nD) (t : Fin cfg0.N) (x : S1x4096.Idx) :
    (iblk0 V c 4 t : Vec Ideal S1x4096 .f32) x = (V c main_v4 : S1x4096.Idx → Elt Ideal .f32) x := by
  obtain ⟨-, -, -, -, -, -, -, -, e0, e1, -⟩ := idx_facts0 t
  unfold iblk0
  rw [View.read_apply]
  show V c main_v4 _ = V c main_v4 _
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 4096 + 1 * (x 1).val = (x 1).val; rw [e1]; omega

/-- What point t writes back to the normalised array is block t of the whole array. -/
theorem flushed6_eq (c : Dev nD) (t : Fin cfg0.N) :
    (dat0 (F := Ideal) V c).flushed 6 t = ((cfg0.win 6).blk t).view.read (Elt Ideal) (G6 V c) := by
  show (cfg0.win 6).cut (grid0.coords t) ((dat0 (F := Ideal) V c).after 6 t) = _
  rw [after0_6]
  unfold out0_6
  rw [View.canon_unit_zero hz0]
  simp only [View.ld_unit_zero (S := S512x4096) hz0, View.ld_unit_zero (S := S1x4096) hz0]
  funext y
  obtain ⟨p, q, rfl⟩ : ∃ (p : Fin 512) (q : Fin 4096), y = ix2 p q := ⟨y 0, y 1, eq_ix2 y⟩
  show k0_pay2 (iblk0 V c 0 t) (iblk0 V c 1 t) (iblk0 V c 2 t) (iblk0 V c 3 t) (iblk0 V c 4 t) (ix2 p q)
    = G6 V c (((cfg0.win 6).blk t).view.emb (ix2 p q))
  refine (KPay.pay0_ln (iblk0 V c 0 t) (iblk0 V c 1 t) (iblk0 V c 2 t) (iblk0 V c 3 t) (iblk0 V c 4 t) p q).trans ?_
  obtain ⟨-, -, -, -, -, -, -, -, -, -, -, -, e60, e61⟩ := idx_facts0 t
  have hN : t.val < 8 := Nat.lt_of_lt_of_eq t.isLt (show cfg0.N = 8 from N_0)
  have hP : 512 * t.val + p.val < 4096 := by omega
  have hemb : ((cfg0.win 6).blk t).view.emb (ix2 p q) = ix2 (⟨512 * t.val + p.val, hP⟩ : Fin 4096) q := by
    funext a
    apply Fin.ext
    match a with
    | ⟨0, _⟩ => show win0_6.index t (0 : Fin 2) * 512 + 1 * p.val = 512 * t.val + p.val; rw [e60]; omega
    | ⟨1, _⟩ => show win0_6.index t (1 : Fin 2) * 4096 + 1 * q.val = q.val; rw [e61]; omega
  rw [hemb]
  show _ = ln0 V c ⟨512 * t.val + p.val, hP⟩ q
  unfold ln0
  have h0 : (fun h => (iblk0 V c 0 t : Vec Ideal S512x4096 .f32) (ix2 p h))
      = fun k => V c main_v0 (ix2 (⟨512 * t.val + p.val, hP⟩ : Fin 4096) k) :=
    funext fun h => iblk0_0_apply V c t (ix2 p h) (ix2 (⟨512 * t.val + p.val, hP⟩ : Fin 4096) h) rfl rfl
  have h1 : (fun h => (iblk0 V c 1 t : Vec Ideal S512x4096 .f32) (ix2 p h))
      = fun k => V c main_v1 (ix2 (⟨512 * t.val + p.val, hP⟩ : Fin 4096) k) :=
    funext fun h => iblk0_1_apply V c t (ix2 p h) (ix2 (⟨512 * t.val + p.val, hP⟩ : Fin 4096) h) rfl rfl
  have h2 : (fun h => (iblk0 V c 2 t : Vec Ideal S1x4096 .f32) (ix2 0 h)) = fun k => V c main_v2 (ix2 0 k) :=
    funext fun h => iblk0_2_apply V c t (ix2 0 h)
  have h3 : (fun h => (iblk0 V c 3 t : Vec Ideal S1x4096 .f32) (ix2 0 h)) = fun k => V c main_v3 (ix2 0 k) :=
    funext fun h => iblk0_3_apply V c t (ix2 0 h)
  have h4 : (fun h => (iblk0 V c 4 t : Vec Ideal S1x4096 .f32) (ix2 0 h)) = fun k => V c main_v4 (ix2 0 k) :=
    funext fun h => iblk0_4_apply V c t (ix2 0 h)
  rw [h0, h1, h2, h3, h4]

/-- An index of the array is in point t's block iff each coordinate is in the block's range on its axis. -/
theorem mem_blk6 (t : Fin cfg0.N) (i : S4096x4096.Idx) :
    i ∈ ((cfg0.win 6).blk t).view.set ↔ ∀ a : Fin 2, win0_6.index t a * S512x4096.size a ≤ (i a).val
      ∧ (i a).val < win0_6.index t a * S512x4096.size a + S512x4096.size a := by
  show i ∈ ((View.whole main_v8_1).slice (win0_6.rect t)).set ↔ _
  rw [View.set_slice_whole, Rect.mem_set_unit]
  exact Iff.rfl

/-- Row r of the array is in the block of point r / 512. -/
theorem cover6 (i : S4096x4096.Idx) : ∃ t : Fin cfg0.N, (cfg0.win 6).flush t = true ∧ i ∈ ((cfg0.win 6).blk t).view.set := by
  have hi0 : (i 0).val < 4096 := (i 0).isLt
  have hi1 : (i 1).val < 4096 := (i 1).isLt
  obtain ⟨t, ht⟩ : ∃ t : Fin cfg0.N, t.val = (i 0).val / 512 :=
    ⟨⟨(i 0).val / 512, by rw [show cfg0.N = 8 from N_0]; omega⟩, rfl⟩
  obtain ⟨-, -, -, -, -, -, -, -, -, -, -, -, e60, e61⟩ := idx_facts0 t
  refine ⟨t, flush0_6 t, ?_⟩
  rw [mem_blk6]
  intro a
  match a with
  | ⟨0, _⟩ =>
    show win0_6.index t (0 : Fin 2) * 512 ≤ (i 0).val ∧ (i 0).val < win0_6.index t (0 : Fin 2) * 512 + 512
    rw [e60, ht]; omega
  | ⟨1, _⟩ =>
    show win0_6.index t (1 : Fin 2) * 4096 ≤ (i 1).val ∧ (i 1).val < win0_6.index t (1 : Fin 2) * 4096 + 4096
    rw [e61]; omega

/-- The normalised array after the launch is the whole-array function. -/
theorem final6 (c : Dev nD) : (dat0 (F := Ideal) V c).arrAt 6 cfg0.N = G6 V c :=
  (dat0 (F := Ideal) V c).arrAt_eq_of_cover 6 (G6 V c) (fun t _ => flushed6_eq V c t) cover6

/-- Entry (p, h) of the normalised array after the launch. -/
theorem final0_ln (c : Dev nD) (p h : Fin 4096) :
    (dat0 (F := Ideal) V c).arrAt 6 cfg0.N (ix2 p h)
      = Cert.MlpSpec.ln (Cert.MlpSpec.ra (fun k => V c main_v0 (ix2 p k)) (fun k => V c main_v1 (ix2 p k)) (fun k => V c main_v2 (ix2 0 k)))
          (fun k => V c main_v3 (ix2 0 k)) (fun k => V c main_v4 (ix2 0 k)) h := by
  rw [final6]; rfl

end Cert.KernelIdeal.KVal

end
-- ==== Proof.KPay1.lean ====
/-
  The first product's kernel, read at one entry (p, j) of its 4096 × 256 tile, on the extended reals.

  Row p of the left factor against row j of the right factor (stored transposed; its rounding to the narrow
  format is the identity on the extended reals), summed over the 4096 contracted coordinates into a zero
  accumulator, plus the bias of column j, and then the tanh approximation of the Gaussian error linear unit:
  the pointwise tail of the kernel is that function of the pre-activation, by unfolding.
-/
import proofs.«162219_j24446953848859_2_alg».proof.Proof.Gen.KernelIdeal.Skeleton
import proofs.«162219_j24446953848859_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KPay

open Idealize.ShloMosaic Idealize.ShloMosaic.ValueIdx Cert.KernelIdeal Cert.KernelIdeal.Gen

/-- A product against a transposed right factor, accumulated into zero, read at (p, j): the sum over the
    contracted coordinate of the two rows' products. -/
theorem matmul1_apply (a : FVec Ideal S4096x4096 .bf16) (b : FVec Ideal S256x4096 .bf16) (p : Fin 4096) (j : Fin 256) :
    matmul dot_S4096x4096_S256x4096_S4096x256_1_1_0_0_n_n none a b (constant S4096x256 .f32 0x00000000#32) (ix2 p j)
      = ∑ h : Fin 4096, a (ix2 p h) * b (ix2 j h) := by
  refine (Ideal.matmul_constant_zero_apply dot_S4096x4096_S256x4096_S4096x256_1_1_0_0_n_n none a b (ix2 p j)).trans ?_
  rw [← Equiv.sum_comp (contrEquiv1 dot_S4096x4096_S256x4096_S4096x256_1_1_0_0_n_n 4096 rfl rfl).symm]
  refine Finset.sum_congr rfl fun c _ => ?_
  have c2 := contrEquiv1_symm_val dot_S4096x4096_S256x4096_S4096x256_1_1_0_0_n_n 4096 rfl rfl c
  have l : dot_S4096x4096_S256x4096_S4096x256_1_1_0_0_n_n.lhsIdx (ix2 p j)
      ((contrEquiv1 dot_S4096x4096_S256x4096_S4096x256_1_1_0_0_n_n 4096 rfl rfl).symm c) = ix2 p c := by
    funext ax; apply Fin.ext
    match ax with
    | ⟨0, _⟩ => rfl
    | ⟨1, _⟩ => exact (DotDims.lhsIdx_val_of_single _ rfl _ _).trans c2
  have r : dot_S4096x4096_S256x4096_S4096x256_1_1_0_0_n_n.rhsIdx (ix2 p j)
      ((contrEquiv1 dot_S4096x4096_S256x4096_S4096x256_1_1_0_0_n_n 4096 rfl rfl).symm c) = ix2 j c := by
    funext ax; apply Fin.ext
    match ax with
    | ⟨0, _⟩ => rfl
    | ⟨1, _⟩ => exact (DotDims.rhsIdx_val_of_single _ rfl _ _).trans c2
  rw [l, r]

/-- The activation's pointwise tail: whatever the pre-activation t is, the kernel's chain of products, sums and
    the hyperbolic tangent over it is the tanh approximation of the Gaussian error linear unit at t. -/
theorem gelu_tail (t : FVec Ideal S4096x256 .f32) (hb : FTy.bf16.bits < FTy.f32.bits) (i : S4096x256.Idx) :
    truncf .bf16 (mulf t (mulf (broadcast S4096x256 (Scalar.ofBits (F := Ideal) .f32 0x3F000000#32))
      (addf (broadcast S4096x256 (Scalar.ofBits (F := Ideal) .f32 0x3F800000#32))
        (tanh (mulf (broadcast S4096x256 (Scalar.ofBits (F := Ideal) .f32 0x3F4C422A#32))
          (addf t (mulf (broadcast S4096x256 (Scalar.ofBits (F := Ideal) .f32 0x3D372713#32)) (mulf t (mulf t t))))))))) hb i
      = Cert.MlpSpec.gelu (t i) := rfl

/-- The first product's kernel at (p, j): the activation of row p of the left factor against row j of the
    right factor, plus the bias of column j. -/
theorem pay1_inter (v0 : Vec Ideal S256x4096 .f32) (v2 : Vec Ideal S4096x4096 .bf16) (v5 : Vec Ideal S1x256 .f32)
    (p : Fin 4096) (j : Fin 256) :
    k1_pay1 (F := Ideal) v0 v2 v5 (ix2 p j)
      = Cert.MlpSpec.gelu ((∑ h : Fin 4096, v2 (ix2 p h) * v0 (ix2 j h)) + v5 (ix2 0 j)) := by
  unfold k1_pay1
  refine (gelu_tail _ _ (ix2 p j)).trans ?_
  refine congrArg Cert.MlpSpec.gelu ?_
  refine (addf_apply _ _ (ix2 p j)).trans ?_
  refine congrArg₂ (· + ·) ?_ ?_
  · refine (matmul1_apply _ _ p j).trans ?_
    refine Finset.sum_congr rfl fun h _ => ?_
    exact congrArg₂ (· * ·) (congrFun (shapeCast_self v2 _) (ix2 p h)) (truncf_apply (φ := .f32) (ψ := .bf16) v0 _ (ix2 j h))
  · refine (broadcastTo_1b_ab_apply _ _ p j).trans ?_
    exact congrFun (shapeCast_self v5 _) (ix2 0 j)

end Cert.KernelIdeal.KPay

end
-- ==== Proof.KVal1.lean ====
/-
  The first product's launch: from the blocks its 64 grid points write back to the activation array.

  Point t sees the whole normalised 4096 × 4096 array, rows 256·t … 256·t + 255 of the 16384 × 4096 weight and
  columns 256·t … of the bias row, and writes back columns 256·t … of the 4096 × 16384 result.  The body's stored
  block, read at an entry, is the activation of one row of the normalised array against one row of the weight
  block plus one bias entry; a row of the weight block is a row of the weight, so each write-back is block t of
  ONE function of the arrays as the launch finds them.  Column i lies in the block of point i / 256, so the
  blocks cover the result, which therefore ends holding that function.
-/
import proofs.«162219_j24446953848859_2_alg».proof.Proof.KI.R1
import proofs.«162219_j24446953848859_2_alg».proof.Proof.KPay1
import proofs.«162219_j24446953848859_2_alg».proof.Proof.Spec
import Idealize.ShloMosaic.Lib.Pipeline.Value
import Idealize.ShloMosaic.Lib.ValueIdx

noncomputable section

namespace Cert.KernelIdeal.KVal

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The activation of row p of the normalised array against row i of the weight, plus the bias of column i. -/
def inter1 (c : Dev nD) (p : Fin 4096) (i : Fin 16384) : EReal :=
  Cert.MlpSpec.inter (fun k => V c main_v8_1 (ix2 p k)) (fun i k => V c main_arg5 (ix2 i k)) (fun i => V c main_v5 (ix2 0 i)) i

/-- The whole activation array. -/
def G3 (c : Dev nD) : S4096x16384.Idx → EReal := fun j => inter1 V c (j 0) (j 1)

/-- The block indices over the grid: point t holds the whole normalised array, rows 256·t … of the weight, and
    columns 256·t … of the bias row and of the result. -/
theorem idx_facts1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- The normalised array's block at every point is the whole array. -/
theorem iblk1_0_apply (c : Dev nD) (t : Fin cfg1.N) (x : S4096x4096.Idx) :
    (iblk1 V c 0 t : Vec Ideal S4096x4096 .bf16) x = (V c main_v8_1 : S4096x4096.Idx → Elt Ideal .bf16) x := by
  obtain ⟨e0, e1, -⟩ := idx_facts1 t
  unfold iblk1
  rw [View.read_apply]
  show V c main_v8_1 _ = V c main_v8_1 _
  congr 1
  funext a
  apply Fin.ext
  match a with
  | ⟨0, _⟩ => show win1_0.index t (0 : Fin 2) * 4096 + 1 * (x 0).val = (x 0).val; rw [e0]; omega
  | ⟨1, _⟩ => show win1_0.index t (1 : Fin 2) * 4096 + 1 * (x 1).val = (x 1).val; rw [e1]; omega

/-- The weight's block at point t is rows 256·t … 256·t + 255 of the weight. -/
theorem iblk1_1_apply (c : Dev nD) (t : Fin cfg1.N) (x : S256x4096.Idx) (k : S16384x4096.Idx)
    (hk0 : (k 0).val = 256 * t.val + (x 0).val) (hk1 : (k 1).val = (x 1).val) :
    (iblk1 V c 1 t : Vec Ideal S256x4096 .f32) x = (V c main_arg5 : S16384x4096.Idx → Elt Ideal .f32) k := by
  obtain ⟨-, -, e0, e1, -⟩ := idx_facts1 t
  unfold iblk1
  rw [View.read_apply]
  show V c main_arg5 _ = V c main_arg5 _
  congr 1
  funext a
  apply Fin.ext
  match a with
  | ⟨0, _⟩ => show win1_1.index t (0 : Fin 2) * 256 + 1 * (x 0).val = (k 0).val; rw [e0, hk0]; omega
  | ⟨1, _⟩ => show win1_1.index t (1 : Fin 2) * 4096 + 1 * (x 1).val = (k 1).val; rw [e1, hk1]; omega

/-- The bias row's block at point t is columns 256·t … 256·t + 255 of the row. -/
theorem iblk1_2_apply (c : Dev nD) (t : Fin cfg1.N) (x : S1x256.Idx) (k : S1x16384.Idx)
    (hk0 : (k 0).val = (x 0).val) (hk1 : (k 1).val = 256 * t.val + (x 1).val) :
    (iblk1 V c 2 t : Vec Ideal S1x256 .f32) x = (V c main_v5 : S1x16384.Idx → Elt Ideal .f32) k := by
  obtain ⟨-, -, -, -, e0, e1, -⟩ := idx_facts1 t
  unfold iblk1
  rw [View.read_apply]
  show V c main_v5 _ = V c main_v5 _
  congr 1
  funext a
  apply Fin.ext
  match a with
  | ⟨0, _⟩ => show win1_2.index t (0 : Fin 2) * 1 + 1 * (x 0).val = (k 0).val; rw [e0, hk0]; omega
  | ⟨1, _⟩ => show win1_2.index t (1 : Fin 2) * 256 + 1 * (x 1).val = (k 1).val; rw [e1, hk1]; omega

/-- What point t writes back to the activation array is block t of the whole array. -/
theorem flushed3_eq (c : Dev nD) (t : Fin cfg1.N) :
    (dat1 (F := Ideal) V c).flushed 3 t = ((cfg1.win 3).blk t).view.read (Elt Ideal) (G3 V c) := by
  show (cfg1.win 3).cut (grid1.coords t) ((dat1 (F := Ideal) V c).after 3 t) = _
  rw [after1_3]
  unfold out1_3
  rw [View.canon_unit_zero hz1]
  simp only [View.ld_unit_zero (S := S4096x4096) hz1, View.ld_unit_zero (S := S256x4096) hz1, View.ld_unit_zero (S := S1x256) hz1]
  funext y
  obtain ⟨p, j, rfl⟩ : ∃ (p : Fin 4096) (j : Fin 256), y = ix2 p j := ⟨y 0, y 1, eq_ix2 y⟩
  show k1_pay1 (iblk1 V c 1 t) (iblk1 V c 0 t) (iblk1 V c 2 t) (ix2 p j) = G3 V c (((cfg1.win 3).blk t).view.emb (ix2 p j))
  refine (KPay.pay1_inter (iblk1 V c 1 t) (iblk1 V c 0 t) (iblk1 V c 2 t) p j).trans ?_
  obtain ⟨-, -, -, -, -, -, e30, e31⟩ := idx_facts1 t
  have hN : t.val < 64 := Nat.lt_of_lt_of_eq t.isLt (show cfg1.N = 64 from N_1)
  have hI : 256 * t.val + j.val < 16384 := by omega
  have hemb : ((cfg1.win 3).blk t).view.emb (ix2 p j) = ix2 p (⟨256 * t.val + j.val, hI⟩ : Fin 16384) := by
    funext a
    apply Fin.ext
    match a with
    | ⟨0, _⟩ => show win1_3.index t (0 : Fin 2) * 4096 + 1 * p.val = p.val; rw [e30]; omega
    | ⟨1, _⟩ => show win1_3.index t (1 : Fin 2) * 256 + 1 * j.val = 256 * t.val + j.val; rw [e31]; omega
  rw [hemb]
  show _ = inter1 V c p ⟨256 * t.val + j.val, hI⟩
  unfold inter1 Cert.MlpSpec.inter
  refine congrArg Cert.MlpSpec.gelu (congrArg₂ (· + ·) (Finset.sum_congr rfl fun h _ => congrArg₂ (· * ·) ?_ ?_) ?_)
  · exact iblk1_0_apply V c t (ix2 p h)
  · exact iblk1_1_apply V c t (ix2 j h) (ix2 (⟨256 * t.val + j.val, hI⟩ : Fin 16384) h) rfl rfl
  · exact iblk1_2_apply V c t (ix2 0 j) (ix2 0 (⟨256 * t.val + j.val, hI⟩ : Fin 16384)) rfl rfl

/-- An index of the array is in point t's block iff each coordinate is in the block's range on its axis. -/
theorem mem_blk3 (t : Fin cfg1.N) (i : S4096x16384.Idx) :
    i ∈ ((cfg1.win 3).blk t).view.set ↔ ∀ a : Fin 2, win1_3.index t a * S4096x256.size a ≤ (i a).val
      ∧ (i a).val < win1_3.index t a * S4096x256.size a + S4096x256.size a := by
  show i ∈ ((View.whole main_v9).slice (win1_3.rect t)).set ↔ _
  rw [View.set_slice_whole, Rect.mem_set_unit]
  exact Iff.rfl

/-- Column i of the array is in the block of point i / 256. -/
theorem cover3 (i : S4096x16384.Idx) : ∃ t : Fin cfg1.N, (cfg1.win 3).flush t = true ∧ i ∈ ((cfg1.win 3).blk t).view.set := by
  have hi0 : (i 0).val < 4096 := (i 0).isLt
  have hi1 : (i 1).val < 16384 := (i 1).isLt
  obtain ⟨t, ht⟩ : ∃ t : Fin cfg1.N, t.val = (i 1).val / 256 :=
    ⟨⟨(i 1).val / 256, by rw [show cfg1.N = 64 from N_1]; omega⟩, rfl⟩
  obtain ⟨-, -, -, -, -, -, e30, e31⟩ := idx_facts1 t
  refine ⟨t, flush1_3 t, ?_⟩
  rw [mem_blk3]
  intro a
  match a with
  | ⟨0, _⟩ =>
    show win1_3.index t (0 : Fin 2) * 4096 ≤ (i 0).val ∧ (i 0).val < win1_3.index t (0 : Fin 2) * 4096 + 4096
    rw [e30]; omega
  | ⟨1, _⟩ =>
    show win1_3.index t (1 : Fin 2) * 256 ≤ (i 1).val ∧ (i 1).val < win1_3.index t (1 : Fin 2) * 256 + 256
    rw [e31, ht]; omega

/-- The activation array after the launch is the whole-array function. -/
theorem final3 (c : Dev nD) : (dat1 (F := Ideal) V c).arrAt 3 cfg1.N = G3 V c :=
  (dat1 (F := Ideal) V c).arrAt_eq_of_cover 3 (G3 V c) (fun t _ => flushed3_eq V c t) cover3

/-- Entry (p, i) of the activation array after the launch. -/
theorem final1 (c : Dev nD) (p : Fin 4096) (i : Fin 16384) :
    (dat1 (F := Ideal) V c).arrAt 3 cfg1.N (ix2 p i)
      = Cert.MlpSpec.inter (fun k => V c main_v8_1 (ix2 p k)) (fun i k => V c main_arg5 (ix2 i k)) (fun i => V c main_v5 (ix2 0 i)) i := by
  rw [final3]; rfl

end Cert.KernelIdeal.KVal

end
-- ==== Proof.KVal2Reads.lean ====
/-
  The second matrix product's input blocks read at an entry: block (i, k) of the activation, block (j, k) of the weight,
  block (i, j) of the residual sum and block j of the bias row sit in their arrays at block index × block size plus the
  entry's own coordinate, with (i, j, k) = (t / 32, t / 16 % 2, t % 16) at grid point t.
-/
import proofs.«162219_j24446953848859_2_alg».proof.Proof.KI.R2
import Idealize.ShloMosaic.Lib.ValueIdx
import Idealize.ShloMosaic.Lib.Pipeline.Value
import Idealize.ShloMosaic.Lib.Tactic

set_option maxRecDepth 16384

noncomputable section

namespace Cert.KernelIdeal.KVal

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

/-- The block indices of the input windows at point t = (i, j, k): i = t / 32, j = t / 16 % 2, k = t % 16. -/
theorem idx2 : ∀ t : Fin cfg2.N,
    win2_0.index t (0 : Fin 2) = t.val / 32 ∧ win2_0.index t (1 : Fin 2) = t.val % 16
    ∧ win2_1.index t (0 : Fin 2) = t.val / 16 % 2 ∧ win2_1.index t (1 : Fin 2) = t.val % 16
    ∧ win2_2.index t (0 : Fin 2) = t.val / 32 ∧ win2_2.index t (1 : Fin 2) = t.val / 16 % 2
    ∧ win2_3.index t (0 : Fin 2) = 0 ∧ win2_3.index t (1 : Fin 2) = t.val / 16 % 2 :=
  (by decide +kernel : ∀ t : Fin grid2.N, _)

section Reads
variable {F : FTy → Type} [FloatOps F]
variable (V : (c : Dev nD) → (b : Ref sig .tc) → Buf (Elt F) ((c : Thread nD τ).loc b))

/-- The activation block at point t, entry (p, k): row i·1024 + p, column k·1024 + k of the array. -/
theorem iblk0_at (c : Dev nD) (t : Fin cfg2.N) (p k : Fin 1024) (P : Fin 4096) (K : Fin 16384)
    (hP : P.val = t.val / 32 * 1024 + p.val) (hK : K.val = t.val % 16 * 1024 + k.val) :
    (iblk2 V c 0 t : Vec F S1024x1024 .bf16) (ix2 p k) = V c main_v9 (ix2 P K) := by
  unfold iblk2
  rw [View.read_apply]
  show V c main_v9 _ = V c main_v9 _
  refine congrArg (V c main_v9) ?_
  funext a; apply Fin.ext
  obtain ⟨e0, e1, -⟩ := idx2 t
  match a with
  | ⟨0, _⟩ => show win2_0.index t (0 : Fin 2) * 1024 + 1 * p.val = P.val; rw [e0, hP]; omega
  | ⟨1, _⟩ => show win2_0.index t (1 : Fin 2) * 1024 + 1 * k.val = K.val; rw [e1, hK]; omega

/-- The weight block at point t, entry (q, k): row j·2048 + q, column k·1024 + k of the array. -/
theorem iblk1_at (c : Dev nD) (t : Fin cfg2.N) (q : Fin 2048) (k : Fin 1024) (Q : Fin 4096) (K : Fin 16384)
    (hQ : Q.val = t.val / 16 % 2 * 2048 + q.val) (hK : K.val = t.val % 16 * 1024 + k.val) :
    (iblk2 V c 1 t : Vec F S2048x1024 .bf16) (ix2 q k) = V c main_v7 (ix2 Q K) := by
  unfold iblk2
  rw [View.read_apply]
  show V c main_v7 _ = V c main_v7 _
  refine congrArg (V c main_v7) ?_
  funext a; apply Fin.ext
  obtain ⟨-, -, e0, e1, -⟩ := idx2 t
  match a with
  | ⟨0, _⟩ => show win2_1.index t (0 : Fin 2) * 2048 + 1 * q.val = Q.val; rw [e0, hQ]; omega
  | ⟨1, _⟩ => show win2_1.index t (1 : Fin 2) * 1024 + 1 * k.val = K.val; rw [e1, hK]; omega

/-- The residual block at point t, entry (p, q): row i·1024 + p, column j·2048 + q of the array. -/
theorem iblk2_at (c : Dev nD) (t : Fin cfg2.N) (p : Fin 1024) (q : Fin 2048) (P Q : Fin 4096)
    (hP : P.val = t.val / 32 * 1024 + p.val) (hQ : Q.val = t.val / 16 % 2 * 2048 + q.val) :
    (iblk2 V c 2 t : Vec F S1024x2048 .f32) (ix2 p q) = V c main_v8_0 (ix2 P Q) := by
  unfold iblk2
  rw [View.read_apply]
  show V c main_v8_0 _ = V c main_v8_0 _
  refine congrArg (V c main_v8_0) ?_
  funext a; apply Fin.ext
  obtain ⟨-, -, -, -, e0, e1, -⟩ := idx2 t
  match a with
  | ⟨0, _⟩ => show win2_2.index t (0 : Fin 2) * 1024 + 1 * p.val = P.val; rw [e0, hP]; omega
  | ⟨1, _⟩ => show win2_2.index t (1 : Fin 2) * 2048 + 1 * q.val = Q.val; rw [e1, hQ]; omega

/-- The bias block at point t, entry (0, q): column j·2048 + q of the one-row array. -/
theorem iblk3_at (c : Dev nD) (t : Fin cfg2.N) (q : Fin 2048) (Q : Fin 4096)
    (hQ : Q.val = t.val / 16 % 2 * 2048 + q.val) :
    (iblk2 V c 3 t : Vec F S1x2048 .f32) (ix2 0 q) = V c main_v6 (ix2 0 Q) := by
  unfold iblk2
  rw [View.read_apply]
  show V c main_v6 _ = V c main_v6 _
  refine congrArg (V c main_v6) ?_
  funext a; apply Fin.ext
  obtain ⟨-, -, -, -, -, -, e0, e1⟩ := idx2 t
  match a with
  | ⟨0, _⟩ => show win2_3.index t (0 : Fin 2) * 1 + 1 * 0 = 0; rw [e0]
  | ⟨1, _⟩ => show win2_3.index t (1 : Fin 2) * 2048 + 1 * q.val = Q.val; rw [e1, hQ]; omega

end Reads

end Cert.KernelIdeal.KVal
end
-- ==== Proof.KVal2Pieces.lean ====
/-
  The second matrix product's kernel body, case by case: what it leaves in the accumulator and in the output block,
  as the kernel's own arithmetic applied to the blocks it was given.

  In the first case of a tile the accumulator is cleared and the block product added to the cleared block; in the middle
  cases the block product is added to what the accumulator held; in the last case the same, and the output block receives
  the new accumulator plus the residual block plus the bias row.  Each is one whole-block store whose loads read whole
  blocks, so the stored payload is the block's contents afterwards.
-/
import proofs.«162219_j24446953848859_2_alg».proof.Proof.KI.R2
import Idealize.ShloMosaic.Lib.ValueIdx
import Idealize.ShloMosaic.Lib.Pipeline.Value
import Idealize.ShloMosaic.Lib.Tactic

set_option maxRecDepth 16384

noncomputable section

namespace Cert.KernelIdeal.KVal

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable {F : FTy → Type} [FloatOps F]

/-- The zero offsets of a whole-block rectangle, however spelt. -/
theorem hz2 : (![0, 0] : Fin 2 → Nat) = fun _ => 0 := funext fun a => by fin_cases a <;> rfl

/-- Middle case: the accumulator ends at the old accumulator plus the block product. -/
theorem sout_B (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : ¬cond2_1 i) (x0 : Vec F S1024x1024 .bf16) (x1 : Vec F S2048x1024 .bf16) (x2 : Vec F S1024x2048 .f32) (x3 : Vec F S1x2048 .f32) (xs0 : Vec F S1024x2048 .f32) :
    sout2_B_0 c i arg3 harg3 arg4 harg4 arg5 harg5 arg6 harg6 arg7 harg7 arg8 harg8 hc0 hc1 x0 x1 x2 x3 xs0 = k2_pay2 xs0 x0 x1 := by
  unfold sout2_B_0
  rw [View.read_writes_eq_canon _ _ _ (scover2_B_0 c i arg3 harg3 arg4 harg4 arg5 harg5 arg6 harg6 arg7 harg7 arg8 harg8 hc0 hc1 x0 x1 x2 x3 xs0)]
  unfold kernelRun2_B
  dsimp only
  rw [View.canon_unit_zero hz2]
  simp only [View.readAt_eq_ld, harg8.read_unread, harg3.read_unread, harg4.read_unread, harg5.read_unread, harg6.read_unread, View.ld_unit_zero (S := S1024x2048) hz2, View.ld_unit_zero (S := S1024x1024) hz2, View.ld_unit_zero (S := S2048x1024) hz2, View.ld_unit_zero (S := S1x2048) hz2]

/-- First case: the accumulator is cleared, read back, and ends at the cleared block plus the block product. -/
theorem sout_A (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : cond2_0 i) (hc1 : ¬cond2_1 i) (x0 : Vec F S1024x1024 .bf16) (x1 : Vec F S2048x1024 .bf16) (x2 : Vec F S1024x2048 .f32) (x3 : Vec F S1x2048 .f32) :
    sout2_A_0 c i arg3 harg3 arg4 harg4 arg5 harg5 arg6 harg6 arg7 harg7 arg8 harg8 hc0 hc1 x0 x1 x2 x3 = k2_pay2 (k2_pay1 (F := F)) x0 x1 := by
  unfold sout2_A_0
  rw [View.read_writes_eq_canon _ _ _ (scover2_A_0 c i arg3 harg3 arg4 harg4 arg5 harg5 arg6 harg6 arg7 harg7 arg8 harg8 hc0 hc1 x0 x1 x2 x3)]
  unfold kernelRun2_A
  dsimp only
  sl_unfold_words
  rw [View.canon_cons_unit_zero (S := S1024x2048) hz2, View.readCov_unit_zero (S := S1024x2048) _ hz2]
  simp only [View.readAt_eq_ld, harg8.read_unread, harg3.read_unread, harg4.read_unread, harg5.read_unread, harg6.read_unread, View.ld_unit_zero (S := S1024x2048) hz2, View.ld_unit_zero (S := S1024x1024) hz2, View.ld_unit_zero (S := S2048x1024) hz2, View.ld_unit_zero (S := S1x2048) hz2]

/-- Last case: the accumulator ends as in the middle case. -/
theorem sout_C (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : cond2_1 i) (x0 : Vec F S1024x1024 .bf16) (x1 : Vec F S2048x1024 .bf16) (x2 : Vec F S1024x2048 .f32) (x3 : Vec F S1x2048 .f32) (xs0 : Vec F S1024x2048 .f32) :
    sout2_C_0 c i arg3 harg3 arg4 harg4 arg5 harg5 arg6 harg6 arg7 harg7 arg8 harg8 hc0 hc1 x0 x1 x2 x3 xs0 = k2_pay2 xs0 x0 x1 := by
  unfold sout2_C_0
  rw [View.read_writes_eq_canon _ _ _ (scover2_C_0 c i arg3 harg3 arg4 harg4 arg5 harg5 arg6 harg6 arg7 harg7 arg8 harg8 hc0 hc1 x0 x1 x2 x3 xs0)]
  unfold kernelRun2_C
  dsimp only
  sl_unfold_words
  rw [View.canon_unit_zero (S := S1024x2048) hz2]
  simp only [View.readAt_eq_ld, harg8.read_unread, harg3.read_unread, harg4.read_unread, harg5.read_unread, harg6.read_unread, View.ld_unit_zero (S := S1024x2048) hz2, View.ld_unit_zero (S := S1024x1024) hz2, View.ld_unit_zero (S := S2048x1024) hz2, View.ld_unit_zero (S := S1x2048) hz2]

/-- Last case: the output block is the new accumulator plus the residual block plus the bias row. -/
theorem out_C (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : cond2_1 i) (x0 : Vec F S1024x1024 .bf16) (x1 : Vec F S2048x1024 .bf16) (x2 : Vec F S1024x2048 .f32) (x3 : Vec F S1x2048 .f32) (xs0 : Vec F S1024x2048 .f32) :
    out2_C_4 c i arg3 harg3 arg4 harg4 arg5 harg5 arg6 harg6 arg7 harg7 arg8 harg8 hc0 hc1 x0 x1 x2 x3 xs0 = k2_pay3 (k2_pay2 xs0 x0 x1) x2 x3 := by
  unfold out2_C_4
  rw [View.read_writes_eq_canon _ _ _ (cover2_C_4 c i arg3 harg3 arg4 harg4 arg5 harg5 arg6 harg6 arg7 harg7 arg8 harg8 hc0 hc1 x0 x1 x2 x3 xs0)]
  unfold kernelRun2_C
  dsimp only
  sl_unfold_words
  rw [View.canon_unit_zero (S := S1024x2048) hz2, View.readCov_unit_zero (S := S1024x2048) _ hz2]
  simp only [View.readAt_eq_ld, harg8.read_unread, harg3.read_unread, harg4.read_unread, harg5.read_unread, harg6.read_unread, View.ld_unit_zero (S := S1024x2048) hz2, View.ld_unit_zero (S := S1024x1024) hz2, View.ld_unit_zero (S := S2048x1024) hz2, View.ld_unit_zero (S := S1x2048) hz2]

end Cert.KernelIdeal.KVal
end
-- ==== Proof.KPay2.lean ====
/-
  The second product's kernel, read at one entry (p, q) of its 1024 × 2048 tile, on the extended reals.

  The kernel does three things to the tile's accumulator: it clears it (the zero word is the real 0), it adds
  to it one block of the contraction, Σ_k a(p,k) · b(q,k) over 1024 terms (the right factor is stored
  transposed, so both factors are read along their rows), and at the end it adds the residual entry and the
  bias entry of column q.
-/
import proofs.«162219_j24446953848859_2_alg».proof.Proof.Gen.KernelIdeal.Skeleton
import proofs.«162219_j24446953848859_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KPay

open Idealize.ShloMosaic Idealize.ShloMosaic.ValueIdx Cert.KernelIdeal Cert.KernelIdeal.Gen

/-- The cleared accumulator is 0 at every entry. -/
theorem pay2_zero (p : Fin 1024) (q : Fin 2048) : k2_pay1 (F := Ideal) (ix2 p q) = 0 := by
  unfold k2_pay1
  refine (congrFun (shapeCast_self _ _) (ix2 p q)).trans ?_
  exact Ideal.ofBits_zero_f32

/-- The emitted entry: accumulator plus residual, plus the bias of the column. -/
theorem pay2_emit (v16 v17 : Vec Ideal S1024x2048 .f32) (v20 : Vec Ideal S1x2048 .f32) (p : Fin 1024) (q : Fin 2048) :
    k2_pay3 (F := Ideal) v16 v17 v20 (ix2 p q) = (v16 (ix2 p q) + v17 (ix2 p q)) + v20 (ix2 0 q) := by
  unfold k2_pay3
  refine (addf_apply _ _ (ix2 p q)).trans ?_
  refine congrArg₂ (· + ·) ?_ ?_
  · refine (addf_apply _ _ (ix2 p q)).trans ?_
    exact congrArg (v16 (ix2 p q) + ·) (congrFun (shapeCast_self v17 _) (ix2 p q))
  · refine (broadcastTo_1b_ab_apply _ _ p q).trans ?_
    exact congrFun (shapeCast_self v20 _) (ix2 0 q)

/-- A product against a transposed right factor, accumulated into zero, read at (p, q): the sum over the
    contracted coordinate of the two rows' products. -/
theorem matmul2_apply (a : FVec Ideal S1024x1024 .bf16) (b : FVec Ideal S2048x1024 .bf16) (p : Fin 1024) (q : Fin 2048) :
    matmul dot_S1024x1024_S2048x1024_S1024x2048_1_1_0_0_n_n none a b (constant S1024x2048 .f32 0x00000000#32) (ix2 p q)
      = ∑ k : Fin 1024, a (ix2 p k) * b (ix2 q k) := by
  refine (Ideal.matmul_constant_zero_apply dot_S1024x1024_S2048x1024_S1024x2048_1_1_0_0_n_n none a b (ix2 p q)).trans ?_
  rw [← Equiv.sum_comp (contrEquiv1 dot_S1024x1024_S2048x1024_S1024x2048_1_1_0_0_n_n 1024 rfl rfl).symm]
  refine Finset.sum_congr rfl fun c _ => ?_
  have c2 := contrEquiv1_symm_val dot_S1024x1024_S2048x1024_S1024x2048_1_1_0_0_n_n 1024 rfl rfl c
  have l : dot_S1024x1024_S2048x1024_S1024x2048_1_1_0_0_n_n.lhsIdx (ix2 p q)
      ((contrEquiv1 dot_S1024x1024_S2048x1024_S1024x2048_1_1_0_0_n_n 1024 rfl rfl).symm c) = ix2 p c := by
    funext ax; apply Fin.ext
    match ax with
    | ⟨0, _⟩ => rfl
    | ⟨1, _⟩ => exact (DotDims.lhsIdx_val_of_single _ rfl _ _).trans c2
  have r : dot_S1024x1024_S2048x1024_S1024x2048_1_1_0_0_n_n.rhsIdx (ix2 p q)
      ((contrEquiv1 dot_S1024x1024_S2048x1024_S1024x2048_1_1_0_0_n_n 1024 rfl rfl).symm c) = ix2 q c := by
    funext ax; apply Fin.ext
    match ax with
    | ⟨0, _⟩ => rfl
    | ⟨1, _⟩ => exact (DotDims.rhsIdx_val_of_single _ rfl _ _).trans c2
  rw [l, r]

/-- One block of the contraction added to the accumulator. -/
theorem pay2_acc (v3 : Vec Ideal S1024x2048 .f32) (v4 : Vec Ideal S1024x1024 .bf16) (v6 : Vec Ideal S2048x1024 .bf16)
    (p : Fin 1024) (q : Fin 2048) :
    k2_pay2 (F := Ideal) v3 v4 v6 (ix2 p q) = v3 (ix2 p q) + ∑ k : Fin 1024, v4 (ix2 p k) * v6 (ix2 q k) := by
  unfold k2_pay2
  refine (congrFun (shapeCast_self _ _) (ix2 p q)).trans ?_
  refine (addf_apply _ _ (ix2 p q)).trans ?_
  refine congrArg (v3 (ix2 p q) + ·) ?_
  refine (matmul2_apply _ _ p q).trans ?_
  refine Finset.sum_congr rfl fun k _ => ?_
  exact congrArg₂ (· * ·) (congrFun (shapeCast_self v4 _) (ix2 p k)) (congrFun (shapeCast_self v6 _) (ix2 q k))

end Cert.KernelIdeal.KPay

end
-- ==== Proof.SumSplit.lean ====
/-
  A sum over 16384 terms read in 16 consecutive blocks of 1024: term kb · 1024 + kk is the kk-th of block kb.
-/
import proofs.«162219_j24446953848859_2_alg».proof.Proof.Spec

namespace Cert.MlpSpec

/-- The sum over the blocks of the sums inside each block is the whole sum. -/
theorem sum_blocks (f : Fin 16384 → EReal) :
    (∑ kb : Fin 16, ∑ kk : Fin 1024, f ⟨kb.val * 1024 + kk.val, by omega⟩) = ∑ i : Fin 16384, f i := by
  rw [← Fintype.sum_prod_type' (f := fun (kb : Fin 16) (kk : Fin 1024) => f ⟨kb.val * 1024 + kk.val, by omega⟩)]
  refine Fintype.sum_equiv ((finProdFinEquiv (m := 16) (n := 1024)).trans (finCongr (by norm_num))) _ _ fun x => ?_
  refine congrArg f (Fin.ext ?_)
  show x.1.val * 1024 + x.2.val = x.2.val + 1024 * x.1.val
  omega

end Cert.MlpSpec
-- ==== Proof.KVal2Step.lean ====
/-
  One grid point of the second matrix product at one entry (p, q) of its 1024 × 2048 tile, on the extended reals:
  the first point of a tile leaves the block product Σ_k a(p,k)·b(q,k), every later point adds its block product to the
  entry, and the last point also emits entry + residual + bias.  Sixteen block sums of 1024 terms make the whole
  contraction of 16384 terms.
-/
import proofs.«162219_j24446953848859_2_alg».proof.Proof.KVal2Pieces
import proofs.«162219_j24446953848859_2_alg».proof.Proof.KPay2
import proofs.«162219_j24446953848859_2_alg».proof.Proof.SumSplit
import Idealize.ShloMosaic.Lib.ValueIdx
import Idealize.ShloMosaic.Lib.Pipeline.Value
import Idealize.ShloMosaic.Lib.Tactic

set_option maxRecDepth 16384

noncomputable section

namespace Cert.KernelIdeal.KVal

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

open Cert.KernelIdeal.KPay

/-! ## One point's step, read at an entry of the tile, on the extended reals -/

/-- First case: the entry is the block product alone (the cleared accumulator contributes the real 0). -/
theorem stepA (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : cond2_0 i) (hc1 : ¬cond2_1 i) (x0 : Vec Ideal S1024x1024 .bf16) (x1 : Vec Ideal S2048x1024 .bf16) (x2 : Vec Ideal S1024x2048 .f32) (x3 : Vec Ideal S1x2048 .f32) (p : Fin 1024) (q : Fin 2048) :
    sout2_A_0 (F := Ideal) c i arg3 harg3 arg4 harg4 arg5 harg5 arg6 harg6 arg7 harg7 arg8 harg8 hc0 hc1 x0 x1 x2 x3 (ix2 p q) = ∑ k : Fin 1024, x0 (ix2 p k) * x1 (ix2 q k) := by
  refine (congrFun (sout_A (F := Ideal) c i arg3 harg3 arg4 harg4 arg5 harg5 arg6 harg6 arg7 harg7 arg8 harg8 hc0 hc1 x0 x1 x2 x3) (ix2 p q)).trans ?_
  refine (pay2_acc _ x0 x1 p q).trans ?_
  refine (congrArg (· + ∑ k : Fin 1024, x0 (ix2 p k) * x1 (ix2 q k)) (pay2_zero p q)).trans ?_
  exact zero_add _

/-- Middle case: the entry grows by the block product. -/
theorem stepB (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : ¬cond2_1 i) (x0 : Vec Ideal S1024x1024 .bf16) (x1 : Vec Ideal S2048x1024 .bf16) (x2 : Vec Ideal S1024x2048 .f32) (x3 : Vec Ideal S1x2048 .f32) (xs0 : Vec Ideal S1024x2048 .f32) (p : Fin 1024) (q : Fin 2048) :
    sout2_B_0 (F := Ideal) c i arg3 harg3 arg4 harg4 arg5 harg5 arg6 harg6 arg7 harg7 arg8 harg8 hc0 hc1 x0 x1 x2 x3 xs0 (ix2 p q) = xs0 (ix2 p q) + ∑ k : Fin 1024, x0 (ix2 p k) * x1 (ix2 q k) :=
  (congrFun (sout_B (F := Ideal) c i arg3 harg3 arg4 harg4 arg5 harg5 arg6 harg6 arg7 harg7 arg8 harg8 hc0 hc1 x0 x1 x2 x3 xs0) (ix2 p q)).trans (pay2_acc xs0 x0 x1 p q)

/-- Last case, the accumulator: as in the middle case. -/
theorem stepC (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : cond2_1 i) (x0 : Vec Ideal S1024x1024 .bf16) (x1 : Vec Ideal S2048x1024 .bf16) (x2 : Vec Ideal S1024x2048 .f32) (x3 : Vec Ideal S1x2048 .f32) (xs0 : Vec Ideal S1024x2048 .f32) (p : Fin 1024) (q : Fin 2048) :
    sout2_C_0 (F := Ideal) c i arg3 harg3 arg4 harg4 arg5 harg5 arg6 harg6 arg7 harg7 arg8 harg8 hc0 hc1 x0 x1 x2 x3 xs0 (ix2 p q) = xs0 (ix2 p q) + ∑ k : Fin 1024, x0 (ix2 p k) * x1 (ix2 q k) :=
  (congrFun (sout_C (F := Ideal) c i arg3 harg3 arg4 harg4 arg5 harg5 arg6 harg6 arg7 harg7 arg8 harg8 hc0 hc1 x0 x1 x2 x3 xs0) (ix2 p q)).trans (pay2_acc xs0 x0 x1 p q)

/-- Last case, the output block: the new accumulator entry plus the residual entry plus the column's bias. -/
theorem stepC_out (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond2_0 i) (hc1 : cond2_1 i) (x0 : Vec Ideal S1024x1024 .bf16) (x1 : Vec Ideal S2048x1024 .bf16) (x2 : Vec Ideal S1024x2048 .f32) (x3 : Vec Ideal S1x2048 .f32) (xs0 : Vec Ideal S1024x2048 .f32) (p : Fin 1024) (q : Fin 2048) :
    out2_C_4 (F := Ideal) c i arg3 harg3 arg4 harg4 arg5 harg5 arg6 harg6 arg7 harg7 arg8 harg8 hc0 hc1 x0 x1 x2 x3 xs0 (ix2 p q)
      = ((xs0 (ix2 p q) + ∑ k : Fin 1024, x0 (ix2 p k) * x1 (ix2 q k)) + x2 (ix2 p q)) + x3 (ix2 0 q) := by
  refine (congrFun (out_C (F := Ideal) c i arg3 harg3 arg4 harg4 arg5 harg5 arg6 harg6 arg7 harg7 arg8 harg8 hc0 hc1 x0 x1 x2 x3 xs0) (ix2 p q)).trans ?_
  refine (pay2_emit _ x2 x3 p q).trans ?_
  exact congrArg (fun z => (z + x2 (ix2 p q)) + x3 (ix2 0 q)) (pay2_acc xs0 x0 x1 p q)

/-! ## The accumulator across the sixteen points of a tile -/

/-- Contraction block kb of row P of the activation against row Q of the weight (0 past the sixteen blocks). -/
def bsum (A W : S4096x16384.Idx → EReal) (P Q : Fin 4096) (kb : ℕ) : EReal :=
  if h : kb < 16 then ∑ kk : Fin 1024, A (ix2 P ⟨kb * 1024 + kk.val, by omega⟩) * W (ix2 Q ⟨kb * 1024 + kk.val, by omega⟩) else 0

/-- The sixteen blocks together are the whole contraction. -/
theorem bsum_all (A W : S4096x16384.Idx → EReal) (P Q : Fin 4096) :
    ∑ kb ∈ Finset.range 16, bsum A W P Q kb = ∑ i : Fin 16384, A (ix2 P i) * W (ix2 Q i) := by
  rw [← Fin.sum_univ_eq_sum_range (fun kb => bsum A W P Q kb) 16]
  refine (Finset.sum_congr rfl fun kb _ => ?_).trans (Cert.MlpSpec.sum_blocks (fun i => A (ix2 P i) * W (ix2 Q i)))
  exact dif_pos kb.isLt

end Cert.KernelIdeal.KVal
end
-- ==== Proof.KVal2Acc.lean ====
/-
  The second matrix product's accumulator across the sixteen grid points of one output tile, on the extended reals.

  Point t = (i, j, k) multiplies block (i, k) of the activation with block (j, k) of the weight (stored transposed, so
  both are read along rows) and adds the product to a 1024 × 2048 accumulator that the first point of the tile starts
  from zero.  By induction on the point, after point (i, j, k) the accumulator's entry (p, q) is the sum of contraction
  blocks 0 … k of row i·1024 + p against row j·2048 + q; at k = 15 that is the whole contraction over 16384 terms, and the
  output block receives it plus the residual entry plus the column's bias.
-/
import proofs.«162219_j24446953848859_2_alg».proof.Proof.KVal2Reads
import proofs.«162219_j24446953848859_2_alg».proof.Proof.KVal2Step
import proofs.«162219_j24446953848859_2_alg».proof.Proof.SpecArr
import Idealize.ShloMosaic.Lib.ValueIdx
import Idealize.ShloMosaic.Lib.Pipeline.Value
import Idealize.ShloMosaic.Lib.Tactic

set_option maxRecDepth 16384

noncomputable section

namespace Cert.KernelIdeal.KVal

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

section Acc
variable (V : (c : Dev nD) → (b : Ref sig .tc) → Buf (Elt Ideal) ((c : Thread nD τ).loc b))

/-- The block product of point t's two blocks at entry (p, q) is contraction block t % 16 of the arrays' rows. -/
theorem blk_prod (c : Dev nD) (t : Fin cfg2.N) (p : Fin 1024) (q : Fin 2048) (P Q : Fin 4096)
    (hP : P.val = t.val / 32 * 1024 + p.val) (hQ : Q.val = t.val / 16 % 2 * 2048 + q.val)
    (x0 : Vec Ideal S1024x1024 .bf16) (x1 : Vec Ideal S2048x1024 .bf16) (e0 : x0 = iblk2 V c 0 t) (e1 : x1 = iblk2 V c 1 t) :
    (∑ k : Fin 1024, x0 (ix2 p k) * x1 (ix2 q k)) = bsum (V c main_v9) (V c main_v7) P Q (t.val % 16) := by
  have hk : t.val % 16 < 16 := Nat.mod_lt _ (by norm_num)
  unfold bsum
  rw [dif_pos hk]
  refine Finset.sum_congr rfl fun k _ => ?_
  refine congrArg₂ (· * ·) ?_ ?_
  · exact (congrFun e0 (ix2 p k)).trans (iblk0_at V c t p k P ⟨t.val % 16 * 1024 + k.val, by omega⟩ hP rfl)
  · exact (congrFun e1 (ix2 q k)).trans (iblk1_at V c t q k Q ⟨t.val % 16 * 1024 + k.val, by omega⟩ hQ rfl)

/-- THE INVARIANT: after point t = (i, j, k) the accumulator's entry (p, q) is the sum of the contraction blocks 0 … k of
    row i·1024 + p of the activation against row j·2048 + q of the weight. -/
theorem acc_inv (c : Dev nD) : ∀ (n : ℕ) (t : Fin cfg2.N), t.val = n → ∀ (p : Fin 1024) (q : Fin 2048) (P Q : Fin 4096),
    P.val = t.val / 32 * 1024 + p.val → Q.val = t.val / 16 % 2 * 2048 + q.val →
    ((outsAt2 (F := Ideal) V c t.val t.isLt).2 : S1024x2048.Idx → EReal) (ix2 p q)
      = ∑ kb ∈ Finset.range (t.val % 16 + 1), bsum (V c main_v9) (V c main_v7) P Q kb := by
  intro n
  induction n using Nat.strong_induction_on with
  | _ n ih =>
    intro t htn p q P Q hP hQ
    have hN : t.val < 128 := lt_of_lt_of_eq t.isLt (show cfg2.N = 128 from N_2)
    have hb := blk_prod V c t p q P Q hP hQ _ _ rfl rfl
    by_cases h0 : t.val % 16 = 0
    · have h1 : ¬t.val % 16 = 15 := by omega
      have e1 := stepA c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t) p q
      rw [outsAt2_A V c t h0 h1]; dsimp only
      refine e1.trans (hb.trans ?_)
      rw [h0, Finset.sum_range_one]
    · have hk : (t.val - 1) % 16 + 1 = t.val % 16 := by omega
      have hprev := ih (t.val - 1) (by omega) ⟨t.val - 1, Nat.lt_of_le_of_lt (Nat.sub_le _ _) t.isLt⟩ rfl p q P Q
        (by dsimp only; omega) (by dsimp only; omega)
      dsimp only at hprev
      rw [hk] at hprev
      by_cases h1 : t.val % 16 = 15
      · have e1 := stepC c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2 p q
        rw [outsAt2_C V c t h0 h1]; dsimp only
        refine e1.trans ?_
        refine (congrArg₂ (· + ·) hprev hb).trans ?_
        exact (Finset.sum_range_succ _ _).symm
      · have e1 := stepB c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2 p q
        rw [outsAt2_B V c t h0 h1]; dsimp only
        refine e1.trans ?_
        refine (congrArg₂ (· + ·) hprev hb).trans ?_
        exact (Finset.sum_range_succ _ _).symm

/-- THE LAST POINT OF A TILE: the output block's entry (p, q) after point t = (i, j, 15) is the whole contraction of row
    P = i·1024 + p of the activation against row Q = j·2048 + q of the weight, plus the residual entry (P, Q), plus the
    bias of column Q: fifteen earlier block sums in the accumulator, the sixteenth added at this point. -/
theorem out_at_last (c : Dev nD) (t : Fin cfg2.N) (h15 : t.val % 16 = 15) (p : Fin 1024) (q : Fin 2048) (P : Fin 4096) (Q : Fin 4096)
    (hP : P.val = t.val / 32 * 1024 + p.val) (hQ : Q.val = t.val / 16 % 2 * 2048 + q.val) :
    ((outsAt2 (F := Ideal) V c t.val t.isLt).1 : S1024x2048.Idx → EReal) (ix2 p q)
      = Cert.MlpSpec.arrOut (V c main_v9) (V c main_v7) (V c main_v8_0) (V c main_v6) P Q := by
  have hN : t.val < 128 := lt_of_lt_of_eq t.isLt (show cfg2.N = 128 from N_2)
  have h0 : ¬t.val % 16 = 0 := by omega
  have hb := blk_prod V c t p q P Q hP hQ _ _ rfl rfl
  have hk : (t.val - 1) % 16 + 1 = 15 := by omega
  have hprev := acc_inv V c (t.val - 1) ⟨t.val - 1, Nat.lt_of_le_of_lt (Nat.sub_le _ _) t.isLt⟩ rfl p q P Q
    (by dsimp only; omega) (by dsimp only; omega)
  dsimp only at hprev
  rw [hk] at hprev
  have e1 := stepC_out c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h15) (iblk2 V c 0 t) (iblk2 V c 1 t) (iblk2 V c 2 t) (iblk2 V c 3 t) (outsAt2 V c (t.val - 1) (Nat.lt_of_le_of_lt (Nat.sub_le _ _) t.isLt)).2 p q
  rw [outsAt2_C V c t h0 h15]; dsimp only
  refine e1.trans ?_
  unfold Cert.MlpSpec.arrOut
  refine congrArg₂ (· + ·) (congrArg₂ (· + ·) ?_ (iblk2_at V c t p q P Q hP hQ)) (iblk3_at V c t q Q hQ)
  refine (congrArg₂ (· + ·) hprev hb).trans ?_
  have h16 : ∑ kb ∈ Finset.range 15, bsum (V c main_v9) (V c main_v7) P Q kb + bsum (V c main_v9) (V c main_v7) P Q (t.val % 16)
      = ∑ kb ∈ Finset.range 16, bsum (V c main_v9) (V c main_v7) P Q kb := by
    rw [h15]; exact (Finset.sum_range_succ _ 15).symm
  exact h16.trans (bsum_all _ _ P Q)

end Acc

end Cert.KernelIdeal.KVal
end
-- ==== Proof.KVal2.lean ====
/-
  The second matrix product's output array after the region: every entry (p, h) is the whole contraction of row p of
  the activation with row h of the weight, plus the residual entry, plus the bias entry.

  The output window is written back only at the last point of each accumulation (k = 15); there its buffer holds,
  entry by entry, exactly that function of the absolute row and column.  The sixteen blocks written back tile the
  4096×4096 array, so the array ends holding the function everywhere.
-/
import proofs.«162219_j24446953848859_2_alg».proof.Proof.KVal2Acc
import proofs.«162219_j24446953848859_2_alg».proof.Proof.SpecArr
import Idealize.ShloMosaic.Lib.Pipeline.Value
import Idealize.ShloMosaic.Lib.ValueIdx

set_option maxRecDepth 16384

noncomputable section

namespace Cert.KernelIdeal.KVal

open Idealize.ShloMosaic Idealize.ShloMosaic.ValueIdx Cert.KernelIdeal Cert.KernelIdeal.Gen Idealize.ShloMosaic.TcCoe
open Idealize.ShloMosaic.Pipeline (Dat)

/-- The output array as one function of its index: the whole contraction at row (j 0) and column (j 1), plus the
    residual entry, plus the bias row's entry. -/
def outG (V : (c : Dev nD) → (b : Ref sig .tc) → Buf (Elt Ideal) ((c : Thread nD τ).loc b)) (c : Dev nD) :
    S4096x4096.Idx → EReal := fun j =>
  Cert.MlpSpec.arrOut (V c main_v9) (V c main_v7) (V c main_v8_0) (V c main_v6) (j 0) (j 1)

/-- The output window's block index at point t = (i, j, k) is (i, j) = (t / 32, t / 16 % 2): decided over the grid. -/
theorem idx_out : ∀ t : Fin cfg2.N, win2_4.index t (0 : Fin 2) = t.val / 32 ∧ win2_4.index t (1 : Fin 2) = t.val / 16 % 2 :=
  (by decide +kernel : ∀ t : Fin grid2.N, win2_4.index t (0 : Fin 2) = t.val / 32 ∧ win2_4.index t (1 : Fin 2) = t.val / 16 % 2)

/-- What a flushing point writes back is its block of the one function of the array index. -/
theorem flushed_out (V : (c : Dev nD) → (b : Ref sig .tc) → Buf (Elt Ideal) ((c : Thread nD τ).loc b)) (c : Dev nD)
    (t : Fin cfg2.N) (hf : (cfg2.win 4).flush t = true) :
    (dat2 (F := Ideal) V c).flushed 4 t = ((cfg2.win 4).blk t).view.read (Elt Ideal) (outG V c) := by
  have h15 : t.val % 16 = 15 := (flush2_4 t).mp hf
  obtain ⟨e0, e1⟩ := idx_out t
  show (cfg2.win 4).cut (grid2.coords t) ((dat2 (F := Ideal) V c).after 4 t) = _
  rw [after2_4]
  funext y
  have hy0 : (y 0).val < 1024 := (y 0).isLt
  have hy1 : (y 1).val < 2048 := (y 1).isLt
  have hN : t.val < 128 := lt_of_lt_of_eq t.isLt (show cfg2.N = 128 from N_2)
  have hx : (cfg2.win 4).xinj (grid2.coords t) y = ix2 (⟨(y 0).val, hy0⟩ : Fin 1024) (⟨(y 1).val, hy1⟩ : Fin 2048) :=
    funext fun a => Fin.ext (by match a with | ⟨0, _⟩ => rfl | ⟨1, _⟩ => rfl)
  show ((outsAt2 (F := Ideal) V c t.val t.isLt).1 : S1024x2048.Idx → EReal) ((cfg2.win 4).xinj (grid2.coords t) y) = _
  rw [hx]
  have hP : ((((cfg2.win 4).blk t).view.emb y) 0 : Fin 4096).val = t.val / 32 * 1024 + (y 0).val := by
    show win2_4.index t (0 : Fin 2) * 1024 + 1 * (y 0).val = _
    rw [e0]; omega
  have hQ : ((((cfg2.win 4).blk t).view.emb y) 1 : Fin 4096).val = t.val / 16 % 2 * 2048 + (y 1).val := by
    show win2_4.index t (1 : Fin 2) * 2048 + 1 * (y 1).val = _
    rw [e1]; omega
  refine (out_at_last V c t h15 ⟨(y 0).val, hy0⟩ ⟨(y 1).val, hy1⟩ _ _ hP hQ).trans ?_
  rfl

/-- An index of the array is in point t's block iff each coordinate is in the block's range on its axis. -/
theorem mem_blk_out (t : Fin cfg2.N) (i : S4096x4096.Idx) :
    i ∈ ((cfg2.win 4).blk t).view.set ↔ ∀ a : Fin 2, win2_4.index t a * S1024x2048.size a ≤ (i a).val ∧ (i a).val < win2_4.index t a * S1024x2048.size a + S1024x2048.size a := by
  show i ∈ ((View.whole main_v10).slice (win2_4.rect t)).set ↔ _
  rw [View.set_slice_whole, Rect.mem_set_unit]
  exact Iff.rfl

/-- Every entry of the array lies in the block of a flushing point: entry (p, h) in that of the last point of
    tile (p / 1024, h / 2048). -/
theorem cover_out (i : S4096x4096.Idx) : ∃ t : Fin cfg2.N, (cfg2.win 4).flush t = true ∧ i ∈ ((cfg2.win 4).blk t).view.set := by
  have hi0 : (i 0).val < 4096 := (i 0).isLt
  have hi1 : (i 1).val < 4096 := (i 1).isLt
  have hN : cfg2.N = 128 := N_2
  let t : Fin cfg2.N := ⟨(i 0).val / 1024 * 32 + (i 1).val / 2048 * 16 + 15, by rw [hN]; omega⟩
  have ht : t.val = (i 0).val / 1024 * 32 + (i 1).val / 2048 * 16 + 15 := rfl
  obtain ⟨e0, e1⟩ := idx_out t
  refine ⟨t, (flush2_4 t).mpr (by rw [ht]; omega), ?_⟩
  rw [mem_blk_out]
  intro a
  match a with
  | ⟨0, _⟩ =>
    show win2_4.index t (0 : Fin 2) * 1024 ≤ (i 0).val ∧ (i 0).val < win2_4.index t (0 : Fin 2) * 1024 + 1024
    rw [e0, ht]; omega
  | ⟨1, _⟩ =>
    show win2_4.index t (1 : Fin 2) * 2048 ≤ (i 1).val ∧ (i 1).val < win2_4.index t (1 : Fin 2) * 2048 + 2048
    rw [e1, ht]; omega

/-- The array after the region is the one function everywhere. -/
theorem final_out (V : (c : Dev nD) → (b : Ref sig .tc) → Buf (Elt Ideal) ((c : Thread nD τ).loc b)) (c : Dev nD) :
    (dat2 (F := Ideal) V c).arrAt 4 cfg2.N = outG V c :=
  (dat2 (F := Ideal) V c).arrAt_eq_of_cover 4 (outG V c) (fun t hf => flushed_out V c t hf) cover_out

/-- Entry (p, h) of the output array after the region: the whole contraction of row p of the activation with row h of
    the weight, plus the residual entry, plus the bias entry. -/
theorem final2 (V : (c : Dev nD) → (b : Ref sig .tc) → Buf (Elt Ideal) ((c : Thread nD τ).loc b)) (c : Dev nD) (p h : Fin 4096) :
    (dat2 (F := Ideal) V c).arrAt 4 cfg2.N (ix2 p h) = Cert.MlpSpec.arrOut (V c main_v9) (V c main_v7) (V c main_v8_0) (V c main_v6) p h := by
  rw [final_out]
  rfl

end Cert.KernelIdeal.KVal

end
-- ==== Proof.KI.Value.lean ====
/-
  The idealised kernel program's run with its result named: every weakly fair execution terminates with the result array at
  the specification's function of the nine argument arrays, and the arguments unchanged.
-/
import proofs.«162219_j24446953848859_2_alg».proof.Proof.KI.ValueOf
import proofs.«162219_j24446953848859_2_alg».proof.Proof.KVal0
import proofs.«162219_j24446953848859_2_alg».proof.Proof.KVal1
import proofs.«162219_j24446953848859_2_alg».proof.Proof.KVal2

set_option maxRecDepth 16384

noncomputable section

namespace Cert.KernelIdeal.KVal

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The last fold at the result buffer is the specification's function of the launch contents of the arguments. -/
theorem result_eq (c : Dev nD) :
    (W5 m ρ c (Proc.devRef .tc main_v11) : S2x2048x4096.Idx → EReal)
      = Cert.MlpSpec.out3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  result_eq_of m ρ (fun V c p h => final0_ra V c p h) (fun V c p h => final0_ln V c p h) (fun V c p i => final1 V c p i)
    (fun V c p h => final2 V c p h) c

theorem run : θ_run (defs (F := Ideal)) (onTc (τ := τ) (main (F := Ideal))) ⟨m, fun _ => 0, ρ⟩ (fun r => ∀ c : Dev nD,
      r.2.mem ((c.tc : Thread nD τ).loc main_v11) = Cert.MlpSpec.out3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_v11 (by decide))).trans (result_eq m ρ c),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c)⟩) (run_all m ρ)

end Cert.KernelIdeal.KVal

end
-- ==== Proof.RefRun.lean ====
/-
  The reference program's @main as one straight line of host operations.

  @main calls the variance function once, and that function calls the selection function once: both are
  listed here in place, over the buffers the call's record names, so the whole program is a list of 74
  operations.  Its run then ends with every buffer at the fold of the operations' results over the launch
  contents.
-/
import proofs.«162219_j24446953848859_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order: eleven of its own (the residual sum, its row sum and mean, the integer
    zero), the variance function's twenty (row sum, mean, centred square, its row sum, the normaliser
    4096 − float 0, the quotient, the comparison, the not-a-number word) with the selection function's
    three at its end (the word converted, broadcast, the select), then @main's remaining forty. -/
abbrev ops : List (HloOp τ sig (Elt F)) :=
  [ binary main_arg0 main_arg1 main_v0 (addf : (⟨S2x2048x4096, .f32⟩ : BufTy).Contents (Elt F) → (⟨S2x2048x4096, .f32⟩ : BufTy).Contents (Elt F) → (⟨S2x2048x4096, .f32⟩ : BufTy).Contents (Elt F)),
    unary main_arg2 main_v1 (broadcastInDim S1x1x4096 ![2] bcast_S4096_S1x1x4096_2 : (⟨S4096, .f32⟩ : BufTy).Contents (Elt F) → (⟨S1x1x4096, .f32⟩ : BufTy).Contents (Elt F)),
    unary main_v1 main_v2 (broadcastInDim S2x2048x4096 ![0, 1, 2] bcast_S1x1x4096_S2x2048x4096_0_1_2 : (⟨S1x1x4096, .f32⟩ : BufTy).Contents (Elt F) → (⟨S2x2048x4096, .f32⟩ : BufTy).Contents (Elt F)),
    binary main_v0 main_v2 main_v3 (addf : (⟨S2x2048x4096, .f32⟩ : BufTy).Contents (Elt F) → (⟨S2x2048x4096, .f32⟩ : BufTy).Contents (Elt F) → (⟨S2x2048x4096, .f32⟩ : BufTy).Contents (Elt F)),
    nullary main_cst (constant S_ .f32 0x00000000#32),
    binary main_v3 main_cst main_v4 ((fun x v => Host.reduceAdd x v reducesTo_S2x2048x4096_S2x2048_d2 h_S_) : (⟨S2x2048x4096, .f32⟩ : BufTy).Contents (Elt F) → (⟨S_, .f32⟩ : BufTy).Contents (Elt F) → (⟨S2x2048, .f32⟩ : BufTy).Contents (Elt F)),
    unary main_v4 main_v5 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_0 (constant S_ .f32 0x45800000#32),
    unary main_cst_0 main_v6 (broadcastInDim S2x2048x1 ![] bcast_S_S2x2048x1 : (⟨S_, .f32⟩ : BufTy).Contents (Elt F) → (⟨S2x2048x1, .f32⟩ : BufTy).Contents (Elt F)),
    binary main_v5 main_v6 main_v7 (Host.divf : (⟨S2x2048x1, .f32⟩ : BufTy).Contents (Elt F) → (⟨S2x2048x1, .f32⟩ : BufTy).Contents (Elt F) → (⟨S2x2048x1, .f32⟩ : BufTy).Contents (Elt F)),
    nullary main_c (constantI S_ 32 0#32),
    TRef.nullary main_call0.cst (constant S_ .f32 0x00000000#32),
    TRef.binary (.of main_v3) main_call0.cst main_call0.v0 (fun x v => Host.reduceAdd x v reducesTo_S2x2048x4096_S2x2048_d2 h_S_),
    TRef.unary main_call0.v0 main_call0.v1 (broadcastInDim S2x2048x1 ![0, 1] bcast_S2x2048_S2x2048x1_0_1),
    TRef.nullary main_call0.cst_0 (constant S_ .f32 0x45800000#32),
    TRef.unary main_call0.cst_0 main_call0.v2 (broadcastInDim S2x2048x1 ![] bcast_S_S2x2048x1),
    TRef.binary main_call0.v1 main_call0.v2 main_call0.v3 Host.divf,
    TRef.unary main_call0.v3 main_call0.v4 (broadcastInDim S2x2048x4096 ![0, 1, 2] bcast_S2x2048x1_S2x2048x4096_0_1_2),
    TRef.binary (.of main_v3) main_call0.v4 main_call0.v5 subf,
    TRef.binary main_call0.v5 main_call0.v5 main_call0.v6 mulf,
    TRef.unary (.of main_c) main_call0.v7 (sitofp .f32),
    TRef.nullary main_call0.cst_1 (constant S_ .f32 0x45800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S2x2048x4096_S2x2048_d2 h_S_),
    TRef.unary main_call0.v9 main_call0.v10 (broadcastInDim S2x2048x1 ![0, 1] bcast_S2x2048_S2x2048x1_0_1),
    TRef.unary main_call0.v8 main_call0.v11 (broadcastInDim S2x2048x1 ![] bcast_S_S2x2048x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S2x2048x1 ![] bcast_S_S2x2048x1),
    TRef.ternary main_call0.v13 main_call0.v12 main_call0.call0.v1 main_call0.call0.v2 (fun p a b => select (broadcastInDim S2x2048x1 ![] bcast_S_S2x2048x1 p) a b),
    unary main_v7 main_v9 (broadcastInDim S2x2048x4096 ![0, 1, 2] bcast_S2x2048x1_S2x2048x4096_0_1_2 : (⟨S2x2048x1, .f32⟩ : BufTy).Contents (Elt F) → (⟨S2x2048x4096, .f32⟩ : BufTy).Contents (Elt F)),
    binary main_v3 main_v9 main_v10 (subf : (⟨S2x2048x4096, .f32⟩ : BufTy).Contents (Elt F) → (⟨S2x2048x4096, .f32⟩ : BufTy).Contents (Elt F) → (⟨S2x2048x4096, .f32⟩ : BufTy).Contents (Elt F)),
    nullary main_cst_1 (constant S_ .f32 0x2B8CBCCC#32),
    unary main_cst_1 main_v11 (broadcastInDim S2x2048x1 ![] bcast_S_S2x2048x1 : (⟨S_, .f32⟩ : BufTy).Contents (Elt F) → (⟨S2x2048x1, .f32⟩ : BufTy).Contents (Elt F)),
    binary main_v8 main_v11 main_v12 (addf : (⟨S2x2048x1, .f32⟩ : BufTy).Contents (Elt F) → (⟨S2x2048x1, .f32⟩ : BufTy).Contents (Elt F) → (⟨S2x2048x1, .f32⟩ : BufTy).Contents (Elt F)),
    unary main_v12 main_v13 (Host.rsqrt : (⟨S2x2048x1, .f32⟩ : BufTy).Contents (Elt F) → (⟨S2x2048x1, .f32⟩ : BufTy).Contents (Elt F)),
    unary main_v13 main_v14 (broadcastInDim S2x2048x4096 ![0, 1, 2] bcast_S2x2048x1_S2x2048x4096_0_1_2 : (⟨S2x2048x1, .f32⟩ : BufTy).Contents (Elt F) → (⟨S2x2048x4096, .f32⟩ : BufTy).Contents (Elt F)),
    binary main_v10 main_v14 main_v15 (mulf : (⟨S2x2048x4096, .f32⟩ : BufTy).Contents (Elt F) → (⟨S2x2048x4096, .f32⟩ : BufTy).Contents (Elt F) → (⟨S2x2048x4096, .f32⟩ : BufTy).Contents (Elt F)),
    unary main_arg3 main_v16 (broadcastInDim S1x1x4096 ![2] bcast_S4096_S1x1x4096_2 : (⟨S4096, .f32⟩ : BufTy).Contents (Elt F) → (⟨S1x1x4096, .f32⟩ : BufTy).Contents (Elt F)),
    unary main_v16 main_v17 (broadcastInDim S2x2048x4096 ![0, 1, 2] bcast_S1x1x4096_S2x2048x4096_0_1_2 : (⟨S1x1x4096, .f32⟩ : BufTy).Contents (Elt F) → (⟨S2x2048x4096, .f32⟩ : BufTy).Contents (Elt F)),
    binary main_v15 main_v17 main_v18 (mulf : (⟨S2x2048x4096, .f32⟩ : BufTy).Contents (Elt F) → (⟨S2x2048x4096, .f32⟩ : BufTy).Contents (Elt F) → (⟨S2x2048x4096, .f32⟩ : BufTy).Contents (Elt F)),
    unary main_arg4 main_v19 (broadcastInDim S1x1x4096 ![2] bcast_S4096_S1x1x4096_2 : (⟨S4096, .f32⟩ : BufTy).Contents (Elt F) → (⟨S1x1x4096, .f32⟩ : BufTy).Contents (Elt F)),
    unary main_v19 main_v20 (broadcastInDim S2x2048x4096 ![0, 1, 2] bcast_S1x1x4096_S2x2048x4096_0_1_2 : (⟨S1x1x4096, .f32⟩ : BufTy).Contents (Elt F) → (⟨S2x2048x4096, .f32⟩ : BufTy).Contents (Elt F)),
    binary main_v18 main_v20 main_v21 (addf : (⟨S2x2048x4096, .f32⟩ : BufTy).Contents (Elt F) → (⟨S2x2048x4096, .f32⟩ : BufTy).Contents (Elt F) → (⟨S2x2048x4096, .f32⟩ : BufTy).Contents (Elt F)),
    binary main_v21 main_arg5 main_v22 ((fun l r => Host.dotGeneral dot_S2x2048x4096_S16384x4096_S2x2048x16384_2_1_01_0_n_n none l r) : (⟨S2x2048x4096, .f32⟩ : BufTy).Contents (Elt F) → (⟨S16384x4096, .f32⟩ : BufTy).Contents (Elt F) → (⟨S2x2048x16384, .f32⟩ : BufTy).Contents (Elt F)),
    unary main_arg6 main_v23 (broadcastInDim S1x1x16384 ![2] bcast_S16384_S1x1x16384_2 : (⟨S16384, .f32⟩ : BufTy).Contents (Elt F) → (⟨S1x1x16384, .f32⟩ : BufTy).Contents (Elt F)),
    unary main_v23 main_v24 (broadcastInDim S2x2048x16384 ![0, 1, 2] bcast_S1x1x16384_S2x2048x16384_0_1_2 : (⟨S1x1x16384, .f32⟩ : BufTy).Contents (Elt F) → (⟨S2x2048x16384, .f32⟩ : BufTy).Contents (Elt F)),
    binary main_v22 main_v24 main_v25 (addf : (⟨S2x2048x16384, .f32⟩ : BufTy).Contents (Elt F) → (⟨S2x2048x16384, .f32⟩ : BufTy).Contents (Elt F) → (⟨S2x2048x16384, .f32⟩ : BufTy).Contents (Elt F)),
    binary main_v25 main_v25 main_v26 (mulf : (⟨S2x2048x16384, .f32⟩ : BufTy).Contents (Elt F) → (⟨S2x2048x16384, .f32⟩ : BufTy).Contents (Elt F) → (⟨S2x2048x16384, .f32⟩ : BufTy).Contents (Elt F)),
    binary main_v26 main_v25 main_v27 (mulf : (⟨S2x2048x16384, .f32⟩ : BufTy).Contents (Elt F) → (⟨S2x2048x16384, .f32⟩ : BufTy).Contents (Elt F) → (⟨S2x2048x16384, .f32⟩ : BufTy).Contents (Elt F)),
    nullary main_cst_2 (constant S_ .f32 0x3D372713#32),
    unary main_cst_2 main_v28 (broadcastInDim S2x2048x16384 ![] bcast_S_S2x2048x16384 : (⟨S_, .f32⟩ : BufTy).Contents (Elt F) → (⟨S2x2048x16384, .f32⟩ : BufTy).Contents (Elt F)),
    binary main_v28 main_v27 main_v29 (mulf : (⟨S2x2048x16384, .f32⟩ : BufTy).Contents (Elt F) → (⟨S2x2048x16384, .f32⟩ : BufTy).Contents (Elt F) → (⟨S2x2048x16384, .f32⟩ : BufTy).Contents (Elt F)),
    binary main_v25 main_v29 main_v30 (addf : (⟨S2x2048x16384, .f32⟩ : BufTy).Contents (Elt F) → (⟨S2x2048x16384, .f32⟩ : BufTy).Contents (Elt F) → (⟨S2x2048x16384, .f32⟩ : BufTy).Contents (Elt F)),
    nullary main_cst_3 (constant S_ .f32 0x3F4C422A#32),
    unary main_cst_3 main_v31 (broadcastInDim S2x2048x16384 ![] bcast_S_S2x2048x16384 : (⟨S_, .f32⟩ : BufTy).Contents (Elt F) → (⟨S2x2048x16384, .f32⟩ : BufTy).Contents (Elt F)),
    binary main_v31 main_v30 main_v32 (mulf : (⟨S2x2048x16384, .f32⟩ : BufTy).Contents (Elt F) → (⟨S2x2048x16384, .f32⟩ : BufTy).Contents (Elt F) → (⟨S2x2048x16384, .f32⟩ : BufTy).Contents (Elt F)),
    unary main_v32 main_v33 (Host.tanh : (⟨S2x2048x16384, .f32⟩ : BufTy).Contents (Elt F) → (⟨S2x2048x16384, .f32⟩ : BufTy).Contents (Elt F)),
    nullary main_cst_4 (constant S_ .f32 0x3F800000#32),
    unary main_cst_4 main_v34 (broadcastInDim S2x2048x16384 ![] bcast_S_S2x2048x16384 : (⟨S_, .f32⟩ : BufTy).Contents (Elt F) → (⟨S2x2048x16384, .f32⟩ : BufTy).Contents (Elt F)),
    binary main_v34 main_v33 main_v35 (addf : (⟨S2x2048x16384, .f32⟩ : BufTy).Contents (Elt F) → (⟨S2x2048x16384, .f32⟩ : BufTy).Contents (Elt F) → (⟨S2x2048x16384, .f32⟩ : BufTy).Contents (Elt F)),
    nullary main_cst_5 (constant S_ .f32 0x3F000000#32),
    unary main_cst_5 main_v36 (broadcastInDim S2x2048x16384 ![] bcast_S_S2x2048x16384 : (⟨S_, .f32⟩ : BufTy).Contents (Elt F) → (⟨S2x2048x16384, .f32⟩ : BufTy).Contents (Elt F)),
    binary main_v36 main_v35 main_v37 (mulf : (⟨S2x2048x16384, .f32⟩ : BufTy).Contents (Elt F) → (⟨S2x2048x16384, .f32⟩ : BufTy).Contents (Elt F) → (⟨S2x2048x16384, .f32⟩ : BufTy).Contents (Elt F)),
    binary main_v25 main_v37 main_v38 (mulf : (⟨S2x2048x16384, .f32⟩ : BufTy).Contents (Elt F) → (⟨S2x2048x16384, .f32⟩ : BufTy).Contents (Elt F) → (⟨S2x2048x16384, .f32⟩ : BufTy).Contents (Elt F)),
    binary main_v38 main_arg7 main_v39 ((fun l r => Host.dotGeneral dot_S2x2048x16384_S4096x16384_S2x2048x4096_2_1_01_0_n_n none l r) : (⟨S2x2048x16384, .f32⟩ : BufTy).Contents (Elt F) → (⟨S4096x16384, .f32⟩ : BufTy).Contents (Elt F) → (⟨S2x2048x4096, .f32⟩ : BufTy).Contents (Elt F)),
    binary main_v39 main_v3 main_v40 (addf : (⟨S2x2048x4096, .f32⟩ : BufTy).Contents (Elt F) → (⟨S2x2048x4096, .f32⟩ : BufTy).Contents (Elt F) → (⟨S2x2048x4096, .f32⟩ : BufTy).Contents (Elt F)),
    unary main_arg8 main_v41 (broadcastInDim S1x1x4096 ![2] bcast_S4096_S1x1x4096_2 : (⟨S4096, .f32⟩ : BufTy).Contents (Elt F) → (⟨S1x1x4096, .f32⟩ : BufTy).Contents (Elt F)),
    unary main_v41 main_v42 (broadcastInDim S2x2048x4096 ![0, 1, 2] bcast_S1x1x4096_S2x2048x4096_0_1_2 : (⟨S1x1x4096, .f32⟩ : BufTy).Contents (Elt F) → (⟨S2x2048x4096, .f32⟩ : BufTy).Contents (Elt F)),
    binary main_v40 main_v42 main_v43 (addf : (⟨S2x2048x4096, .f32⟩ : BufTy).Contents (Elt F) → (⟨S2x2048x4096, .f32⟩ : BufTy).Contents (Elt F) → (⟨S2x2048x4096, .f32⟩ : BufTy).Contents (Elt F)) ]

/-- @main is that straight line: with the two functions' definitions unfolded at their calls and sequencing
    reassociated, both sides are one chain of host steps (by computation). -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., binary_bufs_sub .., binary_bufs_sub .., binary_bufs_sub ..,
    nullary_bufs_sub .., unary_bufs_sub .., binary_bufs_sub .., binary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., binary_bufs_sub .., binary_bufs_sub .., binary_bufs_sub .., unary_bufs_sub ..,
    unary_bufs_sub .., binary_bufs_sub ..⟩

/-- On every device, for any float values, from any memory with zero counters: every weakly fair execution of
    @main terminates, and every final state has each buffer at the operations' fold over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStages.lean ====
/-
  The reference's result as one pure term of its nine argument arrays, cut into stages, and each
  stage read at an index: the residual sum, the row mean, the row variance (the variance function's
  normaliser 4096 − float 0 is 4096, which is positive, so its selection takes the quotient), the
  layer norm, the first product with its bias, the tanh approximation, the second product with the
  skip and the output bias.
-/
import proofs.«162219_j24446953848859_2_alg».proof.Proof.Gen.ReferenceIdeal
import proofs.«162219_j24446953848859_2_alg».proof.Proof.Spec
import Idealize.ShloMosaic.Lib.ValueIdx
import Idealize.ShloMosaic.Lib.Pipeline.Value
import Idealize.ShloMosaic.PureOps.Ideal.Laws

noncomputable section

namespace Cert.ReferenceIdeal.RefStages

open Cert.ReferenceIdeal Cert.ReferenceIdeal.Gen Idealize.ShloMosaic Idealize.ShloMosaic.ValueIdx

/-- A row of 4096 entries laid along the two leading axes. -/
abbrev row4096 {α : Type} (b : S4096.Idx → α) : S2x2048x4096.Idx → α :=
  broadcastInDim S2x2048x4096 ![0, 1, 2] bcast_S1x1x4096_S2x2048x4096_0_1_2 (broadcastInDim S1x1x4096 ![2] bcast_S4096_S1x1x4096_2 b)
/-- A row of 16384 entries laid along the two leading axes. -/
abbrev row16384 {α : Type} (b : S16384.Idx → α) : S2x2048x16384.Idx → α :=
  broadcastInDim S2x2048x16384 ![0, 1, 2] bcast_S1x1x16384_S2x2048x16384_0_1_2 (broadcastInDim S1x1x16384 ![2] bcast_S16384_S1x1x16384_2 b)
/-- A per-row column laid along the hidden axis. -/
abbrev col {α : Type} (u : S2x2048x1.Idx → α) : S2x2048x4096.Idx → α :=
  broadcastInDim S2x2048x4096 ![0, 1, 2] bcast_S2x2048x1_S2x2048x4096_0_1_2 u

/-! ## Broadcasts read at an index -/

/-- A scalar broadcast to any shape reads the scalar. -/
theorem bc_scalar {t : Shape} {α : Type} (H : S_.BroadcastsInDim t (![] : Fin 0 → Fin t.rank)) (c : S_.Idx → α) (j : t.Idx) :
    broadcastInDim t ![] H c j = c ix0 :=
  broadcastInDim_apply _ H c j ix0 (fun a => a.elim0)

/-- A row of 4096 entries broadcast along the two leading axes reads the row at the last coordinate. -/
theorem bc_row4096 {α : Type} (b : S4096.Idx → α) (p : Fin 2) (q : Fin 2048) (h : Fin 4096) :
    row4096 b (ix3 p q h) = b (ix1 h) := by
  refine (broadcastInDim_apply _ bcast_S1x1x4096_S2x2048x4096_0_1_2 _ (ix3 p q h) (ix3 (0 : Fin 1) (0 : Fin 1) h)
    (fun a => match a with
      | ⟨0, _⟩ => by show 0 = if (1 : Nat) = 1 then 0 else p.val; rw [if_pos rfl]
      | ⟨1, _⟩ => by show 0 = if (1 : Nat) = 1 then 0 else q.val; rw [if_pos rfl]
      | ⟨2, _⟩ => by show h.val = if (4096 : Nat) = 1 then 0 else h.val; rw [if_neg (by decide)])).trans ?_
  exact broadcastInDim_apply _ bcast_S4096_S1x1x4096_2 b (ix3 (0 : Fin 1) (0 : Fin 1) h) (ix1 h)
    (fun a => match a with
      | ⟨0, _⟩ => by show h.val = if (4096 : Nat) = 1 then 0 else h.val; rw [if_neg (by decide)])

/-- A row of 16384 entries broadcast along the two leading axes reads the row at the last coordinate. -/
theorem bc_row16384 {α : Type} (b : S16384.Idx → α) (p : Fin 2) (q : Fin 2048) (i : Fin 16384) :
    row16384 b (ix3 p q i) = b (ix1 i) := by
  refine (broadcastInDim_apply _ bcast_S1x1x16384_S2x2048x16384_0_1_2 _ (ix3 p q i) (ix3 (0 : Fin 1) (0 : Fin 1) i)
    (fun a => match a with
      | ⟨0, _⟩ => by show 0 = if (1 : Nat) = 1 then 0 else p.val; rw [if_pos rfl]
      | ⟨1, _⟩ => by show 0 = if (1 : Nat) = 1 then 0 else q.val; rw [if_pos rfl]
      | ⟨2, _⟩ => by show i.val = if (16384 : Nat) = 1 then 0 else i.val; rw [if_neg (by decide)])).trans ?_
  exact broadcastInDim_apply _ bcast_S16384_S1x1x16384_2 b (ix3 (0 : Fin 1) (0 : Fin 1) i) (ix1 i)
    (fun a => match a with
      | ⟨0, _⟩ => by show i.val = if (16384 : Nat) = 1 then 0 else i.val; rw [if_neg (by decide)])

/-- A column (one entry per row) broadcast along the hidden axis reads the row's entry. -/
theorem bc_col {α : Type} (u : S2x2048x1.Idx → α) (p : Fin 2) (q : Fin 2048) (h : Fin 4096) :
    col u (ix3 p q h) = u (ix3 p q (0 : Fin 1)) :=
  broadcastInDim_apply _ bcast_S2x2048x1_S2x2048x4096_0_1_2 u (ix3 p q h) (ix3 p q (0 : Fin 1))
    (fun a => match a with
      | ⟨0, _⟩ => by show p.val = if (2 : Nat) = 1 then 0 else p.val; rw [if_neg (by decide)]
      | ⟨1, _⟩ => by show q.val = if (2048 : Nat) = 1 then 0 else q.val; rw [if_neg (by decide)]
      | ⟨2, _⟩ => by show 0 = if (1 : Nat) = 1 then 0 else h.val; rw [if_pos rfl])

/-- A per-row value given a trailing unit axis reads the row's value. -/
theorem bc_keep {α : Type} (w : S2x2048.Idx → α) (p : Fin 2) (q : Fin 2048) (z : Fin 1) :
    broadcastInDim S2x2048x1 ![0, 1] bcast_S2x2048_S2x2048x1_0_1 w (ix3 p q z) = w (ix2 p q) :=
  broadcastInDim_apply _ bcast_S2x2048_S2x2048x1_0_1 w (ix3 p q z) (ix2 p q)
    (fun a => match a with
      | ⟨0, _⟩ => by show p.val = if (2 : Nat) = 1 then 0 else p.val; rw [if_neg (by decide)]
      | ⟨1, _⟩ => by show q.val = if (2048 : Nat) = 1 then 0 else q.val; rw [if_neg (by decide)])

/-! ## The row sum and the two products read at an index -/

/-- The host's sum over the hidden axis from the zero word: the plain sum of the row. -/
theorem rowsum_apply (v : FVec Ideal S2x2048x4096 .f32) (p : Fin 2) (q : Fin 2048) :
    Host.reduceAdd (F := Ideal) v (constant (F := Ideal) S_ .f32 0x00000000#32) reducesTo_S2x2048x4096_S2x2048_d2 h_S_ (ix2 p q)
      = ∑ h : Fin 4096, v (ix3 p q h) := by
  unfold Host.reduceAdd
  simp only [Ideal.hostReduceAdd_def]
  rw [Ideal.hostReduceAdd_single reducesTo_S2x2048x4096_S2x2048_d2 (by decide)]
  rw [constant_apply, Ideal.ofBits_zero_f32, zero_add]
  refine Finset.sum_congr rfl fun k _ => ?_
  exact congrArg v (funext fun a => Fin.ext (by match a with | ⟨0, _⟩ => rfl | ⟨1, _⟩ => rfl | ⟨2, _⟩ => rfl))

/-- The first product's dimension numbers: [2,2048,4096] · [16384,4096] over the hidden axis. -/
abbrev D1 : DotDims S2x2048x4096 S16384x4096 S2x2048x16384 := dot_S2x2048x4096_S16384x4096_S2x2048x16384_2_1_01_0_n_n
/-- The second product's: [2,2048,16384] · [4096,16384] over the intermediate axis. -/
abbrev D2 : DotDims S2x2048x16384 S4096x16384 S2x2048x4096 := dot_S2x2048x16384_S4096x16384_S2x2048x4096_2_1_01_0_n_n

theorem lhs1_0 (i : S2x2048x16384.Idx) (k : D1.contr.Idx) : (D1.lhsIdx i k 0).val = (i 0).val := by
  unfold DotDims.lhsIdx
  rw [dif_neg (show ¬(0 : Fin S2x2048x4096.rank) ∈ D1.lhsBatch by decide), dif_pos (show (0 : Fin S2x2048x4096.rank) ∈ D1.lhsNonContracting by decide)]
  rfl
theorem lhs1_1 (i : S2x2048x16384.Idx) (k : D1.contr.Idx) : (D1.lhsIdx i k 1).val = (i 1).val := by
  unfold DotDims.lhsIdx
  rw [dif_neg (show ¬(1 : Fin S2x2048x4096.rank) ∈ D1.lhsBatch by decide), dif_pos (show (1 : Fin S2x2048x4096.rank) ∈ D1.lhsNonContracting by decide)]
  rfl
theorem lhs1_2 (i : S2x2048x16384.Idx) (k : D1.contr.Idx) : (D1.lhsIdx i k 2).val = (k ⟨0, by decide⟩).val :=
  D1.lhsIdx_val_of_single rfl i k
theorem rhs1_0 (i : S2x2048x16384.Idx) (k : D1.contr.Idx) : (D1.rhsIdx i k 0).val = (i 2).val := by
  unfold DotDims.rhsIdx
  rw [dif_neg (show ¬(0 : Fin S16384x4096.rank) ∈ D1.rhsBatch by decide), dif_pos (show (0 : Fin S16384x4096.rank) ∈ D1.rhsNonContracting by decide)]
  rfl
theorem rhs1_1 (i : S2x2048x16384.Idx) (k : D1.contr.Idx) : (D1.rhsIdx i k 1).val = (k ⟨0, by decide⟩).val :=
  D1.rhsIdx_val_of_single rfl i k

/-- The first product at (p, q, i): the sum over the hidden axis of the left row times row i of the right operand. -/
theorem dot1_apply (l : FVec Ideal S2x2048x4096 .f32) (w : FVec Ideal S16384x4096 .f32) (p : Fin 2) (q : Fin 2048) (i : Fin 16384) :
    Host.dotGeneral (F := Ideal) D1 none l w (ix3 p q i) = ∑ h : Fin 4096, l (ix3 p q h) * w (ix2 i h) := by
  simp only [Host.dotGeneral]
  rw [Ideal.dotGeneral_apply, ← Equiv.sum_comp (ValueIdx.contrEquiv1 D1 4096 rfl rfl).symm]
  refine Finset.sum_congr rfl fun k _ => ?_
  have hk := ValueIdx.contrEquiv1_symm_val D1 4096 rfl rfl k
  have el : D1.lhsIdx (ix3 p q i) ((ValueIdx.contrEquiv1 D1 4096 rfl rfl).symm k) = ix3 p q k := funext fun a => Fin.ext (by
    match a with
    | ⟨0, _⟩ => exact lhs1_0 _ _
    | ⟨1, _⟩ => exact lhs1_1 _ _
    | ⟨2, _⟩ => exact (lhs1_2 _ _).trans hk)
  have er : D1.rhsIdx (ix3 p q i) ((ValueIdx.contrEquiv1 D1 4096 rfl rfl).symm k) = ix2 i k := funext fun a => Fin.ext (by
    match a with
    | ⟨0, _⟩ => exact rhs1_0 _ _
    | ⟨1, _⟩ => exact (rhs1_1 _ _).trans hk)
  rw [el, er]

theorem lhs2_0 (i : S2x2048x4096.Idx) (k : D2.contr.Idx) : (D2.lhsIdx i k 0).val = (i 0).val := by
  unfold DotDims.lhsIdx
  rw [dif_neg (show ¬(0 : Fin S2x2048x16384.rank) ∈ D2.lhsBatch by decide), dif_pos (show (0 : Fin S2x2048x16384.rank) ∈ D2.lhsNonContracting by decide)]
  rfl
theorem lhs2_1 (i : S2x2048x4096.Idx) (k : D2.contr.Idx) : (D2.lhsIdx i k 1).val = (i 1).val := by
  unfold DotDims.lhsIdx
  rw [dif_neg (show ¬(1 : Fin S2x2048x16384.rank) ∈ D2.lhsBatch by decide), dif_pos (show (1 : Fin S2x2048x16384.rank) ∈ D2.lhsNonContracting by decide)]
  rfl
theorem lhs2_2 (i : S2x2048x4096.Idx) (k : D2.contr.Idx) : (D2.lhsIdx i k 2).val = (k ⟨0, by decide⟩).val :=
  D2.lhsIdx_val_of_single rfl i k
theorem rhs2_0 (i : S2x2048x4096.Idx) (k : D2.contr.Idx) : (D2.rhsIdx i k 0).val = (i 2).val := by
  unfold DotDims.rhsIdx
  rw [dif_neg (show ¬(0 : Fin S4096x16384.rank) ∈ D2.rhsBatch by decide), dif_pos (show (0 : Fin S4096x16384.rank) ∈ D2.rhsNonContracting by decide)]
  rfl
theorem rhs2_1 (i : S2x2048x4096.Idx) (k : D2.contr.Idx) : (D2.rhsIdx i k 1).val = (k ⟨0, by decide⟩).val :=
  D2.rhsIdx_val_of_single rfl i k

/-- The second product at (p, q, h): the sum over the intermediate axis of the left row times row h of the right operand. -/
theorem dot2_apply (g : FVec Ideal S2x2048x16384 .f32) (w : FVec Ideal S4096x16384 .f32) (p : Fin 2) (q : Fin 2048) (h : Fin 4096) :
    Host.dotGeneral (F := Ideal) D2 none g w (ix3 p q h) = ∑ i : Fin 16384, g (ix3 p q i) * w (ix2 h i) := by
  simp only [Host.dotGeneral]
  rw [Ideal.dotGeneral_apply, ← Equiv.sum_comp (ValueIdx.contrEquiv1 D2 16384 rfl rfl).symm]
  refine Finset.sum_congr rfl fun k _ => ?_
  have hk := ValueIdx.contrEquiv1_symm_val D2 16384 rfl rfl k
  have el : D2.lhsIdx (ix3 p q h) ((ValueIdx.contrEquiv1 D2 16384 rfl rfl).symm k) = ix3 p q k := funext fun a => Fin.ext (by
    match a with
    | ⟨0, _⟩ => exact lhs2_0 _ _
    | ⟨1, _⟩ => exact lhs2_1 _ _
    | ⟨2, _⟩ => exact (lhs2_2 _ _).trans hk)
  have er : D2.rhsIdx (ix3 p q h) ((ValueIdx.contrEquiv1 D2 16384 rfl rfl).symm k) = ix2 h k := funext fun a => Fin.ext (by
    match a with
    | ⟨0, _⟩ => exact rhs2_0 _ _
    | ⟨1, _⟩ => exact (rhs2_1 _ _).trans hk)
  rw [el, er]

/-! ## Elementwise host operations at an index (by definition) -/

theorem hdivf_apply {s : Shape} {φ : FTy} (a b : FVec Ideal s φ) (i : s.Idx) : Host.divf a b i = Ideal.div (a i) (b i) := rfl
theorem hrsqrt_apply {s : Shape} {φ : FTy} (a : FVec Ideal s φ) (i : s.Idx) : Host.rsqrt a i = Ideal.rsqrt (a i) := rfl
theorem htanh_apply {s : Shape} {φ : FTy} (a : FVec Ideal s φ) (i : s.Idx) : Host.tanh a i = Ideal.tanh (a i) := rfl

/-! ## The stages as terms -/

/-- The residual sum. -/
def t3 (a0 a1 : FVec Ideal S2x2048x4096 .f32) (a2 : FVec Ideal S4096 .f32) : FVec Ideal S2x2048x4096 .f32 :=
  addf (addf a0 a1) (row4096 a2)

/-- The row mean, one entry per row: the row sum over the word of 4096. -/
def tMean (v : FVec Ideal S2x2048x4096 .f32) : FVec Ideal S2x2048x1 .f32 :=
  Host.divf
    (broadcastInDim S2x2048x1 ![0, 1] bcast_S2x2048_S2x2048x1_0_1
      (Host.reduceAdd v (constant (F := Ideal) S_ .f32 0x00000000#32) reducesTo_S2x2048x4096_S2x2048_d2 h_S_))
    (broadcastInDim S2x2048x1 ![] bcast_S_S2x2048x1 (constant (F := Ideal) S_ .f32 0x45800000#32))

/-- The centred array: each entry minus its row's mean. -/
def tCen (v : FVec Ideal S2x2048x4096 .f32) : FVec Ideal S2x2048x4096 .f32 := subf v (col (tMean v))

/-- The variance function's normaliser: the word of 4096 minus the float of the integer zero. -/
def tNorm : FVec Ideal S_ .f32 := subf (constant (F := Ideal) S_ .f32 0x45800000#32) (sitofp .f32 (constantI S_ 32 0#32))

/-- The row variance as the variance function computes it: the sum of centred squares over the normaliser where
    the normaliser is positive, the not-a-number word elsewhere. -/
def tVar (v : FVec Ideal S2x2048x4096 .f32) : FVec Ideal S2x2048x1 .f32 :=
  select (broadcastInDim S2x2048x1 ![] bcast_S_S2x2048x1 (cmpf .ogt tNorm (constant (F := Ideal) S_ .f32 0x00000000#32)))
    (Host.divf
      (broadcastInDim S2x2048x1 ![0, 1] bcast_S2x2048_S2x2048x1_0_1
        (Host.reduceAdd (mulf (tCen v) (tCen v)) (constant (F := Ideal) S_ .f32 0x00000000#32) reducesTo_S2x2048x4096_S2x2048_d2 h_S_))
      (broadcastInDim S2x2048x1 ![] bcast_S_S2x2048x1 tNorm))
    (broadcastInDim S2x2048x1 ![] bcast_S_S2x2048x1 (id (constant (F := Ideal) S_ .f32 0x7FC00000#32)))

/-- The layer norm: centred, scaled by the inverse root of variance plus the small word, times the weight row, plus the bias row. -/
def tLn (v : FVec Ideal S2x2048x4096 .f32) (a3 a4 : FVec Ideal S4096 .f32) : FVec Ideal S2x2048x4096 .f32 :=
  addf (mulf (mulf (tCen v)
      (col (Host.rsqrt (addf (tVar v) (broadcastInDim S2x2048x1 ![] bcast_S_S2x2048x1 (constant (F := Ideal) S_ .f32 0x2B8CBCCC#32))))))
    (row4096 a3)) (row4096 a4)

/-- The first product plus its bias row. -/
def tPre (l : FVec Ideal S2x2048x4096 .f32) (a5 : FVec Ideal S16384x4096 .f32) (a6 : FVec Ideal S16384 .f32) : FVec Ideal S2x2048x16384 .f32 :=
  addf (Host.dotGeneral (F := Ideal) D1 none l a5) (row16384 a6)

/-- A scalar word spread over the intermediate array. -/
abbrev wide (c : FVec Ideal S_ .f32) : FVec Ideal S2x2048x16384 .f32 := broadcastInDim S2x2048x16384 ![] bcast_S_S2x2048x16384 c

/-- The tanh approximation applied entrywise, the cube taken as (u·u)·u. -/
def tGelu (u : FVec Ideal S2x2048x16384 .f32) : FVec Ideal S2x2048x16384 .f32 :=
  mulf u (mulf (wide (constant (F := Ideal) S_ .f32 0x3F000000#32))
    (addf (wide (constant (F := Ideal) S_ .f32 0x3F800000#32))
      (Host.tanh (mulf (wide (constant (F := Ideal) S_ .f32 0x3F4C422A#32))
        (addf u (mulf (wide (constant (F := Ideal) S_ .f32 0x3D372713#32)) (mulf (mulf u u) u)))))))

/-- The second product plus the residual sum plus the output bias row. -/
def tOut (g : FVec Ideal S2x2048x16384 .f32) (v : FVec Ideal S2x2048x4096 .f32) (a7 : FVec Ideal S4096x16384 .f32) (a8 : FVec Ideal S4096 .f32) :
    FVec Ideal S2x2048x4096 .f32 :=
  addf (addf (Host.dotGeneral (F := Ideal) D2 none g a7) v) (row4096 a8)

/-- The reference's result as one term of the nine arguments. -/
def refTerm (a0 a1 : FVec Ideal S2x2048x4096 .f32) (a2 a3 a4 : FVec Ideal S4096 .f32) (a5 : FVec Ideal S16384x4096 .f32)
    (a6 : FVec Ideal S16384 .f32) (a7 : FVec Ideal S4096x16384 .f32) (a8 : FVec Ideal S4096 .f32) : FVec Ideal S2x2048x4096 .f32 :=
  tOut (tGelu (tPre (tLn (t3 a0 a1 a2) a3 a4) a5 a6)) (t3 a0 a1 a2) a7 a8

/-! ## Each stage at an index -/

theorem t3_apply (a0 a1 : FVec Ideal S2x2048x4096 .f32) (a2 : FVec Ideal S4096 .f32) (p : Fin 2) (q : Fin 2048) (h : Fin 4096) :
    t3 a0 a1 a2 (ix3 p q h)
      = Cert.MlpSpec.ra (fun h => a0 (ix3 p q h)) (fun h => a1 (ix3 p q h)) (fun h => a2 (ix1 h)) h := by
  unfold t3
  rw [addf_apply, addf_apply, bc_row4096]
  rfl

theorem tMean_apply (v : FVec Ideal S2x2048x4096 .f32) (p : Fin 2) (q : Fin 2048) (z : Fin 1) :
    tMean v (ix3 p q z) = Cert.MlpSpec.mean (fun h => v (ix3 p q h)) := by
  unfold tMean
  rw [hdivf_apply, bc_keep, rowsum_apply, bc_scalar, constant_apply]
  rfl

theorem tCen_apply (v : FVec Ideal S2x2048x4096 .f32) (p : Fin 2) (q : Fin 2048) (h : Fin 4096) :
    tCen v (ix3 p q h) = v (ix3 p q h) - Cert.MlpSpec.mean (fun h => v (ix3 p q h)) := by
  unfold tCen
  rw [subf_apply, bc_col, tMean_apply]

/-- The word 0x45800000 denotes 4096. -/
theorem word4096 : Ideal.ofBits .f32 0x45800000#32 = ((4096 : ℝ) : EReal) := by
  simp [Ideal.ofBits, Ideal.ieee]
  rw [← EReal.coe_mul]
  norm_num

theorem word4096_pos : (0 : EReal) < Ideal.ofBits .f32 0x45800000#32 := by
  rw [word4096]
  exact_mod_cast (by norm_num : (0 : ℝ) < 4096)

/-- The normaliser is the word of 4096: the float of the integer zero is zero. -/
theorem tNorm_apply : tNorm ix0 = Ideal.ofBits .f32 0x45800000#32 := by
  show Ideal.ofBits .f32 0x45800000#32 - (((0#32 : BitVec 32).toInt : ℝ) : EReal) = _
  rw [BitVec.toInt_zero, Int.cast_zero, EReal.coe_zero, sub_zero]

/-- The normaliser exceeds zero, so the comparison is the true bit. -/
theorem norm_gt : FloatOps.cmpf (F := Ideal) (φ := .f32) .ogt (Ideal.ofBits .f32 0x45800000#32) (0 : EReal) = 1#1 := by
  show BitVec.ofBool (decide ((0 : EReal) < Ideal.ofBits .f32 0x45800000#32)) = 1#1
  rw [decide_eq_true word4096_pos]
  rfl

theorem tVar_apply (v : FVec Ideal S2x2048x4096 .f32) (p : Fin 2) (q : Fin 2048) (z : Fin 1) :
    tVar v (ix3 p q z) = Cert.MlpSpec.var (fun h => v (ix3 p q h)) := by
  unfold tVar
  rw [select_apply, bc_scalar, cmpf_apply, tNorm_apply, constant_apply, Ideal.ofBits_zero_f32, norm_gt, select_one]
  rw [hdivf_apply, bc_keep, rowsum_apply, bc_scalar, tNorm_apply]
  simp only [mulf_apply, tCen_apply]
  rfl

theorem tLn_apply (v : FVec Ideal S2x2048x4096 .f32) (a3 a4 : FVec Ideal S4096 .f32) (p : Fin 2) (q : Fin 2048) (h : Fin 4096) :
    tLn v a3 a4 (ix3 p q h)
      = Cert.MlpSpec.ln (fun h => v (ix3 p q h)) (fun h => a3 (ix1 h)) (fun h => a4 (ix1 h)) h := by
  unfold tLn
  rw [addf_apply, mulf_apply, mulf_apply, tCen_apply, bc_col, hrsqrt_apply, addf_apply, tVar_apply, bc_scalar, constant_apply,
    bc_row4096, bc_row4096]
  rfl

theorem tPre_apply (l : FVec Ideal S2x2048x4096 .f32) (a5 : FVec Ideal S16384x4096 .f32) (a6 : FVec Ideal S16384 .f32)
    (p : Fin 2) (q : Fin 2048) (i : Fin 16384) :
    tPre l a5 a6 (ix3 p q i) = (∑ h : Fin 4096, l (ix3 p q h) * a5 (ix2 i h)) + a6 (ix1 i) := by
  unfold tPre
  rw [addf_apply, dot1_apply, bc_row16384]

theorem tGelu_apply (u : FVec Ideal S2x2048x16384 .f32) (j : S2x2048x16384.Idx) : tGelu u j = Cert.MlpSpec.gelu (u j) := by
  unfold tGelu Cert.MlpSpec.gelu
  simp only [mulf_apply, addf_apply, htanh_apply, bc_scalar, constant_apply]
  rw [mul_assoc (u j) (u j) (u j)]

theorem tOut_apply (g : FVec Ideal S2x2048x16384 .f32) (v : FVec Ideal S2x2048x4096 .f32) (a7 : FVec Ideal S4096x16384 .f32)
    (a8 : FVec Ideal S4096 .f32) (p : Fin 2) (q : Fin 2048) (h : Fin 4096) :
    tOut g v a7 a8 (ix3 p q h) = ((∑ i : Fin 16384, g (ix3 p q i) * a7 (ix2 h i)) + v (ix3 p q h)) + a8 (ix1 h) := by
  unfold tOut
  rw [addf_apply, addf_apply, dot2_apply, bc_row4096]

/-- The reference's term at (p, q, h) is entry h of the specification's result row of row (p, q). -/
theorem refTerm_apply (a0 a1 : FVec Ideal S2x2048x4096 .f32) (a2 a3 a4 : FVec Ideal S4096 .f32) (a5 : FVec Ideal S16384x4096 .f32)
    (a6 : FVec Ideal S16384 .f32) (a7 : FVec Ideal S4096x16384 .f32) (a8 : FVec Ideal S4096 .f32) (p : Fin 2) (q : Fin 2048) (h : Fin 4096) :
    refTerm a0 a1 a2 a3 a4 a5 a6 a7 a8 (ix3 p q h)
      = Cert.MlpSpec.outRow (fun h => a0 (ix3 p q h)) (fun h => a1 (ix3 p q h)) (fun h => a2 (ix1 h)) (fun h => a3 (ix1 h))
          (fun h => a4 (ix1 h)) (fun i h => a5 (ix2 i h)) (fun i => a6 (ix1 i)) (fun h i => a7 (ix2 h i)) (fun h => a8 (ix1 h)) h := by
  unfold refTerm
  rw [tOut_apply]
  simp only [tGelu_apply, tPre_apply, tLn_apply, t3_apply]
  rfl

/-- The reference's term is the specification's result. -/
theorem refTerm_eq (a0 a1 : FVec Ideal S2x2048x4096 .f32) (a2 a3 a4 : FVec Ideal S4096 .f32) (a5 : FVec Ideal S16384x4096 .f32)
    (a6 : FVec Ideal S16384 .f32) (a7 : FVec Ideal S4096x16384 .f32) (a8 : FVec Ideal S4096 .f32) :
    refTerm a0 a1 a2 a3 a4 a5 a6 a7 a8 = Cert.MlpSpec.out3 a0 a1 a2 a3 a4 a5 a6 a7 a8 :=
  funext fun j => (congrArg (refTerm a0 a1 a2 a3 a4 a5 a6 a7 a8) (eq_ix3 j)).trans
    (refTerm_apply a0 a1 a2 a3 a4 a5 a6 a7 a8 (j 0) (j 1) (j 2))

end Cert.ReferenceIdeal.RefStages

end
-- ==== Proof.RefValue.lean ====
/-
  The reference's run, read as the specification: on every device the result buffer ends at the
  specification's result of the nine argument arrays, and the arguments end unchanged.

  The run leaves every buffer at the fold of the 74 operations over the launch contents; that fold at the
  result buffer is one pure term of the arguments, and that term is the specification's result, index by index.
-/
import proofs.«162219_j24446953848859_2_alg».proof.Proof.RefRun
import proofs.«162219_j24446953848859_2_alg».proof.Proof.RefStages
import proofs.«162219_j24446953848859_2_alg».proof.Proof.Gen.Pre_finite_inputs
import proofs.«162219_j24446953848859_2_alg».proof.Defs

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.RefStages

attribute [local irreducible] Host.reduceAdd in
set_option maxRecDepth 16384 in
set_option maxHeartbeats 1600000 in
/-- The fold at the result buffer is the staged term of the arguments' contents: each operation's result at its
    own buffer is its function of its operands' contents, and the typed references' casts are the identity. -/
theorem out_eq (V : Valuation τ sig (Elt Ideal)) :
    after (ops (F := Ideal)) V (main_v43 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  after_results_simp
  rfl

set_option maxRecDepth 16384 in
set_option maxHeartbeats 1600000 in
theorem arg0_eq (V : Valuation τ sig (Elt Ideal)) :
    after (ops (F := Ideal)) V (main_arg0 : DevRef τ sig) = V (main_arg0 : DevRef τ sig) := by
  after_results_simp

set_option maxRecDepth 16384 in
set_option maxHeartbeats 1600000 in
theorem arg1_eq (V : Valuation τ sig (Elt Ideal)) :
    after (ops (F := Ideal)) V (main_arg1 : DevRef τ sig) = V (main_arg1 : DevRef τ sig) := by
  after_results_simp

set_option maxRecDepth 16384 in
set_option maxHeartbeats 1600000 in
theorem arg2_eq (V : Valuation τ sig (Elt Ideal)) :
    after (ops (F := Ideal)) V (main_arg2 : DevRef τ sig) = V (main_arg2 : DevRef τ sig) := by
  after_results_simp

set_option maxRecDepth 16384 in
set_option maxHeartbeats 1600000 in
theorem arg3_eq (V : Valuation τ sig (Elt Ideal)) :
    after (ops (F := Ideal)) V (main_arg3 : DevRef τ sig) = V (main_arg3 : DevRef τ sig) := by
  after_results_simp

set_option maxRecDepth 16384 in
set_option maxHeartbeats 1600000 in
theorem arg4_eq (V : Valuation τ sig (Elt Ideal)) :
    after (ops (F := Ideal)) V (main_arg4 : DevRef τ sig) = V (main_arg4 : DevRef τ sig) := by
  after_results_simp

set_option maxRecDepth 16384 in
set_option maxHeartbeats 1600000 in
theorem arg5_eq (V : Valuation τ sig (Elt Ideal)) :
    after (ops (F := Ideal)) V (main_arg5 : DevRef τ sig) = V (main_arg5 : DevRef τ sig) := by
  after_results_simp

set_option maxRecDepth 16384 in
set_option maxHeartbeats 1600000 in
theorem arg6_eq (V : Valuation τ sig (Elt Ideal)) :
    after (ops (F := Ideal)) V (main_arg6 : DevRef τ sig) = V (main_arg6 : DevRef τ sig) := by
  after_results_simp

set_option maxRecDepth 16384 in
set_option maxHeartbeats 1600000 in
theorem arg7_eq (V : Valuation τ sig (Elt Ideal)) :
    after (ops (F := Ideal)) V (main_arg7 : DevRef τ sig) = V (main_arg7 : DevRef τ sig) := by
  after_results_simp

set_option maxRecDepth 16384 in
set_option maxHeartbeats 1600000 in
theorem arg8_eq (V : Valuation τ sig (Elt Ideal)) :
    after (ops (F := Ideal)) V (main_arg8 : DevRef τ sig) = V (main_arg8 : DevRef τ sig) := by
  after_results_simp

/-- On every device, from any memory with zero counters: every weakly fair execution of @main terminates with the
    result buffer at the specification's result of the argument arrays, and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43) = Cert.MlpSpec.out3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (defs (F := Ideal)) _ _).mono (fun _ h c =>
      ⟨(h c main_v43).trans ((out_eq _).trans (refTerm_eq _ _ _ _ _ _ _ _ _)),
       (h c main_arg0).trans (arg0_eq _),
       (h c main_arg1).trans (arg1_eq _),
       (h c main_arg2).trans (arg2_eq _),
       (h c main_arg3).trans (arg3_eq _),
       (h c main_arg4).trans (arg4_eq _),
       (h c main_arg5).trans (arg5_eq _),
       (h c main_arg6).trans (arg6_eq _),
       (h c main_arg7).trans (arg7_eq _),
       (h c main_arg8).trans (arg8_eq _)⟩)
    (run_ops m ρ)

/-- The frame claim: the reference runs and its argument arrays end unchanged. -/
theorem frame : Cert.frame_ReferenceIdeal (hReferenceIdeal := Cert.ReferenceIdeal.Gen.facts) (hPre_finite_inputs := Cert.Pre_finite_inputs.Gen.facts) :=
  fun m ρ _ => (θ_run _ _ _).mono (fun _ h c => (h c).2) (run m ρ)

end Cert.ReferenceIdeal.RefValue

end
-- ==== Proof.lean ====
/-
  A fused transformer feed-forward block — residual sum, layer norm, a 4096→16384 product with bias through the tanh
  approximation of the Gaussian unit, a 16384→4096 product, the residual and a bias added back — computed by three kernel
  launches (layer norm by row blocks; the first product by column blocks of the wide weight; the second product by blocks
  of rows, columns and of the contraction, accumulated in a scratch buffer), against the same block written in plain array
  operations.  On the extended reals every float operation is exact and a change of float format is the identity, so both
  programs compute, for each row of the batch × sequence plane, the specification's result row (Proof/Spec.lean):

  * the kernel program, because each launch's output blocks are the specification's functions of its input blocks
    (the block payloads read at an index), its blocks tile its arrays, and the sixteen partial products of the second
    launch add up, by associativity and commutativity of addition alone, to the one sum over the contraction axis;
  * the reference, operation by operation, its variance helper dividing by 4096 − 0 and selecting the quotient because
    4096 > 0.

  No law used needs finiteness, so the precondition is never opened.  The three frames: the kernel program's run at any
  float instance (read at words for the printed program and at the extended reals for its idealisation) leaves the nine
  argument arrays as launched; the reference's run likewise.  The idealisation pass rewrote nothing, so `preserves` is trivial.
-/
import proofs.«162219_j24446953848859_2_alg».proof.Defs
import proofs.«162219_j24446953848859_2_alg».proof.Proof.Gen.Kernel
import proofs.«162219_j24446953848859_2_alg».proof.Proof.Gen.KernelIdeal
import proofs.«162219_j24446953848859_2_alg».proof.Proof.Gen.ReferenceIdeal
import proofs.«162219_j24446953848859_2_alg».proof.Proof.Gen.Pre_finite_inputs
import proofs.«162219_j24446953848859_2_alg».proof.Proof.K.Run
import proofs.«162219_j24446953848859_2_alg».proof.Proof.KI.Value
import proofs.«162219_j24446953848859_2_alg».proof.Proof.RefValue

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := Cert.ReferenceIdeal.RefValue.frame

/-- Both idealised programs end with the specification's function of the arguments, which agree. -/
theorem algebraic : Cert.algebraic_KernelIdeal_ReferenceIdeal := by
  intro m ρ m' ρ' _ hagree
  refine ⟨_, Cert.KernelIdeal.KVal.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
